-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v67)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_v68)) (v3 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_v68) = v2 c
          ∧ r.2.mem ((c.tc : Thread Cert.KernelIdeal.nD Cert.KernelIdeal.τ).loc Cert.KernelIdeal.main_arg2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_v70) = v2 c
          ∧ r.2.mem ((c.tc : Thread Cert.ReferenceIdeal.nD Cert.ReferenceIdeal.τ).loc Cert.ReferenceIdeal.main_arg2) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2000000 : Shape := ⟨2, ![2, 2000000]⟩
abbrev S100000x64 : Shape := ⟨2, ![100000, 64]⟩
abbrev S50000x64 : Shape := ⟨2, ![50000, 64]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : IVec S2x2000000 32) (main_arg1 : FVec F S100000x64 .f32) (main_arg2 : FVec F S50000x64 .f32) (main_arg3 : FVec F S64x64 .f32) (main_arg4 : FVec F S64 .f32) (main_arg5 : FVec F S64x64 .f32) (main_arg6 : FVec F S64 .f32) : IVec S_ 1 :=
  let main_v0 : FVec F S100000x64 .f32 := Host.absf main_arg1
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg2
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S2x2000000 : Shape := ⟨2, ![2, 2000000]⟩
abbrev S100000x64 : Shape := ⟨2, ![100000, 64]⟩
abbrev S50000x64 : Shape := ⟨2, ![50000, 64]⟩
abbrev S64x64 : Shape := ⟨2, ![64, 64]⟩
abbrev S64 : Shape := ⟨1, ![64]⟩
abbrev S1x2000000 : Shape := ⟨2, ![1, 2000000]⟩
abbrev S2000000 : Shape := ⟨1, ![2000000]⟩
abbrev S_ : Shape := ⟨0, ![]⟩
abbrev S150000 : Shape := ⟨1, ![150000]⟩
abbrev S4150000 : Shape := ⟨1, ![4150000]⟩
abbrev S4150000x1 : Shape := ⟨2, ![4150000, 1]⟩
abbrev S4153344x1 : Shape := ⟨2, ![4153344, 1]⟩
abbrev S150000x64 : Shape := ⟨2, ![150000, 64]⟩
abbrev S10000x64 : Shape := ⟨2, ![10000, 64]⟩
abbrev S4150000x64 : Shape := ⟨2, ![4150000, 64]⟩
abbrev S4153344x64 : Shape := ⟨2, ![4153344, 64]⟩
abbrev S12288x64 : Shape := ⟨2, ![12288, 64]⟩
abbrev S12288x1 : Shape := ⟨2, ![12288, 1]⟩
abbrev S1x64 : Shape := ⟨2, ![1, 64]⟩

abbrev nBuf : Space → Nat
  | .hbm => 99
  | .vmem => 32
  | .smem => 0
  | _ => 0

abbrev bufTy : (tb : Table) → Fin (tcTables nBuf tb) → BufTy
  | .hbm, ⟨0, _⟩ => ⟨S2x2000000, .i32⟩
  | .hbm, ⟨1, _⟩ => ⟨S100000x64, .f32⟩
  | .hbm, ⟨2, _⟩ => ⟨S50000x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1x2000000, .i32⟩
  | .hbm, ⟨8, _⟩ => ⟨S2000000, .i32⟩
  | .hbm, ⟨9, _⟩ => ⟨S1x2000000, .i32⟩
  | .hbm, ⟨10, _⟩ => ⟨S2000000, .i32⟩
  | .hbm, ⟨11, _⟩ => ⟨S_, .i32⟩
  | .hbm, ⟨12, _⟩ => ⟨S2000000, .i32⟩
  | .hbm, ⟨13, _⟩ => ⟨S2000000, .i32⟩
  | .hbm, ⟨14, _⟩ => ⟨S150000, .i32⟩
  | .hbm, ⟨15, _⟩ => ⟨S4150000, .i32⟩
  | .hbm, ⟨16, _⟩ => ⟨S4150000, .i32⟩
  | .hbm, ⟨17, _⟩ => ⟨S_, .f32⟩
  | .hbm, ⟨18, _⟩ => ⟨S4150000, .f32⟩
  | .hbm, ⟨19, _⟩ => ⟨S_, .f32⟩
  | .hbm, ⟨20, _⟩ => ⟨S150000, .f32⟩
  | .hbm, ⟨21, _⟩ => ⟨S4150000x1, .i32⟩
  | .hbm, ⟨22, _⟩ => ⟨S150000, .f32⟩
  | .hbm, ⟨23, _⟩ => ⟨S_, .f32⟩
  | .hbm, ⟨24, _⟩ => ⟨S150000, .f32⟩
  | .hbm, ⟨25, _⟩ => ⟨S150000, .i1⟩
  | .hbm, ⟨26, _⟩ => ⟨S150000, .f32⟩
  | .hbm, ⟨27, _⟩ => ⟨S_, .f32⟩
  | .hbm, ⟨28, _⟩ => ⟨S_, .f32⟩
  | .hbm, ⟨29, _⟩ => ⟨S150000, .f32⟩
  | .hbm, ⟨30, _⟩ => ⟨S150000, .f32⟩
  | .hbm, ⟨31, _⟩ => ⟨S_, .i32⟩
  | .hbm, ⟨32, _⟩ => ⟨S4150000, .i32⟩
  | .hbm, ⟨33, _⟩ => ⟨S4150000, .i1⟩
  | .hbm, ⟨34, _⟩ => ⟨S_, .i32⟩
  | .hbm, ⟨35, _⟩ => ⟨S4150000, .i32⟩
  | .hbm, ⟨36, _⟩ => ⟨S4150000, .i32⟩
  | .hbm, ⟨37, _⟩ => ⟨S4150000, .i32⟩
  | .hbm, ⟨38, _⟩ => ⟨S4150000x1, .i32⟩
  | .hbm, ⟨39, _⟩ => ⟨S4150000, .f32⟩
  | .hbm, ⟨40, _⟩ => ⟨S_, .i32⟩
  | .hbm, ⟨41, _⟩ => ⟨S4150000, .i32⟩
  | .hbm, ⟨42, _⟩ => ⟨S4150000, .i1⟩
  | .hbm, ⟨43, _⟩ => ⟨S_, .i32⟩
  | .hbm, ⟨44, _⟩ => ⟨S4150000, .i32⟩
  | .hbm, ⟨45, _⟩ => ⟨S4150000, .i32⟩
  | .hbm, ⟨46, _⟩ => ⟨S4150000, .i32⟩
  | .hbm, ⟨47, _⟩ => ⟨S4150000x1, .i32⟩
  | .hbm, ⟨48, _⟩ => ⟨S4150000, .f32⟩
  | .hbm, ⟨49, _⟩ => ⟨S4150000, .f32⟩
  | .hbm, ⟨50, _⟩ => ⟨S4150000x1, .f32⟩
  | .hbm, ⟨51, _⟩ => ⟨S_, .i32⟩
  | .hbm, ⟨52, _⟩ => ⟨S_, .f32⟩
  | .hbm, ⟨53, _⟩ => ⟨S4153344x1, .f32⟩
  | .hbm, ⟨54, _⟩ => ⟨S150000x64, .f32⟩
  | .hbm, ⟨55, _⟩ => ⟨S150000x64, .f32⟩
  | .hbm, ⟨56, _⟩ => ⟨S_, .i32⟩
  | .hbm, ⟨57, _⟩ => ⟨S4150000, .i32⟩
  | .hbm, ⟨58, _⟩ => ⟨S4150000, .i1⟩
  | .hbm, ⟨59, _⟩ => ⟨S_, .i32⟩
  | .hbm, ⟨60, _⟩ => ⟨S4150000, .i32⟩
  | .hbm, ⟨61, _⟩ => ⟨S4150000, .i32⟩
  | .hbm, ⟨62, _⟩ => ⟨S4150000, .i32⟩
  | .hbm, ⟨63, _⟩ => ⟨S4150000x1, .i32⟩
  | .hbm, ⟨64, _⟩ => ⟨S4150000x64, .f32⟩
  | .hbm, ⟨65, _⟩ => ⟨S_, .i32⟩
  | .hbm, ⟨66, _⟩ => ⟨S_, .f32⟩
  | .hbm, ⟨67, _⟩ => ⟨S4153344x64, .f32⟩
  | .hbm, ⟨68, _⟩ => ⟨S4153344x64, .f32⟩
  | .hbm, ⟨69, _⟩ => ⟨S4150000x64, .f32⟩
  | .hbm, ⟨70, _⟩ => ⟨S_, .f32⟩
  | .hbm, ⟨71, _⟩ => ⟨S150000x64, .f32⟩
  | .hbm, ⟨72, _⟩ => ⟨S4150000x1, .i32⟩
  | .hbm, ⟨73, _⟩ => ⟨S150000x64, .f32⟩
  | .hbm, ⟨74, _⟩ => ⟨S1x64, .f32⟩
  | .hbm, ⟨75, _⟩ => ⟨S150000x64, .f32⟩
  | .hbm, ⟨76, _⟩ => ⟨S150000x64, .f32⟩
  | .hbm, ⟨77, _⟩ => ⟨S_, .i32⟩
  | .hbm, ⟨78, _⟩ => ⟨S4150000, .i32⟩
  | .hbm, ⟨79, _⟩ => ⟨S4150000, .i1⟩
  | .hbm, ⟨80, _⟩ => ⟨S_, .i32⟩
  | .hbm, ⟨81, _⟩ => ⟨S4150000, .i32⟩
  | .hbm, ⟨82, _⟩ => ⟨S4150000, .i32⟩
  | .hbm, ⟨83, _⟩ => ⟨S4150000, .i32⟩
  | .hbm, ⟨84, _⟩ => ⟨S4150000x1, .i32⟩
  | .hbm, ⟨85, _⟩ => ⟨S4150000x64, .f32⟩
  | .hbm, ⟨86, _⟩ => ⟨S_, .i32⟩
  | .hbm, ⟨87, _⟩ => ⟨S_, .f32⟩
  | .hbm, ⟨88, _⟩ => ⟨S4153344x64, .f32⟩
  | .hbm, ⟨89, _⟩ => ⟨S4153344x64, .f32⟩
  | .hbm, ⟨90, _⟩ => ⟨S4150000x64, .f32⟩
  | .hbm, ⟨91, _⟩ => ⟨S_, .f32⟩
  | .hbm, ⟨92, _⟩ => ⟨S150000x64, .f32⟩
  | .hbm, ⟨93, _⟩ => ⟨S4150000x1, .i32⟩
  | .hbm, ⟨94, _⟩ => ⟨S150000x64, .f32⟩
  | .hbm, ⟨95, _⟩ => ⟨S1x64, .f32⟩
  | .hbm, ⟨96, _⟩ => ⟨S150000x64, .f32⟩
  | .hbm, ⟨97, _⟩ => ⟨S100000x64, .f32⟩
  | .hbm, ⟨98, _⟩ => ⟨S50000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S12288x64, .f32⟩
  | .local _ .vmem, ⟨6, _⟩ => ⟨S12288x64, .f32⟩
  | .local _ .vmem, ⟨7, _⟩ => ⟨S12288x1, .f32⟩
  | .local _ .vmem, ⟨8, _⟩ => ⟨S12288x1, .f32⟩
  | .local _ .vmem, ⟨9, _⟩ => ⟨S12288x64, .f32⟩
  | .local _ .vmem, ⟨10, _⟩ => ⟨S12288x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S64x64, .f32⟩
  | .local _ .vmem, ⟨19, _⟩ => ⟨S10000x64, .f32⟩
  | .local _ .vmem, ⟨20, _⟩ => ⟨S10000x64, .f32⟩
  | .local _ .vmem, ⟨21, _⟩ => ⟨S12288x64, .f32⟩
  | .local _ .vmem, ⟨22, _⟩ => ⟨S12288x64, .f32⟩
  | .local _ .vmem, ⟨23, _⟩ => ⟨S12288x1, .f32⟩
  | .local _ .vmem, ⟨24, _⟩ => ⟨S12288x1, .f32⟩
  | .local _ .vmem, ⟨25, _⟩ => ⟨S12288x64, .f32⟩
  | .local _ .vmem, ⟨26, _⟩ => ⟨S12288x64, .f32⟩
  | .local _ .vmem, ⟨27, _⟩ => ⟨S10000x64, .f32⟩
  | .local _ .vmem, ⟨28, _⟩ => ⟨S10000x64, .f32⟩
  | .local _ .vmem, ⟨29, _⟩ => ⟨S1x64, .f32⟩
  | .local _ .vmem, ⟨30, _⟩ => ⟨S10000x64, .f32⟩
  | .local _ .vmem, ⟨31, _⟩ => ⟨S10000x64, .f32⟩
  | _, _ => ⟨S2x2000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_call1_v0 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_c_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_10 : Ref sig .tc := ⟨.hbm, 65, rfl⟩
abbrev main_call2_v0 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_11 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_12 : Ref sig .tc := ⟨.hbm, 77, rfl⟩
abbrev main_v52 : Ref sig .tc := ⟨.hbm, 78, rfl⟩
abbrev main_v53 : Ref sig .tc := ⟨.hbm, 79, rfl⟩
abbrev main_c_13 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_c_14 : Ref sig .tc := ⟨.hbm, 86, rfl⟩
abbrev main_call3_v0 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_15 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![338], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S12288x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S12288x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S12288x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![15], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![15], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![338], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S12288x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S12288x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S12288x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![15], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  concatenates_S2000000_S2000000_S150000_S4150000_d0 : Shape.Concatenates [S2000000, S2000000, S150000] S4150000 0
  bcast_S_S4150000 : S_.BroadcastsInDim S4150000 (![] : Fin 0 → Fin S4150000.rank)
  bcast_S_S150000 : S_.BroadcastsInDim S150000 (![] : Fin 0 → Fin S150000.rank)
  bcast_S4150000_S4150000x1_0 : S4150000.BroadcastsInDim S4150000x1 (![0] : Fin 1 → Fin S4150000x1.rank)
  shapeCasts_S4150000_S4150000x1 : S4150000.ShapeCasts S4150000x1
  pads_S4150000x1_S4153344x1_033440_000 : S4150000x1.Pads (![0, 0] : Fin 2 → Nat) ![3344, 0] ![0, 0] S4153344x1
  h_S_ : 0 < S_.numel
  concatenates_S100000x64_S50000x64_S150000x64_d0 : Shape.Concatenates [S100000x64, S50000x64] S150000x64 0
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  pads_S4150000x64_S4153344x64_033440_000 : S4150000x64.Pads (![0, 0] : Fin 2 → Nat) ![3344, 0] ![0, 0] S4153344x64
  inb_S12288x64_S12288x64_0_0 : ∀ a, (![0, 0] : Fin 2 → Nat) a + S12288x64.size a ≤ S12288x64.size a
  h_S12288x64 : 0 < S12288x64.numel
  shapeCasts_S12288x64_S12288x64 : S12288x64.ShapeCasts S12288x64
  inb_S12288x1_S12288x1_0_0 : ∀ a, (![0, 0] : Fin 2 → Nat) a + S12288x1.size a ≤ S12288x1.size a
  h_S12288x1 : 0 < S12288x1.numel
  shapeCasts_S12288x1_S12288x1 : S12288x1.ShapeCasts S12288x1
  broadcasts_S12288x1_S12288x64 : S12288x1.Broadcasts S12288x64
  slices_S4153344x64_S4150000x64_0_0 : S4153344x64.Slices ![0, 0] S4150000x64
  bcast_S_S150000x64 : S_.BroadcastsInDim S150000x64 (![] : Fin 0 → Fin S150000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  slices_S150000x64_S100000x64_0_0 : S150000x64.Slices ![0, 0] S100000x64
  slices_S150000x64_S50000x64_100000_0 : S150000x64.Slices ![100000, 0] S50000x64
  scatter_S150000_S4150000x1_S4150000_n_0_0_1_wf : ScatterDims.WF S150000 S4150000x1 S4150000 [] [0] [0] 1
  gather_S150000_S4150000x1_S4150000_n_0_n_n_0_1_1_wf : GatherDims.WF S150000 S4150000x1 S4150000 [] [0] [] [0] [] 1 ![1]
  dot_S10000x64_S64x64_S10000x64_1_0_0_1_n_n_wf : DotDims.WF S10000x64 S64x64 S10000x64 [1] [0] [0] [1] [] []
  gather_S150000x64_S4150000x1_S4150000x64_1_0_n_n_0_1_164_wf : GatherDims.WF S150000x64 S4150000x1 S4150000x64 [1] [0] [] [0] [] 1 ![1, 64]
  scatter_S150000x64_S4150000x1_S4150000x64_1_0_0_1_wf : ScatterDims.WF S150000x64 S4150000x1 S4150000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S150000x64.size a
  hwx0_0 : ∀ i : grid0.Coords, EltTy.bits .f32 = 32 ∨ (Rect.block (s := S150000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S150000x64.size a
  hwx0_2 : ∀ i : grid0.Coords, EltTy.bits .f32 = 32 ∨ (Rect.block (s := S150000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S12288x64.size a ≤ S4153344x64.size a
  hwx1_0 : ∀ i : grid1.Coords, EltTy.bits .f32 = 32 ∨ (Rect.block (s := S4153344x64) S12288x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S12288x1.size a ≤ S4153344x1.size a
  hwx1_1 : ∀ i : grid1.Coords, EltTy.bits .f32 = 32 ∨ (Rect.block (s := S4153344x1) S12288x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S12288x64.size a ≤ S4153344x64.size a
  hwx1_2 : ∀ i : grid1.Coords, EltTy.bits .f32 = 32 ∨ (Rect.block (s := S4153344x64) S12288x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S150000x64.size a
  hwx2_0 : ∀ i : grid2.Coords, EltTy.bits .f32 = 32 ∨ (Rect.block (s := S150000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S150000x64.size a
  hwx2_2 : ∀ i : grid2.Coords, EltTy.bits .f32 = 32 ∨ (Rect.block (s := S150000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S150000x64.size a
  hwx3_0 : ∀ i : grid3.Coords, EltTy.bits .f32 = 32 ∨ (Rect.block (s := S150000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S150000x64.size a
  hwx3_2 : ∀ i : grid3.Coords, EltTy.bits .f32 = 32 ∨ (Rect.block (s := S150000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S12288x64.size a ≤ S4153344x64.size a
  hwx4_0 : ∀ i : grid4.Coords, EltTy.bits .f32 = 32 ∨ (Rect.block (s := S4153344x64) S12288x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S12288x1.size a ≤ S4153344x1.size a
  hwx4_1 : ∀ i : grid4.Coords, EltTy.bits .f32 = 32 ∨ (Rect.block (s := S4153344x1) S12288x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S12288x64.size a ≤ S4153344x64.size a
  hwx4_2 : ∀ i : grid4.Coords, EltTy.bits .f32 = 32 ∨ (Rect.block (s := S4153344x64) S12288x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S150000x64.size a
  hwx5_0 : ∀ i : grid5.Coords, EltTy.bits .f32 = 32 ∨ (Rect.block (s := S150000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S150000x64.size a
  hwx5_2 : ∀ i : grid5.Coords, EltTy.bits .f32 = 32 ∨ (Rect.block (s := S150000x64) S10000x64.size (cc5_transform_2 i) (hinb5_2 i)).WholeWords (EltTy.packing .f32)

variable [Facts₀]

def scatter_S150000_S4150000x1_S4150000_n_0_0_1 : ScatterDims S150000 S4150000x1 S4150000 where
  updateWindowDims := []
  insertedWindowDims := [0]
  scatterDimsToOperandDims := [0]
  indexVectorDim := 1
  wf := scatter_S150000_S4150000x1_S4150000_n_0_0_1_wf
def gather_S150000_S4150000x1_S4150000_n_0_n_n_0_1_1 : GatherDims S150000 S4150000x1 S4150000 where
  offsetDims := []
  collapsedSliceDims := [0]
  operandBatchingDims := []
  startIndicesBatchingDims := []
  startIndexMap := [0]
  indexVectorDim := 1
  sliceSizes := ![1]
  wf := gather_S150000_S4150000x1_S4150000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S150000x64_S4150000x1_S4150000x64_1_0_n_n_0_1_164 : GatherDims S150000x64 S4150000x1 S4150000x64 where
  offsetDims := [1]
  collapsedSliceDims := [0]
  operandBatchingDims := []
  startIndicesBatchingDims := []
  startIndexMap := [0]
  indexVectorDim := 1
  sliceSizes := ![1, 64]
  wf := gather_S150000x64_S4150000x1_S4150000x64_1_0_n_n_0_1_164_wf
def scatter_S150000x64_S4150000x1_S4150000x64_1_0_0_1 : ScatterDims S150000x64 S4150000x1 S4150000x64 where
  updateWindowDims := [1]
  insertedWindowDims := [0]
  scatterDimsToOperandDims := [0]
  indexVectorDim := 1
  wf := scatter_S150000x64_S4150000x1_S4150000x64_1_0_0_1_wf

abbrev win0_0 : Pipeline.Window sig grid0 :=
  Pipeline.Window.ofSpec (Memref.whole main_v34) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S12288x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S12288x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S12288x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v50) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v51) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v59) S12288x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v33) S12288x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v60) S12288x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v64) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v65) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v66) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S2x2000000 : Shape := ⟨2, ![2, 2000000]⟩
abbrev S100000x64 : Shape := ⟨2, ![100000, 64]⟩
abbrev S50000x64 : Shape := ⟨2, ![50000, 64]⟩
abbrev S64x64 : Shape := ⟨2, ![64, 64]⟩
abbrev S64 : Shape := ⟨1, ![64]⟩
abbrev S1x2000000 : Shape := ⟨2, ![1, 2000000]⟩
abbrev S2000000 : Shape := ⟨1, ![2000000]⟩
abbrev S_ : Shape := ⟨0, ![]⟩
abbrev S150000 : Shape := ⟨1, ![150000]⟩
abbrev S4150000 : Shape := ⟨1, ![4150000]⟩
abbrev S4150000x1 : Shape := ⟨2, ![4150000, 1]⟩
abbrev S150000x64 : Shape := ⟨2, ![150000, 64]⟩
abbrev S4150000x64 : Shape := ⟨2, ![4150000, 64]⟩
abbrev S1x64 : Shape := ⟨2, ![1, 64]⟩

abbrev nBuf : Space → Nat
  | .hbm => 99
  | .vmem => 0
  | .smem => 0
  | _ => 0

abbrev bufTy : (tb : Table) → Fin (tcTables nBuf tb) → BufTy
  | .hbm, ⟨0, _⟩ => ⟨S2x2000000, .i32⟩
  | .hbm, ⟨1, _⟩ => ⟨S100000x64, .f32⟩
  | .hbm, ⟨2, _⟩ => ⟨S50000x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1x2000000, .i32⟩
  | .hbm, ⟨8, _⟩ => ⟨S2000000, .i32⟩
  | .hbm, ⟨9, _⟩ => ⟨S1x2000000, .i32⟩
  | .hbm, ⟨10, _⟩ => ⟨S2000000, .i32⟩
  | .hbm, ⟨11, _⟩ => ⟨S_, .i32⟩
  | .hbm, ⟨12, _⟩ => ⟨S2000000, .i32⟩
  | .hbm, ⟨13, _⟩ => ⟨S2000000, .i32⟩
  | .hbm, ⟨14, _⟩ => ⟨S150000, .i32⟩
  | .hbm, ⟨15, _⟩ => ⟨S4150000, .i32⟩
  | .hbm, ⟨16, _⟩ => ⟨S4150000, .i32⟩
  | .hbm, ⟨17, _⟩ => ⟨S_, .f32⟩
  | .hbm, ⟨18, _⟩ => ⟨S4150000, .f32⟩
  | .hbm, ⟨19, _⟩ => ⟨S_, .f32⟩
  | .hbm, ⟨20, _⟩ => ⟨S150000, .f32⟩
  | .hbm, ⟨21, _⟩ => ⟨S4150000x1, .i32⟩
  | .hbm, ⟨22, _⟩ => ⟨S150000, .f32⟩
  | .hbm, ⟨23, _⟩ => ⟨S_, .f32⟩
  | .hbm, ⟨24, _⟩ => ⟨S150000, .f32⟩
  | .hbm, ⟨25, _⟩ => ⟨S150000, .i1⟩
  | .hbm, ⟨26, _⟩ => ⟨S150000, .f32⟩
  | .hbm, ⟨27, _⟩ => ⟨S_, .f32⟩
  | .hbm, ⟨28, _⟩ => ⟨S_, .f32⟩
  | .hbm, ⟨29, _⟩ => ⟨S150000, .f32⟩
  | .hbm, ⟨30, _⟩ => ⟨S150000, .f32⟩
  | .hbm, ⟨31, _⟩ => ⟨S_, .i32⟩
  | .hbm, ⟨32, _⟩ => ⟨S4150000, .i32⟩
  | .hbm, ⟨33, _⟩ => ⟨S4150000, .i1⟩
  | .hbm, ⟨34, _⟩ => ⟨S_, .i32⟩
  | .hbm, ⟨35, _⟩ => ⟨S4150000, .i32⟩
  | .hbm, ⟨36, _⟩ => ⟨S4150000, .i32⟩
  | .hbm, ⟨37, _⟩ => ⟨S4150000, .i32⟩
  | .hbm, ⟨38, _⟩ => ⟨S4150000x1, .i32⟩
  | .hbm, ⟨39, _⟩ => ⟨S4150000, .f32⟩
  | .hbm, ⟨40, _⟩ => ⟨S_, .i32⟩
  | .hbm, ⟨41, _⟩ => ⟨S4150000, .i32⟩
  | .hbm, ⟨42, _⟩ => ⟨S4150000, .i1⟩
  | .hbm, ⟨43, _⟩ => ⟨S_, .i32⟩
  | .hbm, ⟨44, _⟩ => ⟨S4150000, .i32⟩
  | .hbm, ⟨45, _⟩ => ⟨S4150000, .i32⟩
  | .hbm, ⟨46, _⟩ => ⟨S4150000, .i32⟩
  | .hbm, ⟨47, _⟩ => ⟨S4150000x1, .i32⟩
  | .hbm, ⟨48, _⟩ => ⟨S4150000, .f32⟩
  | .hbm, ⟨49, _⟩ => ⟨S4150000, .f32⟩
  | .hbm, ⟨50, _⟩ => ⟨S150000x64, .f32⟩
  | .hbm, ⟨51, _⟩ => ⟨S150000x64, .f32⟩
  | .hbm, ⟨52, _⟩ => ⟨S_, .i32⟩
  | .hbm, ⟨53, _⟩ => ⟨S4150000, .i32⟩
  | .hbm, ⟨54, _⟩ => ⟨S4150000, .i1⟩
  | .hbm, ⟨55, _⟩ => ⟨S_, .i32⟩
  | .hbm, ⟨56, _⟩ => ⟨S4150000, .i32⟩
  | .hbm, ⟨57, _⟩ => ⟨S4150000, .i32⟩
  | .hbm, ⟨58, _⟩ => ⟨S4150000, .i32⟩
  | .hbm, ⟨59, _⟩ => ⟨S4150000x1, .i32⟩
  | .hbm, ⟨60, _⟩ => ⟨S4150000x64, .f32⟩
  | .hbm, ⟨61, _⟩ => ⟨S4150000x1, .f32⟩
  | .hbm, ⟨62, _⟩ => ⟨S4150000x64, .f32⟩
  | .hbm, ⟨63, _⟩ => ⟨S4150000x64, .f32⟩
  | .hbm, ⟨64, _⟩ => ⟨S_, .f32⟩
  | .hbm, ⟨65, _⟩ => ⟨S150000x64, .f32⟩
  | .hbm, ⟨66, _⟩ => ⟨S4150000x1, .i32⟩
  | .hbm, ⟨67, _⟩ => ⟨S150000x64, .f32⟩
  | .hbm, ⟨68, _⟩ => ⟨S1x64, .f32⟩
  | .hbm, ⟨69, _⟩ => ⟨S150000x64, .f32⟩
  | .hbm, ⟨70, _⟩ => ⟨S150000x64, .f32⟩
  | .hbm, ⟨71, _⟩ => ⟨S_, .f32⟩
  | .hbm, ⟨72, _⟩ => ⟨S150000x64, .f32⟩
  | .hbm, ⟨73, _⟩ => ⟨S150000x64, .f32⟩
  | .hbm, ⟨74, _⟩ => ⟨S150000x64, .f32⟩
  | .hbm, ⟨75, _⟩ => ⟨S_, .i32⟩
  | .hbm, ⟨76, _⟩ => ⟨S4150000, .i32⟩
  | .hbm, ⟨77, _⟩ => ⟨S4150000, .i1⟩
  | .hbm, ⟨78, _⟩ => ⟨S_, .i32⟩
  | .hbm, ⟨79, _⟩ => ⟨S4150000, .i32⟩
  | .hbm, ⟨80, _⟩ => ⟨S4150000, .i32⟩
  | .hbm, ⟨81, _⟩ => ⟨S4150000, .i32⟩
  | .hbm, ⟨82, _⟩ => ⟨S4150000x1, .i32⟩
  | .hbm, ⟨83, _⟩ => ⟨S4150000x64, .f32⟩
  | .hbm, ⟨84, _⟩ => ⟨S4150000x1, .f32⟩
  | .hbm, ⟨85, _⟩ => ⟨S4150000x64, .f32⟩
  | .hbm, ⟨86, _⟩ => ⟨S4150000x64, .f32⟩
  | .hbm, ⟨87, _⟩ => ⟨S_, .f32⟩
  | .hbm, ⟨88, _⟩ => ⟨S150000x64, .f32⟩
  | .hbm, ⟨89, _⟩ => ⟨S4150000x1, .i32⟩
  | .hbm, ⟨90, _⟩ => ⟨S150000x64, .f32⟩
  | .hbm, ⟨91, _⟩ => ⟨S1x64, .f32⟩
  | .hbm, ⟨92, _⟩ => ⟨S150000x64, .f32⟩
  | .hbm, ⟨93, _⟩ => ⟨S150000x64, .f32⟩
  | .hbm, ⟨94, _⟩ => ⟨S_, .f32⟩
  | .hbm, ⟨95, _⟩ => ⟨S150000x64, .f32⟩
  | .hbm, ⟨96, _⟩ => ⟨S150000x64, .f32⟩
  | .hbm, ⟨97, _⟩ => ⟨S100000x64, .f32⟩
  | .hbm, ⟨98, _⟩ => ⟨S50000x64, .f32⟩
  | _, _ => ⟨S2x2000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_c_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_call1_cst : Ref sig .tc := ⟨.hbm, 71, rfl⟩
abbrev main_call1_v0 : Ref sig .tc := ⟨.hbm, 72, rfl⟩
abbrev main_v50 : Ref sig .tc := ⟨.hbm, 73, rfl⟩
abbrev main_v51 : Ref sig .tc := ⟨.hbm, 74, rfl⟩
abbrev main_c_10 : Ref sig .tc := ⟨.hbm, 75, rfl⟩
abbrev main_v52 : Ref sig .tc := ⟨.hbm, 76, rfl⟩
abbrev main_v53 : Ref sig .tc := ⟨.hbm, 77, rfl⟩
abbrev main_c_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_12 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_call2_cst : Ref sig .tc := ⟨.hbm, 94, rfl⟩
abbrev main_call2_v0 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  concatenates_S2000000_S2000000_S150000_S4150000_d0 : Shape.Concatenates [S2000000, S2000000, S150000] S4150000 0
  bcast_S_S4150000 : S_.BroadcastsInDim S4150000 (![] : Fin 0 → Fin S4150000.rank)
  bcast_S_S150000 : S_.BroadcastsInDim S150000 (![] : Fin 0 → Fin S150000.rank)
  bcast_S4150000_S4150000x1_0 : S4150000.BroadcastsInDim S4150000x1 (![0] : Fin 1 → Fin S4150000x1.rank)
  concatenates_S100000x64_S50000x64_S150000x64_d0 : Shape.Concatenates [S100000x64, S50000x64] S150000x64 0
  bcast_S4150000x1_S4150000x64_0_1 : S4150000x1.BroadcastsInDim S4150000x64 (![0, 1] : Fin 2 → Fin S4150000x64.rank)
  bcast_S_S150000x64 : S_.BroadcastsInDim S150000x64 (![] : Fin 0 → Fin S150000x64.rank)
  bcast_S64_S1x64_1 : S64.BroadcastsInDim S1x64 (![1] : Fin 1 → Fin S1x64.rank)
  bcast_S1x64_S150000x64_0_1 : S1x64.BroadcastsInDim S150000x64 (![0, 1] : Fin 2 → Fin S150000x64.rank)
  slices_S150000x64_S100000x64_0_0 : S150000x64.Slices ![0, 0] S100000x64
  slices_S150000x64_S50000x64_100000_0 : S150000x64.Slices ![100000, 0] S50000x64
  scatter_S150000_S4150000x1_S4150000_n_0_0_1_wf : ScatterDims.WF S150000 S4150000x1 S4150000 [] [0] [0] 1
  gather_S150000_S4150000x1_S4150000_n_0_n_n_0_1_1_wf : GatherDims.WF S150000 S4150000x1 S4150000 [] [0] [] [0] [] 1 ![1]
  dot_S150000x64_S64x64_S150000x64_1_0_0_1_n_n_wf : DotDims.WF S150000x64 S64x64 S150000x64 [1] [0] [0] [1] [] []
  gather_S150000x64_S4150000x1_S4150000x64_1_0_n_n_0_1_164_wf : GatherDims.WF S150000x64 S4150000x1 S4150000x64 [1] [0] [] [0] [] 1 ![1, 64]
  scatter_S150000x64_S4150000x1_S4150000x64_1_0_0_1_wf : ScatterDims.WF S150000x64 S4150000x1 S4150000x64 [1] [0] [0] 1

variable [Facts₀]

def scatter_S150000_S4150000x1_S4150000_n_0_0_1 : ScatterDims S150000 S4150000x1 S4150000 where
  updateWindowDims := []
  insertedWindowDims := [0]
  scatterDimsToOperandDims := [0]
  indexVectorDim := 1
  wf := scatter_S150000_S4150000x1_S4150000_n_0_0_1_wf
def gather_S150000_S4150000x1_S4150000_n_0_n_n_0_1_1 : GatherDims S150000 S4150000x1 S4150000 where
  offsetDims := []
  collapsedSliceDims := [0]
  operandBatchingDims := []
  startIndicesBatchingDims := []
  startIndexMap := [0]
  indexVectorDim := 1
  sliceSizes := ![1]
  wf := gather_S150000_S4150000x1_S4150000_n_0_n_n_0_1_1_wf
def dot_S150000x64_S64x64_S150000x64_1_0_0_1_n_n : DotDims S150000x64 S64x64 S150000x64 where
  lhsContracting := [1]
  rhsContracting := [0]
  lhsNonContracting := [0]
  rhsNonContracting := [1]
  lhsBatch := []
  rhsBatch := []
  wf := dot_S150000x64_S64x64_S150000x64_1_0_0_1_n_n_wf
def gather_S150000x64_S4150000x1_S4150000x64_1_0_n_n_0_1_164 : GatherDims S150000x64 S4150000x1 S4150000x64 where
  offsetDims := [1]
  collapsedSliceDims := [0]
  operandBatchingDims := []
  startIndicesBatchingDims := []
  startIndexMap := [0]
  indexVectorDim := 1
  sliceSizes := ![1, 64]
  wf := gather_S150000x64_S4150000x1_S4150000x64_1_0_n_n_0_1_164_wf
def scatter_S150000x64_S4150000x1_S4150000x64_1_0_0_1 : ScatterDims S150000x64 S4150000x1 S4150000x64 where
  updateWindowDims := [1]
  insertedWindowDims := [0]
  scatterDimsToOperandDims := [0]
  indexVectorDim := 1
  wf := scatter_S150000x64_S4150000x1_S4150000x64_1_0_0_1_wf

class Facts : Prop extends Facts₀ where

variable [Facts]
-- ==== Proof.IdealRegion0.lean ====
/-
  Region 0 of @main (the pallas_call `cc0__matmul_kernel`), entered from ANY contents `V` of the TensorCore's buffers.
  The body is a matrix product: a block of 10000 rows of the [150000, 64] left operand times the whole [64, 64] right operand,
  accumulated from zero, written to the matching 10000 rows of the [150000, 64] result.
  Each grid point sees one block of each operand: the block of window `w` at point `t` is the window's array read
  through the block's rectangle (`iblk0`). The body reads the two operand blocks whole and overwrites the result
  block whole with one pure function of them, so after the body the result's buffer is that function of the two
  blocks (`out0_2`) and the operands' buffers are untouched; nothing else is read or written, no semaphore is used,
  nothing is owed. That is the proof data `dat0`, and `body_obligation0` is the body's triple at every point.
-/
import proofs.«102996_j6725918785568_1_alg».proof.Proof.Gen.KernelIdeal.Launch
import proofs.«102996_j6725918785568_1_alg».proof.Proof.Gen.KernelIdeal.Skeleton
import proofs.«102996_j6725918785568_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: its array, as the region finds it, read through the block's rectangle. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An operand's staging buffer holds the operand's block at every point, whether the block was fetched at that point
    or is still there from an earlier one (its block index has not moved), for any proof data over the arrays `V`
    whose body leaves the operand's block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole rectangle of each block shape: every load and the one store of the body is of a whole block. -/
abbrev r0_a : Rect S10000x64 := Rect.unit (s := S10000x64) ![0, 0] S10000x64.size inb_S10000x64_S10000x64_0_0
abbrev r0_b : Rect S64x64 := Rect.unit (s := S64x64) ![0, 0] S64x64.size inb_S64x64_S64x64_0_0
abbrev r0_o : Rect S10000x64 := Rect.unit (s := S10000x64) ![0, 0] S10000x64.size inb_S10000x64_S10000x64_0_0

/-- The result block after the body: its one whole-block store, of the body's arithmetic on the two operand blocks. -/
def out0_2 (x0 : Vec F S10000x64 .f32) (x1 : Vec F S64x64 .f32) : Vec F S10000x64 .f32 :=
  View.canon [⟨r0_o, k0_pay1 (View.ld x0 r0_a) (View.ld x1 r0_b)⟩]

/-- That one store covers the block. -/
theorem cover0_2 (p0 : Vec F S10000x64 .f32) (y : S10000x64.Idx) :
    ∃ pc ∈ ([⟨r0_o, p0⟩] : List (View.Piece (Elt F) S10000x64 .f32)), y ∈ pc.1.set :=
  View.cover_of_tiled [⟨r0_o, p0⟩] S10000x64.size (by rfl) y

set_option maxHeartbeats 1000000 in
/-- The body's triple: from the operands' buffers at `x0`, `x1` and the result's at anything, the body runs to its
    return, faulting nowhere, leaving the operands' buffers as they were and the result's at `out0_2 x0 x1`. -/
theorem sound_kernel0 (c : Dev nD) (E : Set ℕ) (i : grid0.Coords) (arg1 : Memref sig .tc .vmem S10000x64 .f32) (harg1 : arg1.IsWhole) (arg2 : Memref sig .tc .vmem S64x64 .f32) (harg2 : arg2.IsWhole) (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The region's proof data on core `c`: the arrays as the region finds them; after the body at point `t` each
    operand's buffer at its block and the result's at `out0_2` of the two blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the operands' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IdealRegion1.lean ====
/-
  Region 1 of @main (the pallas_call `cc1__scale_kernel`), entered from ANY contents `V` of the TensorCore's buffers.
  The body scales rows: a block of 12288 rows of the [4153344, 64] left operand, each row times its own entry of the matching
  block of the [4153344, 1] column operand, written to the matching 12288 rows of the [4153344, 64] result.
  Each grid point sees one block of each operand: the block of window `w` at point `t` is the window's array read
  through the block's rectangle (`iblk1`). The body reads the two operand blocks whole and overwrites the result
  block whole with one pure function of them, so after the body the result's buffer is that function of the two
  blocks (`out1_2`) and the operands' buffers are untouched; nothing else is read or written, no semaphore is used,
  nothing is owed. That is the proof data `dat1`, and `body_obligation1` is the body's triple at every point.
-/
import proofs.«102996_j6725918785568_1_alg».proof.Proof.Gen.KernelIdeal.Launch
import proofs.«102996_j6725918785568_1_alg».proof.Proof.Gen.KernelIdeal.Skeleton
import proofs.«102996_j6725918785568_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: its array, as the region finds it, read through the block's rectangle. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An operand's staging buffer holds the operand's block at every point, whether the block was fetched at that point
    or is still there from an earlier one (its block index has not moved), for any proof data over the arrays `V`
    whose body leaves the operand's block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole rectangle of each block shape: every load and the one store of the body is of a whole block. -/
abbrev r1_a : Rect S12288x64 := Rect.unit (s := S12288x64) ![0, 0] S12288x64.size inb_S12288x64_S12288x64_0_0
abbrev r1_b : Rect S12288x1 := Rect.unit (s := S12288x1) ![0, 0] S12288x1.size inb_S12288x1_S12288x1_0_0
abbrev r1_o : Rect S12288x64 := Rect.unit (s := S12288x64) ![0, 0] S12288x64.size inb_S12288x64_S12288x64_0_0

/-- The result block after the body: its one whole-block store, of the body's arithmetic on the two operand blocks. -/
def out1_2 (x0 : Vec F S12288x64 .f32) (x1 : Vec F S12288x1 .f32) : Vec F S12288x64 .f32 :=
  View.canon [⟨r1_o, k1_pay1 (View.ld x0 r1_a) (View.ld x1 r1_b)⟩]

/-- That one store covers the block. -/
theorem cover1_2 (p0 : Vec F S12288x64 .f32) (y : S12288x64.Idx) :
    ∃ pc ∈ ([⟨r1_o, p0⟩] : List (View.Piece (Elt F) S12288x64 .f32)), y ∈ pc.1.set :=
  View.cover_of_tiled [⟨r1_o, p0⟩] S12288x64.size (by rfl) y

set_option maxHeartbeats 1000000 in
/-- The body's triple: from the operands' buffers at `x0`, `x1` and the result's at anything, the body runs to its
    return, faulting nowhere, leaving the operands' buffers as they were and the result's at `out1_2 x0 x1`. -/
theorem sound_kernel1 (c : Dev nD) (E : Set ℕ) (i : grid1.Coords) (arg1 : Memref sig .tc .vmem S12288x64 .f32) (harg1 : arg1.IsWhole) (arg2 : Memref sig .tc .vmem S12288x1 .f32) (harg2 : arg2.IsWhole) (arg3 : Memref sig .tc .vmem S12288x64 .f32) (harg3 : arg3.IsWhole)
    (x0 : Vec F S12288x64 .f32) (x1 : Vec F S12288x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__scale_kernel i arg1 harg1 arg2 harg2 arg3 harg3) K := by
  simp only [cc1__scale_kernel_eq_skeleton]; unfold cc1__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The region's proof data on core `c`: the arrays as the region finds them; after the body at point `t` each
    operand's buffer at its block and the result's at `out1_2` of the two blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the operands' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IdealRegion2.lean ====
/-
  Region 2 of @main (the pallas_call `cc2__bias_relu_kernel`), entered from ANY contents `V` of the TensorCore's buffers.
  The body adds a row and clamps at zero: a block of 10000 rows of the [150000, 64] left operand plus the one row of the [1, 64]
  operand, then the maximum with 0.0, written to the matching 10000 rows of the [150000, 64] result.
  Each grid point sees one block of each operand: the block of window `w` at point `t` is the window's array read
  through the block's rectangle (`iblk2`). The body reads the two operand blocks whole and overwrites the result
  block whole with one pure function of them, so after the body the result's buffer is that function of the two
  blocks (`out2_2`) and the operands' buffers are untouched; nothing else is read or written, no semaphore is used,
  nothing is owed. That is the proof data `dat2`, and `body_obligation2` is the body's triple at every point.
-/
import proofs.«102996_j6725918785568_1_alg».proof.Proof.Gen.KernelIdeal.Launch
import proofs.«102996_j6725918785568_1_alg».proof.Proof.Gen.KernelIdeal.Skeleton
import proofs.«102996_j6725918785568_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: its array, as the region finds it, read through the block's rectangle. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An operand's staging buffer holds the operand's block at every point, whether the block was fetched at that point
    or is still there from an earlier one (its block index has not moved), for any proof data over the arrays `V`
    whose body leaves the operand's block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole rectangle of each block shape: every load and the one store of the body is of a whole block. -/
abbrev r2_a : Rect S10000x64 := Rect.unit (s := S10000x64) ![0, 0] S10000x64.size inb_S10000x64_S10000x64_0_0
abbrev r2_b : Rect S1x64 := Rect.unit (s := S1x64) ![0, 0] S1x64.size inb_S1x64_S1x64_0_0
abbrev r2_o : Rect S10000x64 := Rect.unit (s := S10000x64) ![0, 0] S10000x64.size inb_S10000x64_S10000x64_0_0

/-- The result block after the body: its one whole-block store, of the body's arithmetic on the two operand blocks. -/
def out2_2 (x0 : Vec F S10000x64 .f32) (x1 : Vec F S1x64 .f32) : Vec F S10000x64 .f32 :=
  View.canon [⟨r2_o, k2_pay1 (View.ld x0 r2_a) (View.ld x1 r2_b)⟩]

/-- That one store covers the block. -/
theorem cover2_2 (p0 : Vec F S10000x64 .f32) (y : S10000x64.Idx) :
    ∃ pc ∈ ([⟨r2_o, p0⟩] : List (View.Piece (Elt F) S10000x64 .f32)), y ∈ pc.1.set :=
  View.cover_of_tiled [⟨r2_o, p0⟩] S10000x64.size (by rfl) y

set_option maxHeartbeats 1000000 in
/-- The body's triple: from the operands' buffers at `x0`, `x1` and the result's at anything, the body runs to its
    return, faulting nowhere, leaving the operands' buffers as they were and the result's at `out2_2 x0 x1`. -/
theorem sound_kernel2 (c : Dev nD) (E : Set ℕ) (i : grid2.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole)
    (x0 : Vec F S10000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__bias_relu_kernel i arg1 harg1 arg2 harg2 arg3 harg3) K := by
  simp only [cc2__bias_relu_kernel_eq_skeleton]; unfold cc2__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The region's proof data on core `c`: the arrays as the region finds them; after the body at point `t` each
    operand's buffer at its block and the result's at `out2_2` of the two blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the operands' buffers hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every grid point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.IdealRegion3.lean ====
/-
  Region 3 of @main (the pallas_call `cc3__matmul_kernel`), entered from ANY contents `V` of the TensorCore's buffers.
  The body is a matrix product: a block of 10000 rows of the [150000, 64] left operand times the whole [64, 64] right operand,
  accumulated from zero, written to the matching 10000 rows of the [150000, 64] result.
  Each grid point sees one block of each operand: the block of window `w` at point `t` is the window's array read
  through the block's rectangle (`iblk3`). The body reads the two operand blocks whole and overwrites the result
  block whole with one pure function of them, so after the body the result's buffer is that function of the two
  blocks (`out3_2`) and the operands' buffers are untouched; nothing else is read or written, no semaphore is used,
  nothing is owed. That is the proof data `dat3`, and `body_obligation3` is the body's triple at every point.
-/
import proofs.«102996_j6725918785568_1_alg».proof.Proof.Gen.KernelIdeal.Launch
import proofs.«102996_j6725918785568_1_alg».proof.Proof.Gen.KernelIdeal.Skeleton
import proofs.«102996_j6725918785568_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: its array, as the region finds it, read through the block's rectangle. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An operand's staging buffer holds the operand's block at every point, whether the block was fetched at that point
    or is still there from an earlier one (its block index has not moved), for any proof data over the arrays `V`
    whose body leaves the operand's block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole rectangle of each block shape: every load and the one store of the body is of a whole block. -/
abbrev r3_a : Rect S10000x64 := Rect.unit (s := S10000x64) ![0, 0] S10000x64.size inb_S10000x64_S10000x64_0_0
abbrev r3_b : Rect S64x64 := Rect.unit (s := S64x64) ![0, 0] S64x64.size inb_S64x64_S64x64_0_0
abbrev r3_o : Rect S10000x64 := Rect.unit (s := S10000x64) ![0, 0] S10000x64.size inb_S10000x64_S10000x64_0_0

/-- The result block after the body: its one whole-block store, of the body's arithmetic on the two operand blocks. -/
def out3_2 (x0 : Vec F S10000x64 .f32) (x1 : Vec F S64x64 .f32) : Vec F S10000x64 .f32 :=
  View.canon [⟨r3_o, k3_pay1 (View.ld x0 r3_a) (View.ld x1 r3_b)⟩]

/-- That one store covers the block. -/
theorem cover3_2 (p0 : Vec F S10000x64 .f32) (y : S10000x64.Idx) :
    ∃ pc ∈ ([⟨r3_o, p0⟩] : List (View.Piece (Elt F) S10000x64 .f32)), y ∈ pc.1.set :=
  View.cover_of_tiled [⟨r3_o, p0⟩] S10000x64.size (by rfl) y

set_option maxHeartbeats 1000000 in
/-- The body's triple: from the operands' buffers at `x0`, `x1` and the result's at anything, the body runs to its
    return, faulting nowhere, leaving the operands' buffers as they were and the result's at `out3_2 x0 x1`. -/
theorem sound_kernel3 (c : Dev nD) (E : Set ℕ) (i : grid3.Coords) (arg1 : Memref sig .tc .vmem S10000x64 .f32) (harg1 : arg1.IsWhole) (arg2 : Memref sig .tc .vmem S64x64 .f32) (harg2 : arg2.IsWhole) (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The region's proof data on core `c`: the arrays as the region finds them; after the body at point `t` each
    operand's buffer at its block and the result's at `out3_2` of the two blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the operands' buffers hold their blocks, so the body's triple applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every grid point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.IdealRegion4.lean ====
/-
  Region 4 of @main (the pallas_call `cc4__scale_kernel`), entered from ANY contents `V` of the TensorCore's buffers.
  The body scales rows: a block of 12288 rows of the [4153344, 64] left operand, each row times its own entry of the matching
  block of the [4153344, 1] column operand, written to the matching 12288 rows of the [4153344, 64] result.
  Each grid point sees one block of each operand: the block of window `w` at point `t` is the window's array read
  through the block's rectangle (`iblk4`). The body reads the two operand blocks whole and overwrites the result
  block whole with one pure function of them, so after the body the result's buffer is that function of the two
  blocks (`out4_2`) and the operands' buffers are untouched; nothing else is read or written, no semaphore is used,
  nothing is owed. That is the proof data `dat4`, and `body_obligation4` is the body's triple at every point.
-/
import proofs.«102996_j6725918785568_1_alg».proof.Proof.Gen.KernelIdeal.Launch
import proofs.«102996_j6725918785568_1_alg».proof.Proof.Gen.KernelIdeal.Skeleton
import proofs.«102996_j6725918785568_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: its array, as the region finds it, read through the block's rectangle. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An operand's staging buffer holds the operand's block at every point, whether the block was fetched at that point
    or is still there from an earlier one (its block index has not moved), for any proof data over the arrays `V`
    whose body leaves the operand's block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The whole rectangle of each block shape: every load and the one store of the body is of a whole block. -/
abbrev r4_a : Rect S12288x64 := Rect.unit (s := S12288x64) ![0, 0] S12288x64.size inb_S12288x64_S12288x64_0_0
abbrev r4_b : Rect S12288x1 := Rect.unit (s := S12288x1) ![0, 0] S12288x1.size inb_S12288x1_S12288x1_0_0
abbrev r4_o : Rect S12288x64 := Rect.unit (s := S12288x64) ![0, 0] S12288x64.size inb_S12288x64_S12288x64_0_0

/-- The result block after the body: its one whole-block store, of the body's arithmetic on the two operand blocks. -/
def out4_2 (x0 : Vec F S12288x64 .f32) (x1 : Vec F S12288x1 .f32) : Vec F S12288x64 .f32 :=
  View.canon [⟨r4_o, k4_pay1 (View.ld x0 r4_a) (View.ld x1 r4_b)⟩]

/-- That one store covers the block. -/
theorem cover4_2 (p0 : Vec F S12288x64 .f32) (y : S12288x64.Idx) :
    ∃ pc ∈ ([⟨r4_o, p0⟩] : List (View.Piece (Elt F) S12288x64 .f32)), y ∈ pc.1.set :=
  View.cover_of_tiled [⟨r4_o, p0⟩] S12288x64.size (by rfl) y

set_option maxHeartbeats 1000000 in
/-- The body's triple: from the operands' buffers at `x0`, `x1` and the result's at anything, the body runs to its
    return, faulting nowhere, leaving the operands' buffers as they were and the result's at `out4_2 x0 x1`. -/
theorem sound_kernel4 (c : Dev nD) (E : Set ℕ) (i : grid4.Coords) (arg1 : Memref sig .tc .vmem S12288x64 .f32) (harg1 : arg1.IsWhole) (arg2 : Memref sig .tc .vmem S12288x1 .f32) (harg2 : arg2.IsWhole) (arg3 : Memref sig .tc .vmem S12288x64 .f32) (harg3 : arg3.IsWhole)
    (x0 : Vec F S12288x64 .f32) (x1 : Vec F S12288x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__scale_kernel i arg1 harg1 arg2 harg2 arg3 harg3) K := by
  simp only [cc4__scale_kernel_eq_skeleton]; unfold cc4__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The region's proof data on core `c`: the arrays as the region finds them; after the body at point `t` each
    operand's buffer at its block and the result's at `out4_2` of the two blocks; nothing owed, full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the operands' buffers hold their blocks, so the body's triple applies; the invariant and
    what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ (grid4.coords t) _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every grid point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.IdealRegion5.lean ====
/-
  Region 5 of @main (the pallas_call `cc5__bias_relu_kernel`), entered from ANY contents `V` of the TensorCore's buffers.
  The body adds a row and clamps at zero: a block of 10000 rows of the [150000, 64] left operand plus the one row of the [1, 64]
  operand, then the maximum with 0.0, written to the matching 10000 rows of the [150000, 64] result.
  Each grid point sees one block of each operand: the block of window `w` at point `t` is the window's array read
  through the block's rectangle (`iblk5`). The body reads the two operand blocks whole and overwrites the result
  block whole with one pure function of them, so after the body the result's buffer is that function of the two
  blocks (`out5_2`) and the operands' buffers are untouched; nothing else is read or written, no semaphore is used,
  nothing is owed. That is the proof data `dat5`, and `body_obligation5` is the body's triple at every point.
-/
import proofs.«102996_j6725918785568_1_alg».proof.Proof.Gen.KernelIdeal.Launch
import proofs.«102996_j6725918785568_1_alg».proof.Proof.Gen.KernelIdeal.Skeleton
import proofs.«102996_j6725918785568_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: its array, as the region finds it, read through the block's rectangle. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An operand's staging buffer holds the operand's block at every point, whether the block was fetched at that point
    or is still there from an earlier one (its block index has not moved), for any proof data over the arrays `V`
    whose body leaves the operand's block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The whole rectangle of each block shape: every load and the one store of the body is of a whole block. -/
abbrev r5_a : Rect S10000x64 := Rect.unit (s := S10000x64) ![0, 0] S10000x64.size inb_S10000x64_S10000x64_0_0
abbrev r5_b : Rect S1x64 := Rect.unit (s := S1x64) ![0, 0] S1x64.size inb_S1x64_S1x64_0_0
abbrev r5_o : Rect S10000x64 := Rect.unit (s := S10000x64) ![0, 0] S10000x64.size inb_S10000x64_S10000x64_0_0

/-- The result block after the body: its one whole-block store, of the body's arithmetic on the two operand blocks. -/
def out5_2 (x0 : Vec F S10000x64 .f32) (x1 : Vec F S1x64 .f32) : Vec F S10000x64 .f32 :=
  View.canon [⟨r5_o, k5_pay1 (View.ld x0 r5_a) (View.ld x1 r5_b)⟩]

/-- That one store covers the block. -/
theorem cover5_2 (p0 : Vec F S10000x64 .f32) (y : S10000x64.Idx) :
    ∃ pc ∈ ([⟨r5_o, p0⟩] : List (View.Piece (Elt F) S10000x64 .f32)), y ∈ pc.1.set :=
  View.cover_of_tiled [⟨r5_o, p0⟩] S10000x64.size (by rfl) y

set_option maxHeartbeats 1000000 in
/-- The body's triple: from the operands' buffers at `x0`, `x1` and the result's at anything, the body runs to its
    return, faulting nowhere, leaving the operands' buffers as they were and the result's at `out5_2 x0 x1`. -/
theorem sound_kernel5 (c : Dev nD) (E : Set ℕ) (i : grid5.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole)
    (x0 : Vec F S10000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5__bias_relu_kernel i arg1 harg1 arg2 harg2 arg3 harg3) K := by
  simp only [cc5__bias_relu_kernel_eq_skeleton]; unfold cc5__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-- The region's proof data on core `c`: the arrays as the region finds them; after the body at point `t` each
    operand's buffer at its block and the result's at `out5_2` of the two blocks; nothing owed, full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the operands' buffers hold their blocks, so the body's triple applies; the invariant and
    what the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ (grid5.coords t) _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every grid point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.IdealFold.lean ====
/-
  The contents of the TensorCore's buffers at every boundary between two items of @main, as a fold from the launch
  memory: a stretch of host operations leaves each buffer at the operations' composed value of what it found
  (`StableHlo.after`); a kernel region leaves each of its windows' arrays at what its write-backs leave (the operands as
  entered, the result with every grid point's block written back) and every other buffer as entered
  (`Pipeline.withArrays`). @main is five host stretches, the first layer's matrix product, two stretches, its row
  scaling, a stretch, its bias-and-clamp, the second layer's matrix product, two stretches, its row scaling, a stretch,
  its bias-and-clamp, and a last stretch that cuts the result in two: eighteen items, nineteen boundaries `W0 … W18`.
  Each region's proof data is taken at the contents its region is entered from.
-/
import proofs.«102996_j6725918785568_1_alg».proof.Proof.IdealRegion0
import proofs.«102996_j6725918785568_1_alg».proof.Proof.IdealRegion1
import proofs.«102996_j6725918785568_1_alg».proof.Proof.IdealRegion2
import proofs.«102996_j6725918785568_1_alg».proof.Proof.IdealRegion3
import proofs.«102996_j6725918785568_1_alg».proof.Proof.IdealRegion4
import proofs.«102996_j6725918785568_1_alg».proof.Proof.IdealRegion5
import proofs.«102996_j6725918785568_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A valuation read at the TensorCore's references: what a region's proof data take. -/
abbrev atRefs (W : Dev nD → Valuation τ sig (Elt F)) : (c : Dev nD) → (b : Ref sig .tc) → Buf (Elt F) ((c : Thread nD τ).loc b) :=
  fun c b => W c b

/-! ## The boundaries before the first region -/

abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev W4 : Dev nD → Valuation τ sig (Elt F) := fun c => StableHlo.after hostOps0_3 (W3 m c)
abbrev W5 : Dev nD → Valuation τ sig (Elt F) := fun c => StableHlo.after hostOps0_4 (W4 m c)

/-! ## Region 0 (the first layer's matrix product), entered from `W5` -/

abbrev Win0 : Dev nD → Valuation τ sig (Elt F) := W5 m
def Wout0 (c : Dev nD) : Valuation τ sig (Elt F) :=
  Pipeline.withArrays spec0 c (Win0 m c) fun w => (dat0 (atRefs (Win0 m)) c).arrAt w cfg0.N
theorem Wout0_arr (c : Dev nD) (w : Fin cfg0.W) :
    Wout0 m c (Proc.devRef .tc (Pipeline.arrRef spec0 w)) = (dat0 (atRefs (Win0 m)) c).arrAt w cfg0.N := by
  unfold Wout0; exact Pipeline.withArrays_arr spec0 launch0.win.arr_inj c _ _ w
theorem Wout0_of_ne (c : Dev nD) (b : Ref sig .tc) (hb : ∀ w, Pipeline.arrRef spec0 w ≠ b) :
    Wout0 m c (Proc.devRef .tc b) = Win0 m c (Proc.devRef .tc b) := by
  unfold Wout0; exact Pipeline.withArrays_of_ne spec0 c _ _ b hb
theorem hF0 (c : Dev nD) (w : Fin cfg0.W) : (dat0 (atRefs (Win0 m)) c).arrAt w cfg0.N = atRefs (Wout0 m) c (Pipeline.arrRef spec0 w) :=
  (Wout0_arr m c w).symm
theorem hrest0 (c : Dev nD) : ∀ b, b ∉ Finset.univ.image (Pipeline.arrRef spec0) → atRefs (Wout0 m) c b = atRefs (Win0 m) c b :=
  fun b hb => Wout0_of_ne m c b fun w e => hb (Finset.mem_image.mpr ⟨w, Finset.mem_univ _, e⟩)

abbrev W7 : Dev nD → Valuation τ sig (Elt F) := fun c => StableHlo.after hostOps1 (Wout0 m c)
abbrev W8 : Dev nD → Valuation τ sig (Elt F) := fun c => StableHlo.after hostOps1_1 (W7 m c)

/-! ## Region 1 (the first layer's row scaling), entered from `W8` -/

abbrev Win1 : Dev nD → Valuation τ sig (Elt F) := W8 m
def Wout1 (c : Dev nD) : Valuation τ sig (Elt F) :=
  Pipeline.withArrays spec1 c (Win1 m c) fun w => (dat1 (atRefs (Win1 m)) c).arrAt w cfg1.N
theorem Wout1_arr (c : Dev nD) (w : Fin cfg1.W) :
    Wout1 m c (Proc.devRef .tc (Pipeline.arrRef spec1 w)) = (dat1 (atRefs (Win1 m)) c).arrAt w cfg1.N := by
  unfold Wout1; exact Pipeline.withArrays_arr spec1 launch1.win.arr_inj c _ _ w
theorem Wout1_of_ne (c : Dev nD) (b : Ref sig .tc) (hb : ∀ w, Pipeline.arrRef spec1 w ≠ b) :
    Wout1 m c (Proc.devRef .tc b) = Win1 m c (Proc.devRef .tc b) := by
  unfold Wout1; exact Pipeline.withArrays_of_ne spec1 c _ _ b hb
theorem hF1 (c : Dev nD) (w : Fin cfg1.W) : (dat1 (atRefs (Win1 m)) c).arrAt w cfg1.N = atRefs (Wout1 m) c (Pipeline.arrRef spec1 w) :=
  (Wout1_arr m c w).symm
theorem hrest1 (c : Dev nD) : ∀ b, b ∉ Finset.univ.image (Pipeline.arrRef spec1) → atRefs (Wout1 m) c b = atRefs (Win1 m) c b :=
  fun b hb => Wout1_of_ne m c b fun w e => hb (Finset.mem_image.mpr ⟨w, Finset.mem_univ _, e⟩)

abbrev W10 : Dev nD → Valuation τ sig (Elt F) := fun c => StableHlo.after hostOps2 (Wout1 m c)

/-! ## Region 2 (the first layer's bias and clamp), entered from `W10` -/

abbrev Win2 : Dev nD → Valuation τ sig (Elt F) := W10 m
def Wout2 (c : Dev nD) : Valuation τ sig (Elt F) :=
  Pipeline.withArrays spec2 c (Win2 m c) fun w => (dat2 (atRefs (Win2 m)) c).arrAt w cfg2.N
theorem Wout2_arr (c : Dev nD) (w : Fin cfg2.W) :
    Wout2 m c (Proc.devRef .tc (Pipeline.arrRef spec2 w)) = (dat2 (atRefs (Win2 m)) c).arrAt w cfg2.N := by
  unfold Wout2; exact Pipeline.withArrays_arr spec2 launch2.win.arr_inj c _ _ w
theorem Wout2_of_ne (c : Dev nD) (b : Ref sig .tc) (hb : ∀ w, Pipeline.arrRef spec2 w ≠ b) :
    Wout2 m c (Proc.devRef .tc b) = Win2 m c (Proc.devRef .tc b) := by
  unfold Wout2; exact Pipeline.withArrays_of_ne spec2 c _ _ b hb
theorem hF2 (c : Dev nD) (w : Fin cfg2.W) : (dat2 (atRefs (Win2 m)) c).arrAt w cfg2.N = atRefs (Wout2 m) c (Pipeline.arrRef spec2 w) :=
  (Wout2_arr m c w).symm
theorem hrest2 (c : Dev nD) : ∀ b, b ∉ Finset.univ.image (Pipeline.arrRef spec2) → atRefs (Wout2 m) c b = atRefs (Win2 m) c b :=
  fun b hb => Wout2_of_ne m c b fun w e => hb (Finset.mem_image.mpr ⟨w, Finset.mem_univ _, e⟩)

/-! ## Region 3 (the second layer's matrix product), entered from where region 2 leaves -/

abbrev Win3 : Dev nD → Valuation τ sig (Elt F) := Wout2 m
def Wout3 (c : Dev nD) : Valuation τ sig (Elt F) :=
  Pipeline.withArrays spec3 c (Win3 m c) fun w => (dat3 (atRefs (Win3 m)) c).arrAt w cfg3.N
theorem Wout3_arr (c : Dev nD) (w : Fin cfg3.W) :
    Wout3 m c (Proc.devRef .tc (Pipeline.arrRef spec3 w)) = (dat3 (atRefs (Win3 m)) c).arrAt w cfg3.N := by
  unfold Wout3; exact Pipeline.withArrays_arr spec3 launch3.win.arr_inj c _ _ w
theorem Wout3_of_ne (c : Dev nD) (b : Ref sig .tc) (hb : ∀ w, Pipeline.arrRef spec3 w ≠ b) :
    Wout3 m c (Proc.devRef .tc b) = Win3 m c (Proc.devRef .tc b) := by
  unfold Wout3; exact Pipeline.withArrays_of_ne spec3 c _ _ b hb
theorem hF3 (c : Dev nD) (w : Fin cfg3.W) : (dat3 (atRefs (Win3 m)) c).arrAt w cfg3.N = atRefs (Wout3 m) c (Pipeline.arrRef spec3 w) :=
  (Wout3_arr m c w).symm
theorem hrest3 (c : Dev nD) : ∀ b, b ∉ Finset.univ.image (Pipeline.arrRef spec3) → atRefs (Wout3 m) c b = atRefs (Win3 m) c b :=
  fun b hb => Wout3_of_ne m c b fun w e => hb (Finset.mem_image.mpr ⟨w, Finset.mem_univ _, e⟩)

abbrev W13 : Dev nD → Valuation τ sig (Elt F) := fun c => StableHlo.after hostOps4 (Wout3 m c)
abbrev W14 : Dev nD → Valuation τ sig (Elt F) := fun c => StableHlo.after hostOps4_1 (W13 m c)

/-! ## Region 4 (the second layer's row scaling), entered from `W14` -/

abbrev Win4 : Dev nD → Valuation τ sig (Elt F) := W14 m
def Wout4 (c : Dev nD) : Valuation τ sig (Elt F) :=
  Pipeline.withArrays spec4 c (Win4 m c) fun w => (dat4 (atRefs (Win4 m)) c).arrAt w cfg4.N
theorem Wout4_arr (c : Dev nD) (w : Fin cfg4.W) :
    Wout4 m c (Proc.devRef .tc (Pipeline.arrRef spec4 w)) = (dat4 (atRefs (Win4 m)) c).arrAt w cfg4.N := by
  unfold Wout4; exact Pipeline.withArrays_arr spec4 launch4.win.arr_inj c _ _ w
theorem Wout4_of_ne (c : Dev nD) (b : Ref sig .tc) (hb : ∀ w, Pipeline.arrRef spec4 w ≠ b) :
    Wout4 m c (Proc.devRef .tc b) = Win4 m c (Proc.devRef .tc b) := by
  unfold Wout4; exact Pipeline.withArrays_of_ne spec4 c _ _ b hb
theorem hF4 (c : Dev nD) (w : Fin cfg4.W) : (dat4 (atRefs (Win4 m)) c).arrAt w cfg4.N = atRefs (Wout4 m) c (Pipeline.arrRef spec4 w) :=
  (Wout4_arr m c w).symm
theorem hrest4 (c : Dev nD) : ∀ b, b ∉ Finset.univ.image (Pipeline.arrRef spec4) → atRefs (Wout4 m) c b = atRefs (Win4 m) c b :=
  fun b hb => Wout4_of_ne m c b fun w e => hb (Finset.mem_image.mpr ⟨w, Finset.mem_univ _, e⟩)

abbrev W16 : Dev nD → Valuation τ sig (Elt F) := fun c => StableHlo.after hostOps5 (Wout4 m c)

/-! ## Region 5 (the second layer's bias and clamp), entered from `W16` -/

abbrev Win5 : Dev nD → Valuation τ sig (Elt F) := W16 m
def Wout5 (c : Dev nD) : Valuation τ sig (Elt F) :=
  Pipeline.withArrays spec5 c (Win5 m c) fun w => (dat5 (atRefs (Win5 m)) c).arrAt w cfg5.N
theorem Wout5_arr (c : Dev nD) (w : Fin cfg5.W) :
    Wout5 m c (Proc.devRef .tc (Pipeline.arrRef spec5 w)) = (dat5 (atRefs (Win5 m)) c).arrAt w cfg5.N := by
  unfold Wout5; exact Pipeline.withArrays_arr spec5 launch5.win.arr_inj c _ _ w
theorem Wout5_of_ne (c : Dev nD) (b : Ref sig .tc) (hb : ∀ w, Pipeline.arrRef spec5 w ≠ b) :
    Wout5 m c (Proc.devRef .tc b) = Win5 m c (Proc.devRef .tc b) := by
  unfold Wout5; exact Pipeline.withArrays_of_ne spec5 c _ _ b hb
theorem hF5 (c : Dev nD) (w : Fin cfg5.W) : (dat5 (atRefs (Win5 m)) c).arrAt w cfg5.N = atRefs (Wout5 m) c (Pipeline.arrRef spec5 w) :=
  (Wout5_arr m c w).symm
theorem hrest5 (c : Dev nD) : ∀ b, b ∉ Finset.univ.image (Pipeline.arrRef spec5) → atRefs (Wout5 m) c b = atRefs (Win5 m) c b :=
  fun b hb => Wout5_of_ne m c b fun w e => hb (Finset.mem_image.mpr ⟨w, Finset.mem_univ _, e⟩)

/-- The last boundary: after the stretch that cuts the result into its two pieces. -/
abbrev W18 : Dev nD → Valuation τ sig (Elt F) := fun c => StableHlo.after hostOps6 (Wout5 m c)

/-! ## The proof data family and what rides beside the buffers -/

/-- Every region's proof data, each at its region's entry contents: a literal match on the region's number. -/
def pdats : (p : Fin 6) → (c : Dev nD) → Dat τ (Elt F) Unit ℕ (UR sig nD τ) ℕ (Pipeline.pin (pcfgs (F := F)) adm p) c
  | ⟨0, _⟩ => fun c => dat0 (atRefs (Win0 m)) c
  | ⟨1, _⟩ => fun c => dat1 (atRefs (Win1 m)) c
  | ⟨2, _⟩ => fun c => dat2 (atRefs (Win2 m)) c
  | ⟨3, _⟩ => fun c => dat3 (atRefs (Win3 m)) c
  | ⟨4, _⟩ => fun c => dat4 (atRefs (Win4 m)) c
  | ⟨5, _⟩ => fun c => dat5 (atRefs (Win5 m)) c

abbrev 𝒱h : Variants := Variants.none
/-- No core owes another anything. -/
abbrev Lh : GSem nD τ sig → Finset Unit := fun _ => ∅
abbrev lvh : GSem nD τ sig → Unit → ℕ := fun _ _ => 0
/-- Beside the buffers through every item: the core's generator register at some state, and the core owing nothing. -/
abbrev Rc (c : Dev nD) : sProp 𝕄 := iprop((∃ r, prngReg c r) ∗ ∃ W, owes (c : Thread nD τ) (0 : CellTallies nD τ sig Unit) W)

/-- A host stretch as an item: from the unscoped buffers at `W` to them at the stretch's composed values, `Rc` beside. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱h Lh lvh :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rc

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.IdealSeg0.lean ====
/-
  Region 0 as an item of @main over the thread state "every unscoped buffer at the boundary's contents, the generator
  register at some state, nothing owed": entered from the contents `Win0`, left at `Wout0`. Its three windows' arrays
  are split out of the unscoped buffers at entry and put back at the exit contents; the generator register goes into the
  region's invariant and comes back; the kernel has no semaphore of its own and owes nothing.
-/
import proofs.«102996_j6725918785568_1_alg».proof.Proof.IdealFold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def reg0 : Pipeline.RegionSeg (pcfgs (F := F)) adm (pdats m) () defs₀ 𝒱h Lh lvh (0 : Fin 6) where
  win := launch0.win.to₀
  block_pos := launch0.block_pos
  stage_whole := launch0.stage_whole
  K := PEmpty
  osem k := k.elim
  ho := Pipeline.OwnSemFacts.none _
  hbody c := (body_obligation0 (atRefs (Win0 m)) c).loose
  hwaits := Pipeline.hwaits_of_owed_zero _ _ _ _ Lh lvh (0 : Fin 6) fun _ _ => rfl
  pre c := iprop(StableHlo.held (c : Thread nD τ) (Pipeline.ucRefs τ sig) (Win0 m c) ∗ Rc c)
  post c := iprop(StableHlo.held (c : Thread nD τ) (Pipeline.ucRefs τ sig) (Wout0 m c) ∗ Rc c)
  X c := iprop(∃ r, prngReg c r)
  Y c := iprop(∃ r, prngReg c r)
  Z c := Pipeline.unscopedRest (Ix := Unit) (Name := ℕ) (U := UR sig nD τ) (Lvl := ℕ) spec0 c (atRefs (Win0 m) c)
  hentry c := by
    rw [Pipeline.ownSems0_none]
    have hsplit := Pipeline.arrays_of_unscopedBufs (p := (0 : Fin 6)) (pcfgs (F := F)) adm (pdats m) launch0.win launch0.arr_whole c
      ((pdats m (0 : Fin 6) c).share_full fun _ => rfl) (atRefs (Win0 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m (0 : Fin 6) c).Φ 0 = Pipeline.ΦA spec0 c from rfl]; unfold Pipeline.ΦA
    iintro ⟨Hp, -, Hr⟩
    isplitl [Hr]; · iexact Hr
    iexact Hp
  hout c := by
    rw [Pipeline.ownSems0_none, show (pdats m (0 : Fin 6) c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := (0 : Fin 6)) (pcfgs (F := F)) adm (Ix := Unit) (Name := ℕ) (U := UR sig nD τ) (Lvl := ℕ)
      launch0.win launch0.arr_whole c (pdats m) ((pdats m (0 : Fin 6) c).share_full fun _ => rfl)
      (atRefs (Win0 m) c) (atRefs (Wout0 m) c) ((pdats m (0 : Fin 6) c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.IdealSeg1.lean ====
/-
  Region 1 as an item of @main over the thread state "every unscoped buffer at the boundary's contents, the generator
  register at some state, nothing owed": entered from the contents `Win1`, left at `Wout1`. Its three windows' arrays
  are split out of the unscoped buffers at entry and put back at the exit contents; the generator register goes into the
  region's invariant and comes back; the kernel has no semaphore of its own and owes nothing.
-/
import proofs.«102996_j6725918785568_1_alg».proof.Proof.IdealFold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def reg1 : Pipeline.RegionSeg (pcfgs (F := F)) adm (pdats m) () defs₀ 𝒱h Lh lvh (1 : Fin 6) where
  win := launch1.win.to₀
  block_pos := launch1.block_pos
  stage_whole := launch1.stage_whole
  K := PEmpty
  osem k := k.elim
  ho := Pipeline.OwnSemFacts.none _
  hbody c := (body_obligation1 (atRefs (Win1 m)) c).loose
  hwaits := Pipeline.hwaits_of_owed_zero _ _ _ _ Lh lvh (1 : Fin 6) fun _ _ => rfl
  pre c := iprop(StableHlo.held (c : Thread nD τ) (Pipeline.ucRefs τ sig) (Win1 m c) ∗ Rc c)
  post c := iprop(StableHlo.held (c : Thread nD τ) (Pipeline.ucRefs τ sig) (Wout1 m c) ∗ Rc c)
  X c := iprop(∃ r, prngReg c r)
  Y c := iprop(∃ r, prngReg c r)
  Z c := Pipeline.unscopedRest (Ix := Unit) (Name := ℕ) (U := UR sig nD τ) (Lvl := ℕ) spec1 c (atRefs (Win1 m) c)
  hentry c := by
    rw [Pipeline.ownSems0_none]
    have hsplit := Pipeline.arrays_of_unscopedBufs (p := (1 : Fin 6)) (pcfgs (F := F)) adm (pdats m) launch1.win launch1.arr_whole c
      ((pdats m (1 : Fin 6) c).share_full fun _ => rfl) (atRefs (Win1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m (1 : Fin 6) c).Φ 0 = Pipeline.ΦA spec1 c from rfl]; unfold Pipeline.ΦA
    iintro ⟨Hp, -, Hr⟩
    isplitl [Hr]; · iexact Hr
    iexact Hp
  hout c := by
    rw [Pipeline.ownSems0_none, show (pdats m (1 : Fin 6) c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := (1 : Fin 6)) (pcfgs (F := F)) adm (Ix := Unit) (Name := ℕ) (U := UR sig nD τ) (Lvl := ℕ)
      launch1.win launch1.arr_whole c (pdats m) ((pdats m (1 : Fin 6) c).share_full fun _ => rfl)
      (atRefs (Win1 m) c) (atRefs (Wout1 m) c) ((pdats m (1 : Fin 6) c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.IdealSeg2.lean ====
/-
  Region 2 as an item of @main over the thread state "every unscoped buffer at the boundary's contents, the generator
  register at some state, nothing owed": entered from the contents `Win2`, left at `Wout2`. Its three windows' arrays
  are split out of the unscoped buffers at entry and put back at the exit contents; the generator register goes into the
  region's invariant and comes back; the kernel has no semaphore of its own and owes nothing.
-/
import proofs.«102996_j6725918785568_1_alg».proof.Proof.IdealFold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def reg2 : Pipeline.RegionSeg (pcfgs (F := F)) adm (pdats m) () defs₀ 𝒱h Lh lvh (2 : Fin 6) where
  win := launch2.win.to₀
  block_pos := launch2.block_pos
  stage_whole := launch2.stage_whole
  K := PEmpty
  osem k := k.elim
  ho := Pipeline.OwnSemFacts.none _
  hbody c := (body_obligation2 (atRefs (Win2 m)) c).loose
  hwaits := Pipeline.hwaits_of_owed_zero _ _ _ _ Lh lvh (2 : Fin 6) fun _ _ => rfl
  pre c := iprop(StableHlo.held (c : Thread nD τ) (Pipeline.ucRefs τ sig) (Win2 m c) ∗ Rc c)
  post c := iprop(StableHlo.held (c : Thread nD τ) (Pipeline.ucRefs τ sig) (Wout2 m c) ∗ Rc c)
  X c := iprop(∃ r, prngReg c r)
  Y c := iprop(∃ r, prngReg c r)
  Z c := Pipeline.unscopedRest (Ix := Unit) (Name := ℕ) (U := UR sig nD τ) (Lvl := ℕ) spec2 c (atRefs (Win2 m) c)
  hentry c := by
    rw [Pipeline.ownSems0_none]
    have hsplit := Pipeline.arrays_of_unscopedBufs (p := (2 : Fin 6)) (pcfgs (F := F)) adm (pdats m) launch2.win launch2.arr_whole c
      ((pdats m (2 : Fin 6) c).share_full fun _ => rfl) (atRefs (Win2 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m (2 : Fin 6) c).Φ 0 = Pipeline.ΦA spec2 c from rfl]; unfold Pipeline.ΦA
    iintro ⟨Hp, -, Hr⟩
    isplitl [Hr]; · iexact Hr
    iexact Hp
  hout c := by
    rw [Pipeline.ownSems0_none, show (pdats m (2 : Fin 6) c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := (2 : Fin 6)) (pcfgs (F := F)) adm (Ix := Unit) (Name := ℕ) (U := UR sig nD τ) (Lvl := ℕ)
      launch2.win launch2.arr_whole c (pdats m) ((pdats m (2 : Fin 6) c).share_full fun _ => rfl)
      (atRefs (Win2 m) c) (atRefs (Wout2 m) c) ((pdats m (2 : Fin 6) c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.IdealSeg3.lean ====
/-
  Region 3 as an item of @main over the thread state "every unscoped buffer at the boundary's contents, the generator
  register at some state, nothing owed": entered from the contents `Win3`, left at `Wout3`. Its three windows' arrays
  are split out of the unscoped buffers at entry and put back at the exit contents; the generator register goes into the
  region's invariant and comes back; the kernel has no semaphore of its own and owes nothing.
-/
import proofs.«102996_j6725918785568_1_alg».proof.Proof.IdealFold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def reg3 : Pipeline.RegionSeg (pcfgs (F := F)) adm (pdats m) () defs₀ 𝒱h Lh lvh (3 : Fin 6) where
  win := launch3.win.to₀
  block_pos := launch3.block_pos
  stage_whole := launch3.stage_whole
  K := PEmpty
  osem k := k.elim
  ho := Pipeline.OwnSemFacts.none _
  hbody c := (body_obligation3 (atRefs (Win3 m)) c).loose
  hwaits := Pipeline.hwaits_of_owed_zero _ _ _ _ Lh lvh (3 : Fin 6) fun _ _ => rfl
  pre c := iprop(StableHlo.held (c : Thread nD τ) (Pipeline.ucRefs τ sig) (Win3 m c) ∗ Rc c)
  post c := iprop(StableHlo.held (c : Thread nD τ) (Pipeline.ucRefs τ sig) (Wout3 m c) ∗ Rc c)
  X c := iprop(∃ r, prngReg c r)
  Y c := iprop(∃ r, prngReg c r)
  Z c := Pipeline.unscopedRest (Ix := Unit) (Name := ℕ) (U := UR sig nD τ) (Lvl := ℕ) spec3 c (atRefs (Win3 m) c)
  hentry c := by
    rw [Pipeline.ownSems0_none]
    have hsplit := Pipeline.arrays_of_unscopedBufs (p := (3 : Fin 6)) (pcfgs (F := F)) adm (pdats m) launch3.win launch3.arr_whole c
      ((pdats m (3 : Fin 6) c).share_full fun _ => rfl) (atRefs (Win3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m (3 : Fin 6) c).Φ 0 = Pipeline.ΦA spec3 c from rfl]; unfold Pipeline.ΦA
    iintro ⟨Hp, -, Hr⟩
    isplitl [Hr]; · iexact Hr
    iexact Hp
  hout c := by
    rw [Pipeline.ownSems0_none, show (pdats m (3 : Fin 6) c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := (3 : Fin 6)) (pcfgs (F := F)) adm (Ix := Unit) (Name := ℕ) (U := UR sig nD τ) (Lvl := ℕ)
      launch3.win launch3.arr_whole c (pdats m) ((pdats m (3 : Fin 6) c).share_full fun _ => rfl)
      (atRefs (Win3 m) c) (atRefs (Wout3 m) c) ((pdats m (3 : Fin 6) c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.IdealSeg4.lean ====
/-
  Region 4 as an item of @main over the thread state "every unscoped buffer at the boundary's contents, the generator
  register at some state, nothing owed": entered from the contents `Win4`, left at `Wout4`. Its three windows' arrays
  are split out of the unscoped buffers at entry and put back at the exit contents; the generator register goes into the
  region's invariant and comes back; the kernel has no semaphore of its own and owes nothing.
-/
import proofs.«102996_j6725918785568_1_alg».proof.Proof.IdealFold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def reg4 : Pipeline.RegionSeg (pcfgs (F := F)) adm (pdats m) () defs₀ 𝒱h Lh lvh (4 : Fin 6) where
  win := launch4.win.to₀
  block_pos := launch4.block_pos
  stage_whole := launch4.stage_whole
  K := PEmpty
  osem k := k.elim
  ho := Pipeline.OwnSemFacts.none _
  hbody c := (body_obligation4 (atRefs (Win4 m)) c).loose
  hwaits := Pipeline.hwaits_of_owed_zero _ _ _ _ Lh lvh (4 : Fin 6) fun _ _ => rfl
  pre c := iprop(StableHlo.held (c : Thread nD τ) (Pipeline.ucRefs τ sig) (Win4 m c) ∗ Rc c)
  post c := iprop(StableHlo.held (c : Thread nD τ) (Pipeline.ucRefs τ sig) (Wout4 m c) ∗ Rc c)
  X c := iprop(∃ r, prngReg c r)
  Y c := iprop(∃ r, prngReg c r)
  Z c := Pipeline.unscopedRest (Ix := Unit) (Name := ℕ) (U := UR sig nD τ) (Lvl := ℕ) spec4 c (atRefs (Win4 m) c)
  hentry c := by
    rw [Pipeline.ownSems0_none]
    have hsplit := Pipeline.arrays_of_unscopedBufs (p := (4 : Fin 6)) (pcfgs (F := F)) adm (pdats m) launch4.win launch4.arr_whole c
      ((pdats m (4 : Fin 6) c).share_full fun _ => rfl) (atRefs (Win4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m (4 : Fin 6) c).Φ 0 = Pipeline.ΦA spec4 c from rfl]; unfold Pipeline.ΦA
    iintro ⟨Hp, -, Hr⟩
    isplitl [Hr]; · iexact Hr
    iexact Hp
  hout c := by
    rw [Pipeline.ownSems0_none, show (pdats m (4 : Fin 6) c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := (4 : Fin 6)) (pcfgs (F := F)) adm (Ix := Unit) (Name := ℕ) (U := UR sig nD τ) (Lvl := ℕ)
      launch4.win launch4.arr_whole c (pdats m) ((pdats m (4 : Fin 6) c).share_full fun _ => rfl)
      (atRefs (Win4 m) c) (atRefs (Wout4 m) c) ((pdats m (4 : Fin 6) c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.IdealSeg5.lean ====
/-
  Region 5 as an item of @main over the thread state "every unscoped buffer at the boundary's contents, the generator
  register at some state, nothing owed": entered from the contents `Win5`, left at `Wout5`. Its three windows' arrays
  are split out of the unscoped buffers at entry and put back at the exit contents; the generator register goes into the
  region's invariant and comes back; the kernel has no semaphore of its own and owes nothing.
-/
import proofs.«102996_j6725918785568_1_alg».proof.Proof.IdealFold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def reg5 : Pipeline.RegionSeg (pcfgs (F := F)) adm (pdats m) () defs₀ 𝒱h Lh lvh (5 : Fin 6) where
  win := launch5.win.to₀
  block_pos := launch5.block_pos
  stage_whole := launch5.stage_whole
  K := PEmpty
  osem k := k.elim
  ho := Pipeline.OwnSemFacts.none _
  hbody c := (body_obligation5 (atRefs (Win5 m)) c).loose
  hwaits := Pipeline.hwaits_of_owed_zero _ _ _ _ Lh lvh (5 : Fin 6) fun _ _ => rfl
  pre c := iprop(StableHlo.held (c : Thread nD τ) (Pipeline.ucRefs τ sig) (Win5 m c) ∗ Rc c)
  post c := iprop(StableHlo.held (c : Thread nD τ) (Pipeline.ucRefs τ sig) (Wout5 m c) ∗ Rc c)
  X c := iprop(∃ r, prngReg c r)
  Y c := iprop(∃ r, prngReg c r)
  Z c := Pipeline.unscopedRest (Ix := Unit) (Name := ℕ) (U := UR sig nD τ) (Lvl := ℕ) spec5 c (atRefs (Win5 m) c)
  hentry c := by
    rw [Pipeline.ownSems0_none]
    have hsplit := Pipeline.arrays_of_unscopedBufs (p := (5 : Fin 6)) (pcfgs (F := F)) adm (pdats m) launch5.win launch5.arr_whole c
      ((pdats m (5 : Fin 6) c).share_full fun _ => rfl) (atRefs (Win5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m (5 : Fin 6) c).Φ 0 = Pipeline.ΦA spec5 c from rfl]; unfold Pipeline.ΦA
    iintro ⟨Hp, -, Hr⟩
    isplitl [Hr]; · iexact Hr
    iexact Hp
  hout c := by
    rw [Pipeline.ownSems0_none, show (pdats m (5 : Fin 6) c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := (5 : Fin 6)) (pcfgs (F := F)) adm (Ix := Unit) (Name := ℕ) (U := UR sig nD τ) (Lvl := ℕ)
      launch5.win launch5.arr_whole c (pdats m) ((pdats m (5 : Fin 6) c).share_full fun _ => rfl)
      (atRefs (Win5 m) c) (atRefs (Wout5 m) c) ((pdats m (5 : Fin 6) c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.IdealRun.lean ====
/-
  @main as its eighteen items, and THE RUN: from any memory with zero counters every weakly fair execution of @main on the
  TensorCores terminates, nothing faulting, and in the final memory EVERY unscoped buffer holds the last boundary's contents
  `W18` — the fold of the host stretches' composed values and the regions' written-back blocks from the launch memory. The
  frame claim (the arguments end as launched) and the two results' values are then readings of `W18`.
-/
import proofs.«102996_j6725918785568_1_alg».proof.Proof.IdealSeg0
import proofs.«102996_j6725918785568_1_alg».proof.Proof.IdealSeg1
import proofs.«102996_j6725918785568_1_alg».proof.Proof.IdealSeg2
import proofs.«102996_j6725918785568_1_alg».proof.Proof.IdealSeg3
import proofs.«102996_j6725918785568_1_alg».proof.Proof.IdealSeg4
import proofs.«102996_j6725918785568_1_alg».proof.Proof.IdealSeg5

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's items in order: a host item per stretch from its boundary's contents, a region per pallas_call. -/
abbrev hsegs : List (Pipeline.Seg (pcfgs (F := F)) adm (pdats m) () defs₀ 𝒱h Lh lvh) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .region (reg0 m),
    .host (hseg hostOps1 hostOps1_sub hostOps1_fresh (Wout0 m)),
    .host (hseg hostOps1_1 hostOps1_1_sub hostOps1_1_fresh (W7 m)),
    .region (reg1 m),
    .host (hseg hostOps2 hostOps2_sub hostOps2_fresh (Wout1 m)),
    .region (reg2 m),
    .region (reg3 m),
    .host (hseg hostOps4 hostOps4_sub hostOps4_fresh (Wout3 m)),
    .host (hseg hostOps4_1 hostOps4_1_sub hostOps4_1_fresh (W13 m)),
    .region (reg4 m),
    .host (hseg hostOps5 hostOps5_sub hostOps5_fresh (Wout4 m)),
    .region (reg5 m),
    .host (hseg hostOps6 hostOps6_sub hostOps6_fresh (Wout5 m)) ]

/-- @main IS the run of its items. -/
theorem main_run (c : Dev nD) : main (F := F) c = Pipeline.Seg.run (hsegs m) := (main_chain c).trans (by chain_rfl)

/-- The last thread state without what the core owes: every unscoped buffer at `W18`, the generator register at some state. -/
abbrev Tlast (c : Dev nD) : sProp 𝕄 := iprop(StableHlo.held (c : Thread nD τ) (Pipeline.ucRefs τ sig) (W18 m c) ∗ ∃ r, prngReg c r)

set_option backward.isDefEq.respectTransparency.types false in
/-- THE RUN, at any `F`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W18 m c b) :=
  Pipeline.θ_run_regions_kit (pcfgs (F := F)) adm (pdats m) () cellOf_inj emb₁ defs₀ 𝒱h Lh lvh m ρ main (hsegs m)
    (fun c Q => by rw [main_run m c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rc c)) (Tₙ := Tlast m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun _ => .rfl, fun _ => .rfl, fun _ => .rfl, fun _ => .rfl,
      fun c => by
        show iprop(StableHlo.held (c : Thread nD τ) (Pipeline.ucRefs τ sig) (W18 m c) ∗ Rc c)
          ⊢ iprop(Tlast m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach Lh lvh fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m c b)
    (hfin := fun c s' => by
      iintro ⟨⟨Hh, -⟩, HSI⟩
      unfold StableHlo.held
      imodintro
      iapply (pointsTo_read_all (Pipeline.ucRefs τ sig) (fun b => (((c : Thread nD τ)).1, b)) (W18 m c) s')
      isplitl [Hh] <;> iassumption)
    (hQ := fun s h => h)

end Cert.KernelIdeal.Hand

end
-- ==== Proof.IdealKept.lean ====
/-
  What each item of @main leaves unchanged. A kernel region changes no buffer but its result's array: an operand
  window's array ends as it was entered (a window that is not an output is never written back), and a buffer that is no
  window's array is untouched. A host stretch changes only the buffers its operations write. So each of the seven
  argument arrays, which no operation writes and no region has for a result, reaches the last boundary as launched.
-/
import proofs.«102996_j6725918785568_1_alg».proof.Proof.IdealFold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

variable (m : (ℓ : Loc nD τ sig) → Buf (Elt F) ℓ)

/-- Region 0 leaves an operand window's array as it found it. -/
theorem Wout0_in (c : Dev nD) (w : Fin cfg0.W) (hw : (cfg0.win w).isOut = false) :
    Wout0 m c (Proc.devRef .tc (Pipeline.arrRef spec0 w)) = Win0 m c (Proc.devRef .tc (Pipeline.arrRef spec0 w)) :=
  (Wout0_arr m c w).trans (((dat0 (atRefs (Win0 m)) c).arrAt_in w hw _).trans (A_eq0 (atRefs (Win0 m)) c w))

/-- Region 0 changes no buffer but its result's array. -/
theorem Wout0_kept (c : Dev nD) (b : Ref sig .tc) (hb : b ≠ main_v35) :
    Wout0 m c (Proc.devRef .tc b) = Win0 m c (Proc.devRef .tc b) := by
  by_cases h0 : b = Pipeline.arrRef spec0 0
  · subst h0; exact Wout0_in m c 0 rfl
  by_cases h1 : b = Pipeline.arrRef spec0 1
  · subst h1; exact Wout0_in m c 1 rfl
  refine Wout0_of_ne m c b fun w => ?_
  fin_cases w
  · exact fun e => h0 e.symm
  · exact fun e => h1 e.symm
  · exact fun e => hb e.symm

/-- Region 1 leaves an operand window's array as it found it. -/
theorem Wout1_in (c : Dev nD) (w : Fin cfg1.W) (hw : (cfg1.win w).isOut = false) :
    Wout1 m c (Proc.devRef .tc (Pipeline.arrRef spec1 w)) = Win1 m c (Proc.devRef .tc (Pipeline.arrRef spec1 w)) :=
  (Wout1_arr m c w).trans (((dat1 (atRefs (Win1 m)) c).arrAt_in w hw _).trans (A_eq1 (atRefs (Win1 m)) c w))

/-- Region 1 changes no buffer but its result's array. -/
theorem Wout1_kept (c : Dev nD) (b : Ref sig .tc) (hb : b ≠ main_v44) :
    Wout1 m c (Proc.devRef .tc b) = Win1 m c (Proc.devRef .tc b) := by
  by_cases h0 : b = Pipeline.arrRef spec1 0
  · subst h0; exact Wout1_in m c 0 rfl
  by_cases h1 : b = Pipeline.arrRef spec1 1
  · subst h1; exact Wout1_in m c 1 rfl
  refine Wout1_of_ne m c b fun w => ?_
  fin_cases w
  · exact fun e => h0 e.symm
  · exact fun e => h1 e.symm
  · exact fun e => hb e.symm

/-- Region 2 leaves an operand window's array as it found it. -/
theorem Wout2_in (c : Dev nD) (w : Fin cfg2.W) (hw : (cfg2.win w).isOut = false) :
    Wout2 m c (Proc.devRef .tc (Pipeline.arrRef spec2 w)) = Win2 m c (Proc.devRef .tc (Pipeline.arrRef spec2 w)) :=
  (Wout2_arr m c w).trans (((dat2 (atRefs (Win2 m)) c).arrAt_in w hw _).trans (A_eq2 (atRefs (Win2 m)) c w))

/-- Region 2 changes no buffer but its result's array. -/
theorem Wout2_kept (c : Dev nD) (b : Ref sig .tc) (hb : b ≠ main_v50) :
    Wout2 m c (Proc.devRef .tc b) = Win2 m c (Proc.devRef .tc b) := by
  by_cases h0 : b = Pipeline.arrRef spec2 0
  · subst h0; exact Wout2_in m c 0 rfl
  by_cases h1 : b = Pipeline.arrRef spec2 1
  · subst h1; exact Wout2_in m c 1 rfl
  refine Wout2_of_ne m c b fun w => ?_
  fin_cases w
  · exact fun e => h0 e.symm
  · exact fun e => h1 e.symm
  · exact fun e => hb e.symm

/-- Region 3 leaves an operand window's array as it found it. -/
theorem Wout3_in (c : Dev nD) (w : Fin cfg3.W) (hw : (cfg3.win w).isOut = false) :
    Wout3 m c (Proc.devRef .tc (Pipeline.arrRef spec3 w)) = Win3 m c (Proc.devRef .tc (Pipeline.arrRef spec3 w)) :=
  (Wout3_arr m c w).trans (((dat3 (atRefs (Win3 m)) c).arrAt_in w hw _).trans (A_eq3 (atRefs (Win3 m)) c w))

/-- Region 3 changes no buffer but its result's array. -/
theorem Wout3_kept (c : Dev nD) (b : Ref sig .tc) (hb : b ≠ main_v51) :
    Wout3 m c (Proc.devRef .tc b) = Win3 m c (Proc.devRef .tc b) := by
  by_cases h0 : b = Pipeline.arrRef spec3 0
  · subst h0; exact Wout3_in m c 0 rfl
  by_cases h1 : b = Pipeline.arrRef spec3 1
  · subst h1; exact Wout3_in m c 1 rfl
  refine Wout3_of_ne m c b fun w => ?_
  fin_cases w
  · exact fun e => h0 e.symm
  · exact fun e => h1 e.symm
  · exact fun e => hb e.symm

/-- Region 4 leaves an operand window's array as it found it. -/
theorem Wout4_in (c : Dev nD) (w : Fin cfg4.W) (hw : (cfg4.win w).isOut = false) :
    Wout4 m c (Proc.devRef .tc (Pipeline.arrRef spec4 w)) = Win4 m c (Proc.devRef .tc (Pipeline.arrRef spec4 w)) :=
  (Wout4_arr m c w).trans (((dat4 (atRefs (Win4 m)) c).arrAt_in w hw _).trans (A_eq4 (atRefs (Win4 m)) c w))

/-- Region 4 changes no buffer but its result's array. -/
theorem Wout4_kept (c : Dev nD) (b : Ref sig .tc) (hb : b ≠ main_v60) :
    Wout4 m c (Proc.devRef .tc b) = Win4 m c (Proc.devRef .tc b) := by
  by_cases h0 : b = Pipeline.arrRef spec4 0
  · subst h0; exact Wout4_in m c 0 rfl
  by_cases h1 : b = Pipeline.arrRef spec4 1
  · subst h1; exact Wout4_in m c 1 rfl
  refine Wout4_of_ne m c b fun w => ?_
  fin_cases w
  · exact fun e => h0 e.symm
  · exact fun e => h1 e.symm
  · exact fun e => hb e.symm

/-- Region 5 leaves an operand window's array as it found it. -/
theorem Wout5_in (c : Dev nD) (w : Fin cfg5.W) (hw : (cfg5.win w).isOut = false) :
    Wout5 m c (Proc.devRef .tc (Pipeline.arrRef spec5 w)) = Win5 m c (Proc.devRef .tc (Pipeline.arrRef spec5 w)) :=
  (Wout5_arr m c w).trans (((dat5 (atRefs (Win5 m)) c).arrAt_in w hw _).trans (A_eq5 (atRefs (Win5 m)) c w))

/-- Region 5 changes no buffer but its result's array. -/
theorem Wout5_kept (c : Dev nD) (b : Ref sig .tc) (hb : b ≠ main_v66) :
    Wout5 m c (Proc.devRef .tc b) = Win5 m c (Proc.devRef .tc b) := by
  by_cases h0 : b = Pipeline.arrRef spec5 0
  · subst h0; exact Wout5_in m c 0 rfl
  by_cases h1 : b = Pipeline.arrRef spec5 1
  · subst h1; exact Wout5_in m c 1 rfl
  refine Wout5_of_ne m c b fun w => ?_
  fin_cases w
  · exact fun e => h0 e.symm
  · exact fun e => h1 e.symm
  · exact fun e => hb e.symm

/-- A buffer that no host operation writes and that is no region's result holds at the last boundary what the launch
    memory held. -/
theorem W18_of_untouched (c : Dev nD) (r : Ref sig .tc)
    (h0 : r ∉ hostOps0_W) (h0_1 : r ∉ hostOps0_1_W) (h0_2 : r ∉ hostOps0_2_W) (h0_3 : r ∉ hostOps0_3_W) (h0_4 : r ∉ hostOps0_4_W)
    (h1 : r ∉ hostOps1_W) (h1_1 : r ∉ hostOps1_1_W) (h2 : r ∉ hostOps2_W) (h4 : r ∉ hostOps4_W) (h4_1 : r ∉ hostOps4_1_W)
    (h5 : r ∉ hostOps5_W) (h6 : r ∉ hostOps6_W)
    (n0 : r ≠ main_v35) (n1 : r ≠ main_v44) (n2 : r ≠ main_v50) (n3 : r ≠ main_v51) (n4 : r ≠ main_v60) (n5 : r ≠ main_v66) :
    W18 m c (Proc.devRef .tc r) = m ((c : Thread nD τ).loc r) :=
  calc W18 m c (Proc.devRef .tc r)
    _ = Wout5 m c (Proc.devRef .tc r) := StableHlo.after_of_writes_sub hostOps6 _ hostOps6_writes h6
    _ = W16 m c (Proc.devRef .tc r) := Wout5_kept m c r n5
    _ = Wout4 m c (Proc.devRef .tc r) := StableHlo.after_of_writes_sub hostOps5 _ hostOps5_writes h5
    _ = W14 m c (Proc.devRef .tc r) := Wout4_kept m c r n4
    _ = W13 m c (Proc.devRef .tc r) := StableHlo.after_of_writes_sub hostOps4_1 _ hostOps4_1_writes h4_1
    _ = Wout3 m c (Proc.devRef .tc r) := StableHlo.after_of_writes_sub hostOps4 _ hostOps4_writes h4
    _ = Wout2 m c (Proc.devRef .tc r) := Wout3_kept m c r n3
    _ = W10 m c (Proc.devRef .tc r) := Wout2_kept m c r n2
    _ = Wout1 m c (Proc.devRef .tc r) := StableHlo.after_of_writes_sub hostOps2 _ hostOps2_writes h2
    _ = W8 m c (Proc.devRef .tc r) := Wout1_kept m c r n1
    _ = W7 m c (Proc.devRef .tc r) := StableHlo.after_of_writes_sub hostOps1_1 _ hostOps1_1_writes h1_1
    _ = Wout0 m c (Proc.devRef .tc r) := StableHlo.after_of_writes_sub hostOps1 _ hostOps1_writes h1
    _ = W5 m c (Proc.devRef .tc r) := Wout0_kept m c r n0
    _ = W4 m c (Proc.devRef .tc r) := StableHlo.after_of_writes_sub hostOps0_4 _ hostOps0_4_writes h0_4
    _ = W3 m c (Proc.devRef .tc r) := StableHlo.after_of_writes_sub hostOps0_3 _ hostOps0_3_writes h0_3
    _ = W2 m c (Proc.devRef .tc r) := StableHlo.after_of_writes_sub hostOps0_2 _ hostOps0_2_writes h0_2
    _ = W1 m c (Proc.devRef .tc r) := StableHlo.after_of_writes_sub hostOps0_1 _ hostOps0_1_writes h0_1
    _ = W0 m c (Proc.devRef .tc r) := StableHlo.after_of_writes_sub hostOps0 _ hostOps0_writes h0
    _ = m ((c : Thread nD τ).loc r) := rfl

theorem W18_main_arg0 (c : Dev nD) : W18 m c (Proc.devRef .tc main_arg0) = m ((c : Thread nD τ).loc main_arg0) :=
  W18_of_untouched m c main_arg0 (by decide) (by decide) (by decide) (by decide) (by decide) (by decide) (by decide) (by decide) (by decide) (by decide) (by decide) (by decide) (by decide) (by decide) (by decide) (by decide) (by decide) (by decide)
theorem W18_main_arg1 (c : Dev nD) : W18 m c (Proc.devRef .tc main_arg1) = m ((c : Thread nD τ).loc main_arg1) :=
  W18_of_untouched m c main_arg1 (by decide) (by decide) (by decide) (by decide) (by decide) (by decide) (by decide) (by decide) (by decide) (by decide) (by decide) (by decide) (by decide) (by decide) (by decide) (by decide) (by decide) (by decide)
theorem W18_main_arg2 (c : Dev nD) : W18 m c (Proc.devRef .tc main_arg2) = m ((c : Thread nD τ).loc main_arg2) :=
  W18_of_untouched m c main_arg2 (by decide) (by decide) (by decide) (by decide) (by decide) (by decide) (by decide) (by decide) (by decide) (by decide) (by decide) (by decide) (by decide) (by decide) (by decide) (by decide) (by decide) (by decide)
theorem W18_main_arg3 (c : Dev nD) : W18 m c (Proc.devRef .tc main_arg3) = m ((c : Thread nD τ).loc main_arg3) :=
  W18_of_untouched m c main_arg3 (by decide) (by decide) (by decide) (by decide) (by decide) (by decide) (by decide) (by decide) (by decide) (by decide) (by decide) (by decide) (by decide) (by decide) (by decide) (by decide) (by decide) (by decide)
theorem W18_main_arg4 (c : Dev nD) : W18 m c (Proc.devRef .tc main_arg4) = m ((c : Thread nD τ).loc main_arg4) :=
  W18_of_untouched m c main_arg4 (by decide) (by decide) (by decide) (by decide) (by decide) (by decide) (by decide) (by decide) (by decide) (by decide) (by decide) (by decide) (by decide) (by decide) (by decide) (by decide) (by decide) (by decide)
theorem W18_main_arg5 (c : Dev nD) : W18 m c (Proc.devRef .tc main_arg5) = m ((c : Thread nD τ).loc main_arg5) :=
  W18_of_untouched m c main_arg5 (by decide) (by decide) (by decide) (by decide) (by decide) (by decide) (by decide) (by decide) (by decide) (by decide) (by decide) (by decide) (by decide) (by decide) (by decide) (by decide) (by decide) (by decide)
theorem W18_main_arg6 (c : Dev nD) : W18 m c (Proc.devRef .tc main_arg6) = m ((c : Thread nD τ).loc main_arg6) :=
  W18_of_untouched m c main_arg6 (by decide) (by decide) (by decide) (by decide) (by decide) (by decide) (by decide) (by decide) (by decide) (by decide) (by decide) (by decide) (by decide) (by decide) (by decide) (by decide) (by decide) (by decide)

end Cert.KernelIdeal.Hand

end
-- ==== Proof.KernelRegion0.lean ====
/-
  Region 0 of @main (the pallas_call `cc0__matmul_kernel`), entered from ANY contents `V` of the TensorCore's buffers.
  The body is a matrix product: a block of 10000 rows of the [150000, 64] left operand times the whole [64, 64] right operand,
  accumulated from zero, written to the matching 10000 rows of the [150000, 64] result.
  Each grid point sees one block of each operand: the block of window `w` at point `t` is the window's array read
  through the block's rectangle (`iblk0`). The body reads the two operand blocks whole and overwrites the result
  block whole with one pure function of them, so after the body the result's buffer is that function of the two
  blocks (`out0_2`) and the operands' buffers are untouched; nothing else is read or written, no semaphore is used,
  nothing is owed. That is the proof data `dat0`, and `body_obligation0` is the body's triple at every point.
-/
import proofs.«102996_j6725918785568_1_alg».proof.Proof.Gen.Kernel.Launch
import proofs.«102996_j6725918785568_1_alg».proof.Proof.Gen.Kernel.Skeleton
import proofs.«102996_j6725918785568_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: its array, as the region finds it, read through the block's rectangle. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An operand's staging buffer holds the operand's block at every point, whether the block was fetched at that point
    or is still there from an earlier one (its block index has not moved), for any proof data over the arrays `V`
    whose body leaves the operand's block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole rectangle of each block shape: every load and the one store of the body is of a whole block. -/
abbrev r0_a : Rect S10000x64 := Rect.unit (s := S10000x64) ![0, 0] S10000x64.size inb_S10000x64_S10000x64_0_0
abbrev r0_b : Rect S64x64 := Rect.unit (s := S64x64) ![0, 0] S64x64.size inb_S64x64_S64x64_0_0
abbrev r0_o : Rect S10000x64 := Rect.unit (s := S10000x64) ![0, 0] S10000x64.size inb_S10000x64_S10000x64_0_0

/-- The result block after the body: its one whole-block store, of the body's arithmetic on the two operand blocks. -/
def out0_2 (x0 : Vec F S10000x64 .f32) (x1 : Vec F S64x64 .f32) : Vec F S10000x64 .f32 :=
  View.canon [⟨r0_o, k0_pay1 (View.ld x0 r0_a) (View.ld x1 r0_b)⟩]

/-- That one store covers the block. -/
theorem cover0_2 (p0 : Vec F S10000x64 .f32) (y : S10000x64.Idx) :
    ∃ pc ∈ ([⟨r0_o, p0⟩] : List (View.Piece (Elt F) S10000x64 .f32)), y ∈ pc.1.set :=
  View.cover_of_tiled [⟨r0_o, p0⟩] S10000x64.size (by rfl) y

set_option maxHeartbeats 1000000 in
/-- The body's triple: from the operands' buffers at `x0`, `x1` and the result's at anything, the body runs to its
    return, faulting nowhere, leaving the operands' buffers as they were and the result's at `out0_2 x0 x1`. -/
theorem sound_kernel0 (c : Dev nD) (E : Set ℕ) (i : grid0.Coords) (arg1 : Memref sig .tc .vmem S10000x64 .f32) (harg1 : arg1.IsWhole) (arg2 : Memref sig .tc .vmem S64x64 .f32) (harg2 : arg2.IsWhole) (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The region's proof data on core `c`: the arrays as the region finds them; after the body at point `t` each
    operand's buffer at its block and the result's at `out0_2` of the two blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the operands' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every grid point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KernelRegion1.lean ====
/-
  Region 1 of @main (the pallas_call `cc1__scale_kernel`), entered from ANY contents `V` of the TensorCore's buffers.
  The body scales rows: a block of 12288 rows of the [4153344, 64] left operand, each row times its own entry of the matching
  block of the [4153344, 1] column operand, written to the matching 12288 rows of the [4153344, 64] result.
  Each grid point sees one block of each operand: the block of window `w` at point `t` is the window's array read
  through the block's rectangle (`iblk1`). The body reads the two operand blocks whole and overwrites the result
  block whole with one pure function of them, so after the body the result's buffer is that function of the two
  blocks (`out1_2`) and the operands' buffers are untouched; nothing else is read or written, no semaphore is used,
  nothing is owed. That is the proof data `dat1`, and `body_obligation1` is the body's triple at every point.
-/
import proofs.«102996_j6725918785568_1_alg».proof.Proof.Gen.Kernel.Launch
import proofs.«102996_j6725918785568_1_alg».proof.Proof.Gen.Kernel.Skeleton
import proofs.«102996_j6725918785568_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: its array, as the region finds it, read through the block's rectangle. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An operand's staging buffer holds the operand's block at every point, whether the block was fetched at that point
    or is still there from an earlier one (its block index has not moved), for any proof data over the arrays `V`
    whose body leaves the operand's block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole rectangle of each block shape: every load and the one store of the body is of a whole block. -/
abbrev r1_a : Rect S12288x64 := Rect.unit (s := S12288x64) ![0, 0] S12288x64.size inb_S12288x64_S12288x64_0_0
abbrev r1_b : Rect S12288x1 := Rect.unit (s := S12288x1) ![0, 0] S12288x1.size inb_S12288x1_S12288x1_0_0
abbrev r1_o : Rect S12288x64 := Rect.unit (s := S12288x64) ![0, 0] S12288x64.size inb_S12288x64_S12288x64_0_0

/-- The result block after the body: its one whole-block store, of the body's arithmetic on the two operand blocks. -/
def out1_2 (x0 : Vec F S12288x64 .f32) (x1 : Vec F S12288x1 .f32) : Vec F S12288x64 .f32 :=
  View.canon [⟨r1_o, k1_pay1 (View.ld x0 r1_a) (View.ld x1 r1_b)⟩]

/-- That one store covers the block. -/
theorem cover1_2 (p0 : Vec F S12288x64 .f32) (y : S12288x64.Idx) :
    ∃ pc ∈ ([⟨r1_o, p0⟩] : List (View.Piece (Elt F) S12288x64 .f32)), y ∈ pc.1.set :=
  View.cover_of_tiled [⟨r1_o, p0⟩] S12288x64.size (by rfl) y

set_option maxHeartbeats 1000000 in
/-- The body's triple: from the operands' buffers at `x0`, `x1` and the result's at anything, the body runs to its
    return, faulting nowhere, leaving the operands' buffers as they were and the result's at `out1_2 x0 x1`. -/
theorem sound_kernel1 (c : Dev nD) (E : Set ℕ) (i : grid1.Coords) (arg1 : Memref sig .tc .vmem S12288x64 .f32) (harg1 : arg1.IsWhole) (arg2 : Memref sig .tc .vmem S12288x1 .f32) (harg2 : arg2.IsWhole) (arg3 : Memref sig .tc .vmem S12288x64 .f32) (harg3 : arg3.IsWhole)
    (x0 : Vec F S12288x64 .f32) (x1 : Vec F S12288x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__scale_kernel i arg1 harg1 arg2 harg2 arg3 harg3) K := by
  simp only [cc1__scale_kernel_eq_skeleton]; unfold cc1__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The region's proof data on core `c`: the arrays as the region finds them; after the body at point `t` each
    operand's buffer at its block and the result's at `out1_2` of the two blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the operands' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every grid point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KernelRegion2.lean ====
/-
  Region 2 of @main (the pallas_call `cc2__bias_relu_kernel`), entered from ANY contents `V` of the TensorCore's buffers.
  The body adds a row and clamps at zero: a block of 10000 rows of the [150000, 64] left operand plus the one row of the [1, 64]
  operand, then the maximum with 0.0, written to the matching 10000 rows of the [150000, 64] result.
  Each grid point sees one block of each operand: the block of window `w` at point `t` is the window's array read
  through the block's rectangle (`iblk2`). The body reads the two operand blocks whole and overwrites the result
  block whole with one pure function of them, so after the body the result's buffer is that function of the two
  blocks (`out2_2`) and the operands' buffers are untouched; nothing else is read or written, no semaphore is used,
  nothing is owed. That is the proof data `dat2`, and `body_obligation2` is the body's triple at every point.
-/
import proofs.«102996_j6725918785568_1_alg».proof.Proof.Gen.Kernel.Launch
import proofs.«102996_j6725918785568_1_alg».proof.Proof.Gen.Kernel.Skeleton
import proofs.«102996_j6725918785568_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: its array, as the region finds it, read through the block's rectangle. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An operand's staging buffer holds the operand's block at every point, whether the block was fetched at that point
    or is still there from an earlier one (its block index has not moved), for any proof data over the arrays `V`
    whose body leaves the operand's block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole rectangle of each block shape: every load and the one store of the body is of a whole block. -/
abbrev r2_a : Rect S10000x64 := Rect.unit (s := S10000x64) ![0, 0] S10000x64.size inb_S10000x64_S10000x64_0_0
abbrev r2_b : Rect S1x64 := Rect.unit (s := S1x64) ![0, 0] S1x64.size inb_S1x64_S1x64_0_0
abbrev r2_o : Rect S10000x64 := Rect.unit (s := S10000x64) ![0, 0] S10000x64.size inb_S10000x64_S10000x64_0_0

/-- The result block after the body: its one whole-block store, of the body's arithmetic on the two operand blocks. -/
def out2_2 (x0 : Vec F S10000x64 .f32) (x1 : Vec F S1x64 .f32) : Vec F S10000x64 .f32 :=
  View.canon [⟨r2_o, k2_pay1 (View.ld x0 r2_a) (View.ld x1 r2_b)⟩]

/-- That one store covers the block. -/
theorem cover2_2 (p0 : Vec F S10000x64 .f32) (y : S10000x64.Idx) :
    ∃ pc ∈ ([⟨r2_o, p0⟩] : List (View.Piece (Elt F) S10000x64 .f32)), y ∈ pc.1.set :=
  View.cover_of_tiled [⟨r2_o, p0⟩] S10000x64.size (by rfl) y

set_option maxHeartbeats 1000000 in
/-- The body's triple: from the operands' buffers at `x0`, `x1` and the result's at anything, the body runs to its
    return, faulting nowhere, leaving the operands' buffers as they were and the result's at `out2_2 x0 x1`. -/
theorem sound_kernel2 (c : Dev nD) (E : Set ℕ) (i : grid2.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole)
    (x0 : Vec F S10000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__bias_relu_kernel i arg1 harg1 arg2 harg2 arg3 harg3) K := by
  simp only [cc2__bias_relu_kernel_eq_skeleton]; unfold cc2__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The region's proof data on core `c`: the arrays as the region finds them; after the body at point `t` each
    operand's buffer at its block and the result's at `out2_2` of the two blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the operands' buffers hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every grid point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KernelRegion3.lean ====
/-
  Region 3 of @main (the pallas_call `cc3__matmul_kernel`), entered from ANY contents `V` of the TensorCore's buffers.
  The body is a matrix product: a block of 10000 rows of the [150000, 64] left operand times the whole [64, 64] right operand,
  accumulated from zero, written to the matching 10000 rows of the [150000, 64] result.
  Each grid point sees one block of each operand: the block of window `w` at point `t` is the window's array read
  through the block's rectangle (`iblk3`). The body reads the two operand blocks whole and overwrites the result
  block whole with one pure function of them, so after the body the result's buffer is that function of the two
  blocks (`out3_2`) and the operands' buffers are untouched; nothing else is read or written, no semaphore is used,
  nothing is owed. That is the proof data `dat3`, and `body_obligation3` is the body's triple at every point.
-/
import proofs.«102996_j6725918785568_1_alg».proof.Proof.Gen.Kernel.Launch
import proofs.«102996_j6725918785568_1_alg».proof.Proof.Gen.Kernel.Skeleton
import proofs.«102996_j6725918785568_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: its array, as the region finds it, read through the block's rectangle. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An operand's staging buffer holds the operand's block at every point, whether the block was fetched at that point
    or is still there from an earlier one (its block index has not moved), for any proof data over the arrays `V`
    whose body leaves the operand's block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole rectangle of each block shape: every load and the one store of the body is of a whole block. -/
abbrev r3_a : Rect S10000x64 := Rect.unit (s := S10000x64) ![0, 0] S10000x64.size inb_S10000x64_S10000x64_0_0
abbrev r3_b : Rect S64x64 := Rect.unit (s := S64x64) ![0, 0] S64x64.size inb_S64x64_S64x64_0_0
abbrev r3_o : Rect S10000x64 := Rect.unit (s := S10000x64) ![0, 0] S10000x64.size inb_S10000x64_S10000x64_0_0

/-- The result block after the body: its one whole-block store, of the body's arithmetic on the two operand blocks. -/
def out3_2 (x0 : Vec F S10000x64 .f32) (x1 : Vec F S64x64 .f32) : Vec F S10000x64 .f32 :=
  View.canon [⟨r3_o, k3_pay1 (View.ld x0 r3_a) (View.ld x1 r3_b)⟩]

/-- That one store covers the block. -/
theorem cover3_2 (p0 : Vec F S10000x64 .f32) (y : S10000x64.Idx) :
    ∃ pc ∈ ([⟨r3_o, p0⟩] : List (View.Piece (Elt F) S10000x64 .f32)), y ∈ pc.1.set :=
  View.cover_of_tiled [⟨r3_o, p0⟩] S10000x64.size (by rfl) y

set_option maxHeartbeats 1000000 in
/-- The body's triple: from the operands' buffers at `x0`, `x1` and the result's at anything, the body runs to its
    return, faulting nowhere, leaving the operands' buffers as they were and the result's at `out3_2 x0 x1`. -/
theorem sound_kernel3 (c : Dev nD) (E : Set ℕ) (i : grid3.Coords) (arg1 : Memref sig .tc .vmem S10000x64 .f32) (harg1 : arg1.IsWhole) (arg2 : Memref sig .tc .vmem S64x64 .f32) (harg2 : arg2.IsWhole) (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The region's proof data on core `c`: the arrays as the region finds them; after the body at point `t` each
    operand's buffer at its block and the result's at `out3_2` of the two blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the operands' buffers hold their blocks, so the body's triple applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every grid point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KernelRegion4.lean ====
/-
  Region 4 of @main (the pallas_call `cc4__scale_kernel`), entered from ANY contents `V` of the TensorCore's buffers.
  The body scales rows: a block of 12288 rows of the [4153344, 64] left operand, each row times its own entry of the matching
  block of the [4153344, 1] column operand, written to the matching 12288 rows of the [4153344, 64] result.
  Each grid point sees one block of each operand: the block of window `w` at point `t` is the window's array read
  through the block's rectangle (`iblk4`). The body reads the two operand blocks whole and overwrites the result
  block whole with one pure function of them, so after the body the result's buffer is that function of the two
  blocks (`out4_2`) and the operands' buffers are untouched; nothing else is read or written, no semaphore is used,
  nothing is owed. That is the proof data `dat4`, and `body_obligation4` is the body's triple at every point.
-/
import proofs.«102996_j6725918785568_1_alg».proof.Proof.Gen.Kernel.Launch
import proofs.«102996_j6725918785568_1_alg».proof.Proof.Gen.Kernel.Skeleton
import proofs.«102996_j6725918785568_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: its array, as the region finds it, read through the block's rectangle. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An operand's staging buffer holds the operand's block at every point, whether the block was fetched at that point
    or is still there from an earlier one (its block index has not moved), for any proof data over the arrays `V`
    whose body leaves the operand's block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The whole rectangle of each block shape: every load and the one store of the body is of a whole block. -/
abbrev r4_a : Rect S12288x64 := Rect.unit (s := S12288x64) ![0, 0] S12288x64.size inb_S12288x64_S12288x64_0_0
abbrev r4_b : Rect S12288x1 := Rect.unit (s := S12288x1) ![0, 0] S12288x1.size inb_S12288x1_S12288x1_0_0
abbrev r4_o : Rect S12288x64 := Rect.unit (s := S12288x64) ![0, 0] S12288x64.size inb_S12288x64_S12288x64_0_0

/-- The result block after the body: its one whole-block store, of the body's arithmetic on the two operand blocks. -/
def out4_2 (x0 : Vec F S12288x64 .f32) (x1 : Vec F S12288x1 .f32) : Vec F S12288x64 .f32 :=
  View.canon [⟨r4_o, k4_pay1 (View.ld x0 r4_a) (View.ld x1 r4_b)⟩]

/-- That one store covers the block. -/
theorem cover4_2 (p0 : Vec F S12288x64 .f32) (y : S12288x64.Idx) :
    ∃ pc ∈ ([⟨r4_o, p0⟩] : List (View.Piece (Elt F) S12288x64 .f32)), y ∈ pc.1.set :=
  View.cover_of_tiled [⟨r4_o, p0⟩] S12288x64.size (by rfl) y

set_option maxHeartbeats 1000000 in
/-- The body's triple: from the operands' buffers at `x0`, `x1` and the result's at anything, the body runs to its
    return, faulting nowhere, leaving the operands' buffers as they were and the result's at `out4_2 x0 x1`. -/
theorem sound_kernel4 (c : Dev nD) (E : Set ℕ) (i : grid4.Coords) (arg1 : Memref sig .tc .vmem S12288x64 .f32) (harg1 : arg1.IsWhole) (arg2 : Memref sig .tc .vmem S12288x1 .f32) (harg2 : arg2.IsWhole) (arg3 : Memref sig .tc .vmem S12288x64 .f32) (harg3 : arg3.IsWhole)
    (x0 : Vec F S12288x64 .f32) (x1 : Vec F S12288x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__scale_kernel i arg1 harg1 arg2 harg2 arg3 harg3) K := by
  simp only [cc4__scale_kernel_eq_skeleton]; unfold cc4__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The region's proof data on core `c`: the arrays as the region finds them; after the body at point `t` each
    operand's buffer at its block and the result's at `out4_2` of the two blocks; nothing owed, full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the operands' buffers hold their blocks, so the body's triple applies; the invariant and
    what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ (grid4.coords t) _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every grid point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KernelRegion5.lean ====
/-
  Region 5 of @main (the pallas_call `cc5__bias_relu_kernel`), entered from ANY contents `V` of the TensorCore's buffers.
  The body adds a row and clamps at zero: a block of 10000 rows of the [150000, 64] left operand plus the one row of the [1, 64]
  operand, then the maximum with 0.0, written to the matching 10000 rows of the [150000, 64] result.
  Each grid point sees one block of each operand: the block of window `w` at point `t` is the window's array read
  through the block's rectangle (`iblk5`). The body reads the two operand blocks whole and overwrites the result
  block whole with one pure function of them, so after the body the result's buffer is that function of the two
  blocks (`out5_2`) and the operands' buffers are untouched; nothing else is read or written, no semaphore is used,
  nothing is owed. That is the proof data `dat5`, and `body_obligation5` is the body's triple at every point.
-/
import proofs.«102996_j6725918785568_1_alg».proof.Proof.Gen.Kernel.Launch
import proofs.«102996_j6725918785568_1_alg».proof.Proof.Gen.Kernel.Skeleton
import proofs.«102996_j6725918785568_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: its array, as the region finds it, read through the block's rectangle. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An operand's staging buffer holds the operand's block at every point, whether the block was fetched at that point
    or is still there from an earlier one (its block index has not moved), for any proof data over the arrays `V`
    whose body leaves the operand's block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The whole rectangle of each block shape: every load and the one store of the body is of a whole block. -/
abbrev r5_a : Rect S10000x64 := Rect.unit (s := S10000x64) ![0, 0] S10000x64.size inb_S10000x64_S10000x64_0_0
abbrev r5_b : Rect S1x64 := Rect.unit (s := S1x64) ![0, 0] S1x64.size inb_S1x64_S1x64_0_0
abbrev r5_o : Rect S10000x64 := Rect.unit (s := S10000x64) ![0, 0] S10000x64.size inb_S10000x64_S10000x64_0_0

/-- The result block after the body: its one whole-block store, of the body's arithmetic on the two operand blocks. -/
def out5_2 (x0 : Vec F S10000x64 .f32) (x1 : Vec F S1x64 .f32) : Vec F S10000x64 .f32 :=
  View.canon [⟨r5_o, k5_pay1 (View.ld x0 r5_a) (View.ld x1 r5_b)⟩]

/-- That one store covers the block. -/
theorem cover5_2 (p0 : Vec F S10000x64 .f32) (y : S10000x64.Idx) :
    ∃ pc ∈ ([⟨r5_o, p0⟩] : List (View.Piece (Elt F) S10000x64 .f32)), y ∈ pc.1.set :=
  View.cover_of_tiled [⟨r5_o, p0⟩] S10000x64.size (by rfl) y

set_option maxHeartbeats 1000000 in
/-- The body's triple: from the operands' buffers at `x0`, `x1` and the result's at anything, the body runs to its
    return, faulting nowhere, leaving the operands' buffers as they were and the result's at `out5_2 x0 x1`. -/
theorem sound_kernel5 (c : Dev nD) (E : Set ℕ) (i : grid5.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole)
    (x0 : Vec F S10000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5__bias_relu_kernel i arg1 harg1 arg2 harg2 arg3 harg3) K := by
  simp only [cc5__bias_relu_kernel_eq_skeleton]; unfold cc5__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-- The region's proof data on core `c`: the arrays as the region finds them; after the body at point `t` each
    operand's buffer at its block and the result's at `out5_2` of the two blocks; nothing owed, full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the operands' buffers hold their blocks, so the body's triple applies; the invariant and
    what the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ (grid5.coords t) _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every grid point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.KernelFold.lean ====
/-
  The contents of the TensorCore's buffers at every boundary between two items of @main, as a fold from the launch
  memory: a stretch of host operations leaves each buffer at the operations' composed value of what it found
  (`StableHlo.after`); a kernel region leaves each of its windows' arrays at what its write-backs leave (the operands as
  entered, the result with every grid point's block written back) and every other buffer as entered
  (`Pipeline.withArrays`). @main is five host stretches, the first layer's matrix product, two stretches, its row
  scaling, a stretch, its bias-and-clamp, the second layer's matrix product, two stretches, its row scaling, a stretch,
  its bias-and-clamp, and a last stretch that cuts the result in two: eighteen items, nineteen boundaries `W0 … W18`.
  Each region's proof data is taken at the contents its region is entered from.
-/
import proofs.«102996_j6725918785568_1_alg».proof.Proof.KernelRegion0
import proofs.«102996_j6725918785568_1_alg».proof.Proof.KernelRegion1
import proofs.«102996_j6725918785568_1_alg».proof.Proof.KernelRegion2
import proofs.«102996_j6725918785568_1_alg».proof.Proof.KernelRegion3
import proofs.«102996_j6725918785568_1_alg».proof.Proof.KernelRegion4
import proofs.«102996_j6725918785568_1_alg».proof.Proof.KernelRegion5
import proofs.«102996_j6725918785568_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A valuation read at the TensorCore's references: what a region's proof data take. -/
abbrev atRefs (W : Dev nD → Valuation τ sig (Elt F)) : (c : Dev nD) → (b : Ref sig .tc) → Buf (Elt F) ((c : Thread nD τ).loc b) :=
  fun c b => W c b

/-! ## The boundaries before the first region -/

abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev W4 : Dev nD → Valuation τ sig (Elt F) := fun c => StableHlo.after hostOps0_3 (W3 m c)
abbrev W5 : Dev nD → Valuation τ sig (Elt F) := fun c => StableHlo.after hostOps0_4 (W4 m c)

/-! ## Region 0 (the first layer's matrix product), entered from `W5` -/

abbrev Win0 : Dev nD → Valuation τ sig (Elt F) := W5 m
def Wout0 (c : Dev nD) : Valuation τ sig (Elt F) :=
  Pipeline.withArrays spec0 c (Win0 m c) fun w => (dat0 (atRefs (Win0 m)) c).arrAt w cfg0.N
theorem Wout0_arr (c : Dev nD) (w : Fin cfg0.W) :
    Wout0 m c (Proc.devRef .tc (Pipeline.arrRef spec0 w)) = (dat0 (atRefs (Win0 m)) c).arrAt w cfg0.N := by
  unfold Wout0; exact Pipeline.withArrays_arr spec0 launch0.win.arr_inj c _ _ w
theorem Wout0_of_ne (c : Dev nD) (b : Ref sig .tc) (hb : ∀ w, Pipeline.arrRef spec0 w ≠ b) :
    Wout0 m c (Proc.devRef .tc b) = Win0 m c (Proc.devRef .tc b) := by
  unfold Wout0; exact Pipeline.withArrays_of_ne spec0 c _ _ b hb
theorem hF0 (c : Dev nD) (w : Fin cfg0.W) : (dat0 (atRefs (Win0 m)) c).arrAt w cfg0.N = atRefs (Wout0 m) c (Pipeline.arrRef spec0 w) :=
  (Wout0_arr m c w).symm
theorem hrest0 (c : Dev nD) : ∀ b, b ∉ Finset.univ.image (Pipeline.arrRef spec0) → atRefs (Wout0 m) c b = atRefs (Win0 m) c b :=
  fun b hb => Wout0_of_ne m c b fun w e => hb (Finset.mem_image.mpr ⟨w, Finset.mem_univ _, e⟩)

abbrev W7 : Dev nD → Valuation τ sig (Elt F) := fun c => StableHlo.after hostOps1 (Wout0 m c)
abbrev W8 : Dev nD → Valuation τ sig (Elt F) := fun c => StableHlo.after hostOps1_1 (W7 m c)

/-! ## Region 1 (the first layer's row scaling), entered from `W8` -/

abbrev Win1 : Dev nD → Valuation τ sig (Elt F) := W8 m
def Wout1 (c : Dev nD) : Valuation τ sig (Elt F) :=
  Pipeline.withArrays spec1 c (Win1 m c) fun w => (dat1 (atRefs (Win1 m)) c).arrAt w cfg1.N
theorem Wout1_arr (c : Dev nD) (w : Fin cfg1.W) :
    Wout1 m c (Proc.devRef .tc (Pipeline.arrRef spec1 w)) = (dat1 (atRefs (Win1 m)) c).arrAt w cfg1.N := by
  unfold Wout1; exact Pipeline.withArrays_arr spec1 launch1.win.arr_inj c _ _ w
theorem Wout1_of_ne (c : Dev nD) (b : Ref sig .tc) (hb : ∀ w, Pipeline.arrRef spec1 w ≠ b) :
    Wout1 m c (Proc.devRef .tc b) = Win1 m c (Proc.devRef .tc b) := by
  unfold Wout1; exact Pipeline.withArrays_of_ne spec1 c _ _ b hb
theorem hF1 (c : Dev nD) (w : Fin cfg1.W) : (dat1 (atRefs (Win1 m)) c).arrAt w cfg1.N = atRefs (Wout1 m) c (Pipeline.arrRef spec1 w) :=
  (Wout1_arr m c w).symm
theorem hrest1 (c : Dev nD) : ∀ b, b ∉ Finset.univ.image (Pipeline.arrRef spec1) → atRefs (Wout1 m) c b = atRefs (Win1 m) c b :=
  fun b hb => Wout1_of_ne m c b fun w e => hb (Finset.mem_image.mpr ⟨w, Finset.mem_univ _, e⟩)

abbrev W10 : Dev nD → Valuation τ sig (Elt F) := fun c => StableHlo.after hostOps2 (Wout1 m c)

/-! ## Region 2 (the first layer's bias and clamp), entered from `W10` -/

abbrev Win2 : Dev nD → Valuation τ sig (Elt F) := W10 m
def Wout2 (c : Dev nD) : Valuation τ sig (Elt F) :=
  Pipeline.withArrays spec2 c (Win2 m c) fun w => (dat2 (atRefs (Win2 m)) c).arrAt w cfg2.N
theorem Wout2_arr (c : Dev nD) (w : Fin cfg2.W) :
    Wout2 m c (Proc.devRef .tc (Pipeline.arrRef spec2 w)) = (dat2 (atRefs (Win2 m)) c).arrAt w cfg2.N := by
  unfold Wout2; exact Pipeline.withArrays_arr spec2 launch2.win.arr_inj c _ _ w
theorem Wout2_of_ne (c : Dev nD) (b : Ref sig .tc) (hb : ∀ w, Pipeline.arrRef spec2 w ≠ b) :
    Wout2 m c (Proc.devRef .tc b) = Win2 m c (Proc.devRef .tc b) := by
  unfold Wout2; exact Pipeline.withArrays_of_ne spec2 c _ _ b hb
theorem hF2 (c : Dev nD) (w : Fin cfg2.W) : (dat2 (atRefs (Win2 m)) c).arrAt w cfg2.N = atRefs (Wout2 m) c (Pipeline.arrRef spec2 w) :=
  (Wout2_arr m c w).symm
theorem hrest2 (c : Dev nD) : ∀ b, b ∉ Finset.univ.image (Pipeline.arrRef spec2) → atRefs (Wout2 m) c b = atRefs (Win2 m) c b :=
  fun b hb => Wout2_of_ne m c b fun w e => hb (Finset.mem_image.mpr ⟨w, Finset.mem_univ _, e⟩)

/-! ## Region 3 (the second layer's matrix product), entered from where region 2 leaves -/

abbrev Win3 : Dev nD → Valuation τ sig (Elt F) := Wout2 m
def Wout3 (c : Dev nD) : Valuation τ sig (Elt F) :=
  Pipeline.withArrays spec3 c (Win3 m c) fun w => (dat3 (atRefs (Win3 m)) c).arrAt w cfg3.N
theorem Wout3_arr (c : Dev nD) (w : Fin cfg3.W) :
    Wout3 m c (Proc.devRef .tc (Pipeline.arrRef spec3 w)) = (dat3 (atRefs (Win3 m)) c).arrAt w cfg3.N := by
  unfold Wout3; exact Pipeline.withArrays_arr spec3 launch3.win.arr_inj c _ _ w
theorem Wout3_of_ne (c : Dev nD) (b : Ref sig .tc) (hb : ∀ w, Pipeline.arrRef spec3 w ≠ b) :
    Wout3 m c (Proc.devRef .tc b) = Win3 m c (Proc.devRef .tc b) := by
  unfold Wout3; exact Pipeline.withArrays_of_ne spec3 c _ _ b hb
theorem hF3 (c : Dev nD) (w : Fin cfg3.W) : (dat3 (atRefs (Win3 m)) c).arrAt w cfg3.N = atRefs (Wout3 m) c (Pipeline.arrRef spec3 w) :=
  (Wout3_arr m c w).symm
theorem hrest3 (c : Dev nD) : ∀ b, b ∉ Finset.univ.image (Pipeline.arrRef spec3) → atRefs (Wout3 m) c b = atRefs (Win3 m) c b :=
  fun b hb => Wout3_of_ne m c b fun w e => hb (Finset.mem_image.mpr ⟨w, Finset.mem_univ _, e⟩)

abbrev W13 : Dev nD → Valuation τ sig (Elt F) := fun c => StableHlo.after hostOps4 (Wout3 m c)
abbrev W14 : Dev nD → Valuation τ sig (Elt F) := fun c => StableHlo.after hostOps4_1 (W13 m c)

/-! ## Region 4 (the second layer's row scaling), entered from `W14` -/

abbrev Win4 : Dev nD → Valuation τ sig (Elt F) := W14 m
def Wout4 (c : Dev nD) : Valuation τ sig (Elt F) :=
  Pipeline.withArrays spec4 c (Win4 m c) fun w => (dat4 (atRefs (Win4 m)) c).arrAt w cfg4.N
theorem Wout4_arr (c : Dev nD) (w : Fin cfg4.W) :
    Wout4 m c (Proc.devRef .tc (Pipeline.arrRef spec4 w)) = (dat4 (atRefs (Win4 m)) c).arrAt w cfg4.N := by
  unfold Wout4; exact Pipeline.withArrays_arr spec4 launch4.win.arr_inj c _ _ w
theorem Wout4_of_ne (c : Dev nD) (b : Ref sig .tc) (hb : ∀ w, Pipeline.arrRef spec4 w ≠ b) :
    Wout4 m c (Proc.devRef .tc b) = Win4 m c (Proc.devRef .tc b) := by
  unfold Wout4; exact Pipeline.withArrays_of_ne spec4 c _ _ b hb
theorem hF4 (c : Dev nD) (w : Fin cfg4.W) : (dat4 (atRefs (Win4 m)) c).arrAt w cfg4.N = atRefs (Wout4 m) c (Pipeline.arrRef spec4 w) :=
  (Wout4_arr m c w).symm
theorem hrest4 (c : Dev nD) : ∀ b, b ∉ Finset.univ.image (Pipeline.arrRef spec4) → atRefs (Wout4 m) c b = atRefs (Win4 m) c b :=
  fun b hb => Wout4_of_ne m c b fun w e => hb (Finset.mem_image.mpr ⟨w, Finset.mem_univ _, e⟩)

abbrev W16 : Dev nD → Valuation τ sig (Elt F) := fun c => StableHlo.after hostOps5 (Wout4 m c)

/-! ## Region 5 (the second layer's bias and clamp), entered from `W16` -/

abbrev Win5 : Dev nD → Valuation τ sig (Elt F) := W16 m
def Wout5 (c : Dev nD) : Valuation τ sig (Elt F) :=
  Pipeline.withArrays spec5 c (Win5 m c) fun w => (dat5 (atRefs (Win5 m)) c).arrAt w cfg5.N
theorem Wout5_arr (c : Dev nD) (w : Fin cfg5.W) :
    Wout5 m c (Proc.devRef .tc (Pipeline.arrRef spec5 w)) = (dat5 (atRefs (Win5 m)) c).arrAt w cfg5.N := by
  unfold Wout5; exact Pipeline.withArrays_arr spec5 launch5.win.arr_inj c _ _ w
theorem Wout5_of_ne (c : Dev nD) (b : Ref sig .tc) (hb : ∀ w, Pipeline.arrRef spec5 w ≠ b) :
    Wout5 m c (Proc.devRef .tc b) = Win5 m c (Proc.devRef .tc b) := by
  unfold Wout5; exact Pipeline.withArrays_of_ne spec5 c _ _ b hb
theorem hF5 (c : Dev nD) (w : Fin cfg5.W) : (dat5 (atRefs (Win5 m)) c).arrAt w cfg5.N = atRefs (Wout5 m) c (Pipeline.arrRef spec5 w) :=
  (Wout5_arr m c w).symm
theorem hrest5 (c : Dev nD) : ∀ b, b ∉ Finset.univ.image (Pipeline.arrRef spec5) → atRefs (Wout5 m) c b = atRefs (Win5 m) c b :=
  fun b hb => Wout5_of_ne m c b fun w e => hb (Finset.mem_image.mpr ⟨w, Finset.mem_univ _, e⟩)

/-- The last boundary: after the stretch that cuts the result into its two pieces. -/
abbrev W18 : Dev nD → Valuation τ sig (Elt F) := fun c => StableHlo.after hostOps6 (Wout5 m c)

/-! ## The proof data family and what rides beside the buffers -/

/-- Every region's proof data, each at its region's entry contents: a literal match on the region's number. -/
def pdats : (p : Fin 6) → (c : Dev nD) → Dat τ (Elt F) Unit ℕ (UR sig nD τ) ℕ (Pipeline.pin (pcfgs (F := F)) adm p) c
  | ⟨0, _⟩ => fun c => dat0 (atRefs (Win0 m)) c
  | ⟨1, _⟩ => fun c => dat1 (atRefs (Win1 m)) c
  | ⟨2, _⟩ => fun c => dat2 (atRefs (Win2 m)) c
  | ⟨3, _⟩ => fun c => dat3 (atRefs (Win3 m)) c
  | ⟨4, _⟩ => fun c => dat4 (atRefs (Win4 m)) c
  | ⟨5, _⟩ => fun c => dat5 (atRefs (Win5 m)) c

abbrev 𝒱h : Variants := Variants.none
/-- No core owes another anything. -/
abbrev Lh : GSem nD τ sig → Finset Unit := fun _ => ∅
abbrev lvh : GSem nD τ sig → Unit → ℕ := fun _ _ => 0
/-- Beside the buffers through every item: the core's generator register at some state, and the core owing nothing. -/
abbrev Rc (c : Dev nD) : sProp 𝕄 := iprop((∃ r, prngReg c r) ∗ ∃ W, owes (c : Thread nD τ) (0 : CellTallies nD τ sig Unit) W)

/-- A host stretch as an item: from the unscoped buffers at `W` to them at the stretch's composed values, `Rc` beside. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱h Lh lvh :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rc

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.KernelSeg0.lean ====
/-
  Region 0 as an item of @main over the thread state "every unscoped buffer at the boundary's contents, the generator
  register at some state, nothing owed": entered from the contents `Win0`, left at `Wout0`. Its three windows' arrays
  are split out of the unscoped buffers at entry and put back at the exit contents; the generator register goes into the
  region's invariant and comes back; the kernel has no semaphore of its own and owes nothing.
-/
import proofs.«102996_j6725918785568_1_alg».proof.Proof.KernelFold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def reg0 : Pipeline.RegionSeg (pcfgs (F := F)) adm (pdats m) () defs₀ 𝒱h Lh lvh (0 : Fin 6) where
  win := launch0.win.to₀
  block_pos := launch0.block_pos
  stage_whole := launch0.stage_whole
  K := PEmpty
  osem k := k.elim
  ho := Pipeline.OwnSemFacts.none _
  hbody c := (body_obligation0 (atRefs (Win0 m)) c).loose
  hwaits := Pipeline.hwaits_of_owed_zero _ _ _ _ Lh lvh (0 : Fin 6) fun _ _ => rfl
  pre c := iprop(StableHlo.held (c : Thread nD τ) (Pipeline.ucRefs τ sig) (Win0 m c) ∗ Rc c)
  post c := iprop(StableHlo.held (c : Thread nD τ) (Pipeline.ucRefs τ sig) (Wout0 m c) ∗ Rc c)
  X c := iprop(∃ r, prngReg c r)
  Y c := iprop(∃ r, prngReg c r)
  Z c := Pipeline.unscopedRest (Ix := Unit) (Name := ℕ) (U := UR sig nD τ) (Lvl := ℕ) spec0 c (atRefs (Win0 m) c)
  hentry c := by
    rw [Pipeline.ownSems0_none]
    have hsplit := Pipeline.arrays_of_unscopedBufs (p := (0 : Fin 6)) (pcfgs (F := F)) adm (pdats m) launch0.win launch0.arr_whole c
      ((pdats m (0 : Fin 6) c).share_full fun _ => rfl) (atRefs (Win0 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m (0 : Fin 6) c).Φ 0 = Pipeline.ΦA spec0 c from rfl]; unfold Pipeline.ΦA
    iintro ⟨Hp, -, Hr⟩
    isplitl [Hr]; · iexact Hr
    iexact Hp
  hout c := by
    rw [Pipeline.ownSems0_none, show (pdats m (0 : Fin 6) c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := (0 : Fin 6)) (pcfgs (F := F)) adm (Ix := Unit) (Name := ℕ) (U := UR sig nD τ) (Lvl := ℕ)
      launch0.win launch0.arr_whole c (pdats m) ((pdats m (0 : Fin 6) c).share_full fun _ => rfl)
      (atRefs (Win0 m) c) (atRefs (Wout0 m) c) ((pdats m (0 : Fin 6) c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KernelSeg1.lean ====
/-
  Region 1 as an item of @main over the thread state "every unscoped buffer at the boundary's contents, the generator
  register at some state, nothing owed": entered from the contents `Win1`, left at `Wout1`. Its three windows' arrays
  are split out of the unscoped buffers at entry and put back at the exit contents; the generator register goes into the
  region's invariant and comes back; the kernel has no semaphore of its own and owes nothing.
-/
import proofs.«102996_j6725918785568_1_alg».proof.Proof.KernelFold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def reg1 : Pipeline.RegionSeg (pcfgs (F := F)) adm (pdats m) () defs₀ 𝒱h Lh lvh (1 : Fin 6) where
  win := launch1.win.to₀
  block_pos := launch1.block_pos
  stage_whole := launch1.stage_whole
  K := PEmpty
  osem k := k.elim
  ho := Pipeline.OwnSemFacts.none _
  hbody c := (body_obligation1 (atRefs (Win1 m)) c).loose
  hwaits := Pipeline.hwaits_of_owed_zero _ _ _ _ Lh lvh (1 : Fin 6) fun _ _ => rfl
  pre c := iprop(StableHlo.held (c : Thread nD τ) (Pipeline.ucRefs τ sig) (Win1 m c) ∗ Rc c)
  post c := iprop(StableHlo.held (c : Thread nD τ) (Pipeline.ucRefs τ sig) (Wout1 m c) ∗ Rc c)
  X c := iprop(∃ r, prngReg c r)
  Y c := iprop(∃ r, prngReg c r)
  Z c := Pipeline.unscopedRest (Ix := Unit) (Name := ℕ) (U := UR sig nD τ) (Lvl := ℕ) spec1 c (atRefs (Win1 m) c)
  hentry c := by
    rw [Pipeline.ownSems0_none]
    have hsplit := Pipeline.arrays_of_unscopedBufs (p := (1 : Fin 6)) (pcfgs (F := F)) adm (pdats m) launch1.win launch1.arr_whole c
      ((pdats m (1 : Fin 6) c).share_full fun _ => rfl) (atRefs (Win1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m (1 : Fin 6) c).Φ 0 = Pipeline.ΦA spec1 c from rfl]; unfold Pipeline.ΦA
    iintro ⟨Hp, -, Hr⟩
    isplitl [Hr]; · iexact Hr
    iexact Hp
  hout c := by
    rw [Pipeline.ownSems0_none, show (pdats m (1 : Fin 6) c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := (1 : Fin 6)) (pcfgs (F := F)) adm (Ix := Unit) (Name := ℕ) (U := UR sig nD τ) (Lvl := ℕ)
      launch1.win launch1.arr_whole c (pdats m) ((pdats m (1 : Fin 6) c).share_full fun _ => rfl)
      (atRefs (Win1 m) c) (atRefs (Wout1 m) c) ((pdats m (1 : Fin 6) c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KernelSeg2.lean ====
/-
  Region 2 as an item of @main over the thread state "every unscoped buffer at the boundary's contents, the generator
  register at some state, nothing owed": entered from the contents `Win2`, left at `Wout2`. Its three windows' arrays
  are split out of the unscoped buffers at entry and put back at the exit contents; the generator register goes into the
  region's invariant and comes back; the kernel has no semaphore of its own and owes nothing.
-/
import proofs.«102996_j6725918785568_1_alg».proof.Proof.KernelFold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def reg2 : Pipeline.RegionSeg (pcfgs (F := F)) adm (pdats m) () defs₀ 𝒱h Lh lvh (2 : Fin 6) where
  win := launch2.win.to₀
  block_pos := launch2.block_pos
  stage_whole := launch2.stage_whole
  K := PEmpty
  osem k := k.elim
  ho := Pipeline.OwnSemFacts.none _
  hbody c := (body_obligation2 (atRefs (Win2 m)) c).loose
  hwaits := Pipeline.hwaits_of_owed_zero _ _ _ _ Lh lvh (2 : Fin 6) fun _ _ => rfl
  pre c := iprop(StableHlo.held (c : Thread nD τ) (Pipeline.ucRefs τ sig) (Win2 m c) ∗ Rc c)
  post c := iprop(StableHlo.held (c : Thread nD τ) (Pipeline.ucRefs τ sig) (Wout2 m c) ∗ Rc c)
  X c := iprop(∃ r, prngReg c r)
  Y c := iprop(∃ r, prngReg c r)
  Z c := Pipeline.unscopedRest (Ix := Unit) (Name := ℕ) (U := UR sig nD τ) (Lvl := ℕ) spec2 c (atRefs (Win2 m) c)
  hentry c := by
    rw [Pipeline.ownSems0_none]
    have hsplit := Pipeline.arrays_of_unscopedBufs (p := (2 : Fin 6)) (pcfgs (F := F)) adm (pdats m) launch2.win launch2.arr_whole c
      ((pdats m (2 : Fin 6) c).share_full fun _ => rfl) (atRefs (Win2 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m (2 : Fin 6) c).Φ 0 = Pipeline.ΦA spec2 c from rfl]; unfold Pipeline.ΦA
    iintro ⟨Hp, -, Hr⟩
    isplitl [Hr]; · iexact Hr
    iexact Hp
  hout c := by
    rw [Pipeline.ownSems0_none, show (pdats m (2 : Fin 6) c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := (2 : Fin 6)) (pcfgs (F := F)) adm (Ix := Unit) (Name := ℕ) (U := UR sig nD τ) (Lvl := ℕ)
      launch2.win launch2.arr_whole c (pdats m) ((pdats m (2 : Fin 6) c).share_full fun _ => rfl)
      (atRefs (Win2 m) c) (atRefs (Wout2 m) c) ((pdats m (2 : Fin 6) c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KernelSeg3.lean ====
/-
  Region 3 as an item of @main over the thread state "every unscoped buffer at the boundary's contents, the generator
  register at some state, nothing owed": entered from the contents `Win3`, left at `Wout3`. Its three windows' arrays
  are split out of the unscoped buffers at entry and put back at the exit contents; the generator register goes into the
  region's invariant and comes back; the kernel has no semaphore of its own and owes nothing.
-/
import proofs.«102996_j6725918785568_1_alg».proof.Proof.KernelFold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def reg3 : Pipeline.RegionSeg (pcfgs (F := F)) adm (pdats m) () defs₀ 𝒱h Lh lvh (3 : Fin 6) where
  win := launch3.win.to₀
  block_pos := launch3.block_pos
  stage_whole := launch3.stage_whole
  K := PEmpty
  osem k := k.elim
  ho := Pipeline.OwnSemFacts.none _
  hbody c := (body_obligation3 (atRefs (Win3 m)) c).loose
  hwaits := Pipeline.hwaits_of_owed_zero _ _ _ _ Lh lvh (3 : Fin 6) fun _ _ => rfl
  pre c := iprop(StableHlo.held (c : Thread nD τ) (Pipeline.ucRefs τ sig) (Win3 m c) ∗ Rc c)
  post c := iprop(StableHlo.held (c : Thread nD τ) (Pipeline.ucRefs τ sig) (Wout3 m c) ∗ Rc c)
  X c := iprop(∃ r, prngReg c r)
  Y c := iprop(∃ r, prngReg c r)
  Z c := Pipeline.unscopedRest (Ix := Unit) (Name := ℕ) (U := UR sig nD τ) (Lvl := ℕ) spec3 c (atRefs (Win3 m) c)
  hentry c := by
    rw [Pipeline.ownSems0_none]
    have hsplit := Pipeline.arrays_of_unscopedBufs (p := (3 : Fin 6)) (pcfgs (F := F)) adm (pdats m) launch3.win launch3.arr_whole c
      ((pdats m (3 : Fin 6) c).share_full fun _ => rfl) (atRefs (Win3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m (3 : Fin 6) c).Φ 0 = Pipeline.ΦA spec3 c from rfl]; unfold Pipeline.ΦA
    iintro ⟨Hp, -, Hr⟩
    isplitl [Hr]; · iexact Hr
    iexact Hp
  hout c := by
    rw [Pipeline.ownSems0_none, show (pdats m (3 : Fin 6) c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := (3 : Fin 6)) (pcfgs (F := F)) adm (Ix := Unit) (Name := ℕ) (U := UR sig nD τ) (Lvl := ℕ)
      launch3.win launch3.arr_whole c (pdats m) ((pdats m (3 : Fin 6) c).share_full fun _ => rfl)
      (atRefs (Win3 m) c) (atRefs (Wout3 m) c) ((pdats m (3 : Fin 6) c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KernelSeg4.lean ====
/-
  Region 4 as an item of @main over the thread state "every unscoped buffer at the boundary's contents, the generator
  register at some state, nothing owed": entered from the contents `Win4`, left at `Wout4`. Its three windows' arrays
  are split out of the unscoped buffers at entry and put back at the exit contents; the generator register goes into the
  region's invariant and comes back; the kernel has no semaphore of its own and owes nothing.
-/
import proofs.«102996_j6725918785568_1_alg».proof.Proof.KernelFold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def reg4 : Pipeline.RegionSeg (pcfgs (F := F)) adm (pdats m) () defs₀ 𝒱h Lh lvh (4 : Fin 6) where
  win := launch4.win.to₀
  block_pos := launch4.block_pos
  stage_whole := launch4.stage_whole
  K := PEmpty
  osem k := k.elim
  ho := Pipeline.OwnSemFacts.none _
  hbody c := (body_obligation4 (atRefs (Win4 m)) c).loose
  hwaits := Pipeline.hwaits_of_owed_zero _ _ _ _ Lh lvh (4 : Fin 6) fun _ _ => rfl
  pre c := iprop(StableHlo.held (c : Thread nD τ) (Pipeline.ucRefs τ sig) (Win4 m c) ∗ Rc c)
  post c := iprop(StableHlo.held (c : Thread nD τ) (Pipeline.ucRefs τ sig) (Wout4 m c) ∗ Rc c)
  X c := iprop(∃ r, prngReg c r)
  Y c := iprop(∃ r, prngReg c r)
  Z c := Pipeline.unscopedRest (Ix := Unit) (Name := ℕ) (U := UR sig nD τ) (Lvl := ℕ) spec4 c (atRefs (Win4 m) c)
  hentry c := by
    rw [Pipeline.ownSems0_none]
    have hsplit := Pipeline.arrays_of_unscopedBufs (p := (4 : Fin 6)) (pcfgs (F := F)) adm (pdats m) launch4.win launch4.arr_whole c
      ((pdats m (4 : Fin 6) c).share_full fun _ => rfl) (atRefs (Win4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m (4 : Fin 6) c).Φ 0 = Pipeline.ΦA spec4 c from rfl]; unfold Pipeline.ΦA
    iintro ⟨Hp, -, Hr⟩
    isplitl [Hr]; · iexact Hr
    iexact Hp
  hout c := by
    rw [Pipeline.ownSems0_none, show (pdats m (4 : Fin 6) c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := (4 : Fin 6)) (pcfgs (F := F)) adm (Ix := Unit) (Name := ℕ) (U := UR sig nD τ) (Lvl := ℕ)
      launch4.win launch4.arr_whole c (pdats m) ((pdats m (4 : Fin 6) c).share_full fun _ => rfl)
      (atRefs (Win4 m) c) (atRefs (Wout4 m) c) ((pdats m (4 : Fin 6) c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KernelSeg5.lean ====
/-
  Region 5 as an item of @main over the thread state "every unscoped buffer at the boundary's contents, the generator
  register at some state, nothing owed": entered from the contents `Win5`, left at `Wout5`. Its three windows' arrays
  are split out of the unscoped buffers at entry and put back at the exit contents; the generator register goes into the
  region's invariant and comes back; the kernel has no semaphore of its own and owes nothing.
-/
import proofs.«102996_j6725918785568_1_alg».proof.Proof.KernelFold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def reg5 : Pipeline.RegionSeg (pcfgs (F := F)) adm (pdats m) () defs₀ 𝒱h Lh lvh (5 : Fin 6) where
  win := launch5.win.to₀
  block_pos := launch5.block_pos
  stage_whole := launch5.stage_whole
  K := PEmpty
  osem k := k.elim
  ho := Pipeline.OwnSemFacts.none _
  hbody c := (body_obligation5 (atRefs (Win5 m)) c).loose
  hwaits := Pipeline.hwaits_of_owed_zero _ _ _ _ Lh lvh (5 : Fin 6) fun _ _ => rfl
  pre c := iprop(StableHlo.held (c : Thread nD τ) (Pipeline.ucRefs τ sig) (Win5 m c) ∗ Rc c)
  post c := iprop(StableHlo.held (c : Thread nD τ) (Pipeline.ucRefs τ sig) (Wout5 m c) ∗ Rc c)
  X c := iprop(∃ r, prngReg c r)
  Y c := iprop(∃ r, prngReg c r)
  Z c := Pipeline.unscopedRest (Ix := Unit) (Name := ℕ) (U := UR sig nD τ) (Lvl := ℕ) spec5 c (atRefs (Win5 m) c)
  hentry c := by
    rw [Pipeline.ownSems0_none]
    have hsplit := Pipeline.arrays_of_unscopedBufs (p := (5 : Fin 6)) (pcfgs (F := F)) adm (pdats m) launch5.win launch5.arr_whole c
      ((pdats m (5 : Fin 6) c).share_full fun _ => rfl) (atRefs (Win5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m (5 : Fin 6) c).Φ 0 = Pipeline.ΦA spec5 c from rfl]; unfold Pipeline.ΦA
    iintro ⟨Hp, -, Hr⟩
    isplitl [Hr]; · iexact Hr
    iexact Hp
  hout c := by
    rw [Pipeline.ownSems0_none, show (pdats m (5 : Fin 6) c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := (5 : Fin 6)) (pcfgs (F := F)) adm (Ix := Unit) (Name := ℕ) (U := UR sig nD τ) (Lvl := ℕ)
      launch5.win launch5.arr_whole c (pdats m) ((pdats m (5 : Fin 6) c).share_full fun _ => rfl)
      (atRefs (Win5 m) c) (atRefs (Wout5 m) c) ((pdats m (5 : Fin 6) c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KernelRun.lean ====
/-
  @main as its eighteen items, and THE RUN: from any memory with zero counters every weakly fair execution of @main on the
  TensorCores terminates, nothing faulting, and in the final memory EVERY unscoped buffer holds the last boundary's contents
  `W18` — the fold of the host stretches' composed values and the regions' written-back blocks from the launch memory. The
  frame claim (the arguments end as launched) and the two results' values are then readings of `W18`.
-/
import proofs.«102996_j6725918785568_1_alg».proof.Proof.KernelSeg0
import proofs.«102996_j6725918785568_1_alg».proof.Proof.KernelSeg1
import proofs.«102996_j6725918785568_1_alg».proof.Proof.KernelSeg2
import proofs.«102996_j6725918785568_1_alg».proof.Proof.KernelSeg3
import proofs.«102996_j6725918785568_1_alg».proof.Proof.KernelSeg4
import proofs.«102996_j6725918785568_1_alg».proof.Proof.KernelSeg5

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's items in order: a host item per stretch from its boundary's contents, a region per pallas_call. -/
abbrev hsegs : List (Pipeline.Seg (pcfgs (F := F)) adm (pdats m) () defs₀ 𝒱h Lh lvh) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .region (reg0 m),
    .host (hseg hostOps1 hostOps1_sub hostOps1_fresh (Wout0 m)),
    .host (hseg hostOps1_1 hostOps1_1_sub hostOps1_1_fresh (W7 m)),
    .region (reg1 m),
    .host (hseg hostOps2 hostOps2_sub hostOps2_fresh (Wout1 m)),
    .region (reg2 m),
    .region (reg3 m),
    .host (hseg hostOps4 hostOps4_sub hostOps4_fresh (Wout3 m)),
    .host (hseg hostOps4_1 hostOps4_1_sub hostOps4_1_fresh (W13 m)),
    .region (reg4 m),
    .host (hseg hostOps5 hostOps5_sub hostOps5_fresh (Wout4 m)),
    .region (reg5 m),
    .host (hseg hostOps6 hostOps6_sub hostOps6_fresh (Wout5 m)) ]

/-- @main IS the run of its items. -/
theorem main_run (c : Dev nD) : main (F := F) c = Pipeline.Seg.run (hsegs m) := (main_chain c).trans (by chain_rfl)

/-- The last thread state without what the core owes: every unscoped buffer at `W18`, the generator register at some state. -/
abbrev Tlast (c : Dev nD) : sProp 𝕄 := iprop(StableHlo.held (c : Thread nD τ) (Pipeline.ucRefs τ sig) (W18 m c) ∗ ∃ r, prngReg c r)

set_option backward.isDefEq.respectTransparency.types false in
/-- THE RUN, at any `F`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W18 m c b) :=
  Pipeline.θ_run_regions_kit (pcfgs (F := F)) adm (pdats m) () cellOf_inj emb₁ defs₀ 𝒱h Lh lvh m ρ main (hsegs m)
    (fun c Q => by rw [main_run m c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rc c)) (Tₙ := Tlast m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun _ => .rfl, fun _ => .rfl, fun _ => .rfl, fun _ => .rfl,
      fun c => by
        show iprop(StableHlo.held (c : Thread nD τ) (Pipeline.ucRefs τ sig) (W18 m c) ∗ Rc c)
          ⊢ iprop(Tlast m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach Lh lvh fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m c b)
    (hfin := fun c s' => by
      iintro ⟨⟨Hh, -⟩, HSI⟩
      unfold StableHlo.held
      imodintro
      iapply (pointsTo_read_all (Pipeline.ucRefs τ sig) (fun b => (((c : Thread nD τ)).1, b)) (W18 m c) s')
      isplitl [Hh] <;> iassumption)
    (hQ := fun s h => h)

end Cert.Kernel.Hand

end
-- ==== Proof.KernelKept.lean ====
/-
  What each item of @main leaves unchanged. A kernel region changes no buffer but its result's array: an operand
  window's array ends as it was entered (a window that is not an output is never written back), and a buffer that is no
  window's array is untouched. A host stretch changes only the buffers its operations write. So each of the seven
  argument arrays, which no operation writes and no region has for a result, reaches the last boundary as launched.
-/
import proofs.«102996_j6725918785568_1_alg».proof.Proof.KernelFold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

variable (m : (ℓ : Loc nD τ sig) → Buf (Elt F) ℓ)

/-- Region 0 leaves an operand window's array as it found it. -/
theorem Wout0_in (c : Dev nD) (w : Fin cfg0.W) (hw : (cfg0.win w).isOut = false) :
    Wout0 m c (Proc.devRef .tc (Pipeline.arrRef spec0 w)) = Win0 m c (Proc.devRef .tc (Pipeline.arrRef spec0 w)) :=
  (Wout0_arr m c w).trans (((dat0 (atRefs (Win0 m)) c).arrAt_in w hw _).trans (A_eq0 (atRefs (Win0 m)) c w))

/-- Region 0 changes no buffer but its result's array. -/
theorem Wout0_kept (c : Dev nD) (b : Ref sig .tc) (hb : b ≠ main_v35) :
    Wout0 m c (Proc.devRef .tc b) = Win0 m c (Proc.devRef .tc b) := by
  by_cases h0 : b = Pipeline.arrRef spec0 0
  · subst h0; exact Wout0_in m c 0 rfl
  by_cases h1 : b = Pipeline.arrRef spec0 1
  · subst h1; exact Wout0_in m c 1 rfl
  refine Wout0_of_ne m c b fun w => ?_
  fin_cases w
  · exact fun e => h0 e.symm
  · exact fun e => h1 e.symm
  · exact fun e => hb e.symm

/-- Region 1 leaves an operand window's array as it found it. -/
theorem Wout1_in (c : Dev nD) (w : Fin cfg1.W) (hw : (cfg1.win w).isOut = false) :
    Wout1 m c (Proc.devRef .tc (Pipeline.arrRef spec1 w)) = Win1 m c (Proc.devRef .tc (Pipeline.arrRef spec1 w)) :=
  (Wout1_arr m c w).trans (((dat1 (atRefs (Win1 m)) c).arrAt_in w hw _).trans (A_eq1 (atRefs (Win1 m)) c w))

/-- Region 1 changes no buffer but its result's array. -/
theorem Wout1_kept (c : Dev nD) (b : Ref sig .tc) (hb : b ≠ main_v44) :
    Wout1 m c (Proc.devRef .tc b) = Win1 m c (Proc.devRef .tc b) := by
  by_cases h0 : b = Pipeline.arrRef spec1 0
  · subst h0; exact Wout1_in m c 0 rfl
  by_cases h1 : b = Pipeline.arrRef spec1 1
  · subst h1; exact Wout1_in m c 1 rfl
  refine Wout1_of_ne m c b fun w => ?_
  fin_cases w
  · exact fun e => h0 e.symm
  · exact fun e => h1 e.symm
  · exact fun e => hb e.symm

/-- Region 2 leaves an operand window's array as it found it. -/
theorem Wout2_in (c : Dev nD) (w : Fin cfg2.W) (hw : (cfg2.win w).isOut = false) :
    Wout2 m c (Proc.devRef .tc (Pipeline.arrRef spec2 w)) = Win2 m c (Proc.devRef .tc (Pipeline.arrRef spec2 w)) :=
  (Wout2_arr m c w).trans (((dat2 (atRefs (Win2 m)) c).arrAt_in w hw _).trans (A_eq2 (atRefs (Win2 m)) c w))

/-- Region 2 changes no buffer but its result's array. -/
theorem Wout2_kept (c : Dev nD) (b : Ref sig .tc) (hb : b ≠ main_v50) :
    Wout2 m c (Proc.devRef .tc b) = Win2 m c (Proc.devRef .tc b) := by
  by_cases h0 : b = Pipeline.arrRef spec2 0
  · subst h0; exact Wout2_in m c 0 rfl
  by_cases h1 : b = Pipeline.arrRef spec2 1
  · subst h1; exact Wout2_in m c 1 rfl
  refine Wout2_of_ne m c b fun w => ?_
  fin_cases w
  · exact fun e => h0 e.symm
  · exact fun e => h1 e.symm
  · exact fun e => hb e.symm

/-- Region 3 leaves an operand window's array as it found it. -/
theorem Wout3_in (c : Dev nD) (w : Fin cfg3.W) (hw : (cfg3.win w).isOut = false) :
    Wout3 m c (Proc.devRef .tc (Pipeline.arrRef spec3 w)) = Win3 m c (Proc.devRef .tc (Pipeline.arrRef spec3 w)) :=
  (Wout3_arr m c w).trans (((dat3 (atRefs (Win3 m)) c).arrAt_in w hw _).trans (A_eq3 (atRefs (Win3 m)) c w))

/-- Region 3 changes no buffer but its result's array. -/
theorem Wout3_kept (c : Dev nD) (b : Ref sig .tc) (hb : b ≠ main_v51) :
    Wout3 m c (Proc.devRef .tc b) = Win3 m c (Proc.devRef .tc b) := by
  by_cases h0 : b = Pipeline.arrRef spec3 0
  · subst h0; exact Wout3_in m c 0 rfl
  by_cases h1 : b = Pipeline.arrRef spec3 1
  · subst h1; exact Wout3_in m c 1 rfl
  refine Wout3_of_ne m c b fun w => ?_
  fin_cases w
  · exact fun e => h0 e.symm
  · exact fun e => h1 e.symm
  · exact fun e => hb e.symm

/-- Region 4 leaves an operand window's array as it found it. -/
theorem Wout4_in (c : Dev nD) (w : Fin cfg4.W) (hw : (cfg4.win w).isOut = false) :
    Wout4 m c (Proc.devRef .tc (Pipeline.arrRef spec4 w)) = Win4 m c (Proc.devRef .tc (Pipeline.arrRef spec4 w)) :=
  (Wout4_arr m c w).trans (((dat4 (atRefs (Win4 m)) c).arrAt_in w hw _).trans (A_eq4 (atRefs (Win4 m)) c w))

/-- Region 4 changes no buffer but its result's array. -/
theorem Wout4_kept (c : Dev nD) (b : Ref sig .tc) (hb : b ≠ main_v60) :
    Wout4 m c (Proc.devRef .tc b) = Win4 m c (Proc.devRef .tc b) := by
  by_cases h0 : b = Pipeline.arrRef spec4 0
  · subst h0; exact Wout4_in m c 0 rfl
  by_cases h1 : b = Pipeline.arrRef spec4 1
  · subst h1; exact Wout4_in m c 1 rfl
  refine Wout4_of_ne m c b fun w => ?_
  fin_cases w
  · exact fun e => h0 e.symm
  · exact fun e => h1 e.symm
  · exact fun e => hb e.symm

/-- Region 5 leaves an operand window's array as it found it. -/
theorem Wout5_in (c : Dev nD) (w : Fin cfg5.W) (hw : (cfg5.win w).isOut = false) :
    Wout5 m c (Proc.devRef .tc (Pipeline.arrRef spec5 w)) = Win5 m c (Proc.devRef .tc (Pipeline.arrRef spec5 w)) :=
  (Wout5_arr m c w).trans (((dat5 (atRefs (Win5 m)) c).arrAt_in w hw _).trans (A_eq5 (atRefs (Win5 m)) c w))

/-- Region 5 changes no buffer but its result's array. -/
theorem Wout5_kept (c : Dev nD) (b : Ref sig .tc) (hb : b ≠ main_v66) :
    Wout5 m c (Proc.devRef .tc b) = Win5 m c (Proc.devRef .tc b) := by
  by_cases h0 : b = Pipeline.arrRef spec5 0
  · subst h0; exact Wout5_in m c 0 rfl
  by_cases h1 : b = Pipeline.arrRef spec5 1
  · subst h1; exact Wout5_in m c 1 rfl
  refine Wout5_of_ne m c b fun w => ?_
  fin_cases w
  · exact fun e => h0 e.symm
  · exact fun e => h1 e.symm
  · exact fun e => hb e.symm

/-- A buffer that no host operation writes and that is no region's result holds at the last boundary what the launch
    memory held. -/
theorem W18_of_untouched (c : Dev nD) (r : Ref sig .tc)
    (h0 : r ∉ hostOps0_W) (h0_1 : r ∉ hostOps0_1_W) (h0_2 : r ∉ hostOps0_2_W) (h0_3 : r ∉ hostOps0_3_W) (h0_4 : r ∉ hostOps0_4_W)
    (h1 : r ∉ hostOps1_W) (h1_1 : r ∉ hostOps1_1_W) (h2 : r ∉ hostOps2_W) (h4 : r ∉ hostOps4_W) (h4_1 : r ∉ hostOps4_1_W)
    (h5 : r ∉ hostOps5_W) (h6 : r ∉ hostOps6_W)
    (n0 : r ≠ main_v35) (n1 : r ≠ main_v44) (n2 : r ≠ main_v50) (n3 : r ≠ main_v51) (n4 : r ≠ main_v60) (n5 : r ≠ main_v66) :
    W18 m c (Proc.devRef .tc r) = m ((c : Thread nD τ).loc r) :=
  calc W18 m c (Proc.devRef .tc r)
    _ = Wout5 m c (Proc.devRef .tc r) := StableHlo.after_of_writes_sub hostOps6 _ hostOps6_writes h6
    _ = W16 m c (Proc.devRef .tc r) := Wout5_kept m c r n5
    _ = Wout4 m c (Proc.devRef .tc r) := StableHlo.after_of_writes_sub hostOps5 _ hostOps5_writes h5
    _ = W14 m c (Proc.devRef .tc r) := Wout4_kept m c r n4
    _ = W13 m c (Proc.devRef .tc r) := StableHlo.after_of_writes_sub hostOps4_1 _ hostOps4_1_writes h4_1
    _ = Wout3 m c (Proc.devRef .tc r) := StableHlo.after_of_writes_sub hostOps4 _ hostOps4_writes h4
    _ = Wout2 m c (Proc.devRef .tc r) := Wout3_kept m c r n3
    _ = W10 m c (Proc.devRef .tc r) := Wout2_kept m c r n2
    _ = Wout1 m c (Proc.devRef .tc r) := StableHlo.after_of_writes_sub hostOps2 _ hostOps2_writes h2
    _ = W8 m c (Proc.devRef .tc r) := Wout1_kept m c r n1
    _ = W7 m c (Proc.devRef .tc r) := StableHlo.after_of_writes_sub hostOps1_1 _ hostOps1_1_writes h1_1
    _ = Wout0 m c (Proc.devRef .tc r) := StableHlo.after_of_writes_sub hostOps1 _ hostOps1_writes h1
    _ = W5 m c (Proc.devRef .tc r) := Wout0_kept m c r n0
    _ = W4 m c (Proc.devRef .tc r) := StableHlo.after_of_writes_sub hostOps0_4 _ hostOps0_4_writes h0_4
    _ = W3 m c (Proc.devRef .tc r) := StableHlo.after_of_writes_sub hostOps0_3 _ hostOps0_3_writes h0_3
    _ = W2 m c (Proc.devRef .tc r) := StableHlo.after_of_writes_sub hostOps0_2 _ hostOps0_2_writes h0_2
    _ = W1 m c (Proc.devRef .tc r) := StableHlo.after_of_writes_sub hostOps0_1 _ hostOps0_1_writes h0_1
    _ = W0 m c (Proc.devRef .tc r) := StableHlo.after_of_writes_sub hostOps0 _ hostOps0_writes h0
    _ = m ((c : Thread nD τ).loc r) := rfl

theorem W18_main_arg0 (c : Dev nD) : W18 m c (Proc.devRef .tc main_arg0) = m ((c : Thread nD τ).loc main_arg0) :=
  W18_of_untouched m c main_arg0 (by decide) (by decide) (by decide) (by decide) (by decide) (by decide) (by decide) (by decide) (by decide) (by decide) (by decide) (by decide) (by decide) (by decide) (by decide) (by decide) (by decide) (by decide)
theorem W18_main_arg1 (c : Dev nD) : W18 m c (Proc.devRef .tc main_arg1) = m ((c : Thread nD τ).loc main_arg1) :=
  W18_of_untouched m c main_arg1 (by decide) (by decide) (by decide) (by decide) (by decide) (by decide) (by decide) (by decide) (by decide) (by decide) (by decide) (by decide) (by decide) (by decide) (by decide) (by decide) (by decide) (by decide)
theorem W18_main_arg2 (c : Dev nD) : W18 m c (Proc.devRef .tc main_arg2) = m ((c : Thread nD τ).loc main_arg2) :=
  W18_of_untouched m c main_arg2 (by decide) (by decide) (by decide) (by decide) (by decide) (by decide) (by decide) (by decide) (by decide) (by decide) (by decide) (by decide) (by decide) (by decide) (by decide) (by decide) (by decide) (by decide)
theorem W18_main_arg3 (c : Dev nD) : W18 m c (Proc.devRef .tc main_arg3) = m ((c : Thread nD τ).loc main_arg3) :=
  W18_of_untouched m c main_arg3 (by decide) (by decide) (by decide) (by decide) (by decide) (by decide) (by decide) (by decide) (by decide) (by decide) (by decide) (by decide) (by decide) (by decide) (by decide) (by decide) (by decide) (by decide)
theorem W18_main_arg4 (c : Dev nD) : W18 m c (Proc.devRef .tc main_arg4) = m ((c : Thread nD τ).loc main_arg4) :=
  W18_of_untouched m c main_arg4 (by decide) (by decide) (by decide) (by decide) (by decide) (by decide) (by decide) (by decide) (by decide) (by decide) (by decide) (by decide) (by decide) (by decide) (by decide) (by decide) (by decide) (by decide)
theorem W18_main_arg5 (c : Dev nD) : W18 m c (Proc.devRef .tc main_arg5) = m ((c : Thread nD τ).loc main_arg5) :=
  W18_of_untouched m c main_arg5 (by decide) (by decide) (by decide) (by decide) (by decide) (by decide) (by decide) (by decide) (by decide) (by decide) (by decide) (by decide) (by decide) (by decide) (by decide) (by decide) (by decide) (by decide)
theorem W18_main_arg6 (c : Dev nD) : W18 m c (Proc.devRef .tc main_arg6) = m ((c : Thread nD τ).loc main_arg6) :=
  W18_of_untouched m c main_arg6 (by decide) (by decide) (by decide) (by decide) (by decide) (by decide) (by decide) (by decide) (by decide) (by decide) (by decide) (by decide) (by decide) (by decide) (by decide) (by decide) (by decide) (by decide)

end Cert.Kernel.Hand

end
-- ==== Proof.Frames.lean ====
/-
  The two kernel programs' frame claims. Each program's run ends with every unscoped buffer at the last boundary's
  contents; no host operation writes an argument array and no region has one for its result, so each argument's buffer
  there is the launch memory's: the word-level program at the bit-exact instance, the idealized one at the extended reals.
-/
import proofs.«102996_j6725918785568_1_alg».proof.Defs
import proofs.«102996_j6725918785568_1_alg».proof.Proof.Gen.Pre_finite_inputs
import proofs.«102996_j6725918785568_1_alg».proof.Proof.IdealRun
import proofs.«102996_j6725918785568_1_alg».proof.Proof.IdealKept
import proofs.«102996_j6725918785568_1_alg».proof.Proof.KernelRun
import proofs.«102996_j6725918785568_1_alg».proof.Proof.KernelKept

noncomputable section

namespace Cert.Proof.Frames

open Idealize.ShloMosaic Idealize.ShloMosaic.TcCoe Idealize.SL.Sem

/-- The word-level program runs and its seven argument arrays end unchanged. -/
theorem frame_kernel : Cert.frame_Kernel := fun m ρ _ =>
  (θ_run (Cert.Kernel.defs (F := Bits)) _ _).mono (fun r h c =>
    ⟨(h c _ (Cert.Kernel.Hand.mem_uc Cert.Kernel.main_arg0 (by decide))).trans (Cert.Kernel.Hand.W18_main_arg0 m c),
      (h c _ (Cert.Kernel.Hand.mem_uc Cert.Kernel.main_arg1 (by decide))).trans (Cert.Kernel.Hand.W18_main_arg1 m c),
      (h c _ (Cert.Kernel.Hand.mem_uc Cert.Kernel.main_arg2 (by decide))).trans (Cert.Kernel.Hand.W18_main_arg2 m c),
      (h c _ (Cert.Kernel.Hand.mem_uc Cert.Kernel.main_arg3 (by decide))).trans (Cert.Kernel.Hand.W18_main_arg3 m c),
      (h c _ (Cert.Kernel.Hand.mem_uc Cert.Kernel.main_arg4 (by decide))).trans (Cert.Kernel.Hand.W18_main_arg4 m c),
      (h c _ (Cert.Kernel.Hand.mem_uc Cert.Kernel.main_arg5 (by decide))).trans (Cert.Kernel.Hand.W18_main_arg5 m c),
      (h c _ (Cert.Kernel.Hand.mem_uc Cert.Kernel.main_arg6 (by decide))).trans (Cert.Kernel.Hand.W18_main_arg6 m c)⟩)
    (Cert.Kernel.Hand.run_all (F := Bits) m ρ)

/-- The idealized program runs and its seven argument arrays end unchanged. -/
theorem frame_kernelIdeal : Cert.frame_KernelIdeal := fun m ρ _ =>
  (θ_run (Cert.KernelIdeal.defs (F := Ideal)) _ _).mono (fun r h c =>
    ⟨(h c _ (Cert.KernelIdeal.Hand.mem_uc Cert.KernelIdeal.main_arg0 (by decide))).trans (Cert.KernelIdeal.Hand.W18_main_arg0 m c),
      (h c _ (Cert.KernelIdeal.Hand.mem_uc Cert.KernelIdeal.main_arg1 (by decide))).trans (Cert.KernelIdeal.Hand.W18_main_arg1 m c),
      (h c _ (Cert.KernelIdeal.Hand.mem_uc Cert.KernelIdeal.main_arg2 (by decide))).trans (Cert.KernelIdeal.Hand.W18_main_arg2 m c),
      (h c _ (Cert.KernelIdeal.Hand.mem_uc Cert.KernelIdeal.main_arg3 (by decide))).trans (Cert.KernelIdeal.Hand.W18_main_arg3 m c),
      (h c _ (Cert.KernelIdeal.Hand.mem_uc Cert.KernelIdeal.main_arg4 (by decide))).trans (Cert.KernelIdeal.Hand.W18_main_arg4 m c),
      (h c _ (Cert.KernelIdeal.Hand.mem_uc Cert.KernelIdeal.main_arg5 (by decide))).trans (Cert.KernelIdeal.Hand.W18_main_arg5 m c),
      (h c _ (Cert.KernelIdeal.Hand.mem_uc Cert.KernelIdeal.main_arg6 (by decide))).trans (Cert.KernelIdeal.Hand.W18_main_arg6 m c)⟩)
    (Cert.KernelIdeal.Hand.run_all (F := Ideal) m ρ)

end Cert.Proof.Frames

end
-- ==== Proof.LibNaryResult.lean ====
/-
  A host operation over a LITERAL family of two or of three operand references (a concatenation of two or three arrays),
  read at its result reference: its function applied to the operands' contents, EACH AT ITS OWN REFERENCE — written
  `Fin.cons (F a) (Fin.cons (F b) …)` instead of `fun k => F (![a, b, …] k)` —, so that a rewriting pass over a line of
  operations can go on into the operands' own contents (under the binder `![a, b, …] k` is no literal reference and no
  result lemma applies to it). The four-operand form is the library's `nary4_result`; these are the same statement at
  two and at three operands, with their forms for `simp` (the result reference un-indexed).
-/
import Idealize.ShloMosaic.Lib.StableHlo.Run

noncomputable section

namespace Idealize.ShloMosaic.StableHlo

variable {τ : Topo} {sig : RefSig} {Val : EltTy → Type}
variable {x a b y : Ref sig .tc}

/-- A three-operand family operation at its result: its function of the three operands' contents. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- A two-operand family operation at its result: its function of the two operands' contents. -/
theorem nary2_result
    (f : ((k : Fin 2) → ((![x, a] : Fin 2 → Ref sig .tc) k).ty.Contents Val) → y.ty.Contents Val) (hxs hy)
    (F : Valuation τ sig Val) :
    (nary (τ := τ) ![x, a] y f hxs hy).result F (Proc.devRef .tc y)
      = f (Fin.cons (F (Proc.devRef .tc x)) (Fin.cons (F (Proc.devRef .tc a)) (fun i => i.elim0))) := by
  rw [nary_result]; congr 1; funext k; fin_cases k <;> rfl

theorem nary2_result'
    (f : ((k : Fin 2) → ((![x, a] : Fin 2 → Ref sig .tc) k).ty.Contents Val) → y.ty.Contents Val) (hxs hy)
    (F : Valuation τ sig Val) :
    (nary (τ := τ) ![x, a] y f hxs hy).result F (no_index (Proc.devRef .tc y))
      = f (Fin.cons (F (Proc.devRef .tc x)) (Fin.cons (F (Proc.devRef .tc a)) (fun i => i.elim0))) :=
  nary2_result f hxs hy F

end Idealize.ShloMosaic.StableHlo

end
-- ==== Proof.Spec.lean ====
/-
  What one graph-convolution layer's three dense pieces compute, as functions of whole arrays, index by index, on the
  extended reals. A layer is: `h = x · W` (a [150000, 64] array of node features times a [64, 64] weight matrix),
  a gather of the rows of `h` along the edge list, each gathered row scaled by its edge's weight, a sum of the scaled rows into
  their destination nodes, and `max (agg + b) 0`. The gather and the sum into nodes are the same host operations in
  both programs; the three functions here are the pieces the two programs spell differently.
-/
import Idealize.ShloMosaic.PureOps.Ideal
import Idealize.ShloMosaic.Lib.ValueIdx

noncomputable section

namespace Cert.Spec

open Idealize.ShloMosaic Idealize.ShloMosaic.ValueIdx

/-- The node-feature arrays [150000, 64], the weight matrices [64, 64], the per-edge arrays [L, 64] with
    L = 2·2000000 + 150000 edges (both directions of every edge and one self loop per node). -/
abbrev SNodes : Shape := ⟨2, ![150000, 64]⟩
abbrev SWeight : Shape := ⟨2, ![64, 64]⟩
abbrev SEdges : Shape := ⟨2, ![4150000, 64]⟩
abbrev SEdgeVec : Shape := ⟨1, ![4150000]⟩
abbrev SBias : Shape := ⟨1, ![64]⟩

/-- `(x · W)[n, j] = Σ_k x[n, k] · W[k, j]`. -/
def matProd (x : SNodes.Idx → Ideal .f32) (w : SWeight.Idx → Ideal .f32) : SNodes.Idx → Ideal .f32 :=
  fun i => ∑ k : Fin 64, x (ix2 (i 0) k) * w (ix2 k (i 1))

/-- Row `e` of the gathered features times edge `e`'s weight: `msg[e, j] = g[e, j] · norm[e]`. -/
def scaleRows (g : SEdges.Idx → Ideal .f32) (nrm : SEdgeVec.Idx → Ideal .f32) : SEdges.Idx → Ideal .f32 :=
  fun i => g i * nrm (ix1 (i 0))

/-- `max (agg[n, j] + b[j]) 0`, the zero being the float literal `0.0`'s value. -/
def biasRelu (agg : SNodes.Idx → Ideal .f32) (b : SBias.Idx → Ideal .f32) : SNodes.Idx → Ideal .f32 :=
  fun i => max (agg i + b (ix1 (i 1))) (Ideal.ofBits .f32 0x00000000#32)

end Cert.Spec

end
-- ==== Proof.RefLayers.lean ====
/-
  The reference program, layer by layer, on the extended reals.

  The reference computes a two-layer graph convolution over the node features `x = [x_a ; x_b]` (two arrays of rows joined
  into one [150000, 64] array). One layer is, for a weight matrix `W`, a bias `b`, the edge list's source and destination
  columns `src`, `dst` and the per-edge weight `norm`:

      h = x · W                       h[n, j]   = Σ_k x[n, k] · W[k, j]
      g = h[src]                      the rows of `h` gathered along the edge list (the host's gather)
      msg[e, j] = g[e, j] · norm[e]
      agg = Σ_{e : dst e = n} msg[e]  the host's sum of the edge rows into their destination nodes (a scatter-add into zeros)
      out[n, j] = max (agg[n, j] + b[j]) 0

  Every dense stage is read here at an index and identified with its index-by-index function (`Cert.Spec.matProd`,
  `scaleRows`, `biasRelu`); the gather and the sum into nodes are kept as the host's own operations, applied to those
  functions. The two layers are then the SAME function `layer` of (gather indices, scatter indices, edge weights, zeros,
  features, weights, bias), the second applied to the first's result, and the program's two results are the two row ranges
  [0, 100000) and [100000, 150000) of the second layer's result.

  Laws used: none beyond reading an operation at an index — a broadcast reads its operand at the kept coordinates, the
  product, sum and maximum of the extended reals are the operations' meanings, and a contraction over one axis is the sum over
  that axis. No finiteness is needed.
-/
import proofs.«102996_j6725918785568_1_alg».proof.Proof.RefRead
import proofs.«102996_j6725918785568_1_alg».proof.Proof.Spec

noncomputable section

namespace Cert.ReferenceIdeal.RefValue

open Cert.ReferenceIdeal Cert.ReferenceIdeal.Gen Cert.ReferenceIdeal.ReadP Idealize.ShloMosaic Idealize.ShloMosaic.ValueIdx

/-! ## The dense stages of the first layer, index by index -/

/-- `h = x · W`: the host's contraction of the feature rows with the weight matrix is the sum over the shared axis. -/
theorem v33_eq (x1 : (⟨S100000x64, .f32⟩ : BufTy).Contents (Elt Ideal)) (x2 : (⟨S50000x64, .f32⟩ : BufTy).Contents (Elt Ideal)) (x3 : (⟨S64x64, .f32⟩ : BufTy).Contents (Elt Ideal)) :
    val_main_v33 (F := Ideal) x1 x2 x3 = Cert.Spec.matProd (val_main_v32 (F := Ideal) x1 x2) x3 := by
  funext i
  rw [val_main_v33_apply]
  generalize val_main_v32 (F := Ideal) x1 x2 = y
  simp only [Cert.Spec.matProd]
  refine Finset.sum_congr rfl fun k _ => ?_
  have el : lidx_main_v33 i k = ix2 (i 0) k :=
    funext fun a => Fin.ext (by match a with | ⟨0, _⟩ => rfl | ⟨1, _⟩ => rfl)
  have er : ridx_main_v33 i k = ix2 k (i 1) :=
    funext fun a => Fin.ext (by match a with | ⟨0, _⟩ => rfl | ⟨1, _⟩ => rfl)
  rw [el, er]
  rfl

/-- `msg[e, j] = g[e, j] · norm[e]`: the per-edge weight, broadcast along the feature axis, multiplies the gathered rows. -/
theorem v43_eq (x0 : (⟨S2x2000000, .i32⟩ : BufTy).Contents (Elt Ideal)) (x1 : (⟨S100000x64, .f32⟩ : BufTy).Contents (Elt Ideal)) (x2 : (⟨S50000x64, .f32⟩ : BufTy).Contents (Elt Ideal)) (x3 : (⟨S64x64, .f32⟩ : BufTy).Contents (Elt Ideal)) :
    val_main_v43 (F := Ideal) x0 x1 x2 x3
      = Cert.Spec.scaleRows (val_main_v40 (F := Ideal) x0 x1 x2 x3) (val_main_v31 (F := Ideal) x0) := by
  funext i
  rw [val_main_v43_apply, val_main_v42_apply, val_main_v41_apply]
  have e : idx_main_v41 (idx_main_v42 i) = ix1 (i 0) :=
    funext fun a => Fin.ext (by match a with | ⟨0, _⟩ => rfl)
  rw [e]
  generalize val_main_v40 (F := Ideal) x0 x1 x2 x3 = g
  generalize val_main_v31 (F := Ideal) x0 = n
  rfl

/-- `out[n, j] = max (agg[n, j] + b[j]) 0`: the bias, broadcast along the node axis, is added and the result is cut at the
    zero literal. -/
theorem v50_eq (x0 : (⟨S2x2000000, .i32⟩ : BufTy).Contents (Elt Ideal)) (x1 : (⟨S100000x64, .f32⟩ : BufTy).Contents (Elt Ideal)) (x2 : (⟨S50000x64, .f32⟩ : BufTy).Contents (Elt Ideal)) (x3 : (⟨S64x64, .f32⟩ : BufTy).Contents (Elt Ideal)) (x4 : (⟨S64, .f32⟩ : BufTy).Contents (Elt Ideal)) :
    val_main_v50 (F := Ideal) x0 x1 x2 x3 x4 = Cert.Spec.biasRelu (val_main_v46 (F := Ideal) x0 x1 x2 x3) x4 := by
  funext i
  rw [val_main_v50_apply, val_main_v49_apply, val_main_v48_apply, val_main_v47_apply, val_main_call1_v0_apply,
    val_main_call1_cst_apply]
  have e : idx_main_v47 (idx_main_v48 i) = ix1 (i 1) :=
    funext fun a => Fin.ext (by match a with | ⟨0, _⟩ => rfl)
  rw [e]
  generalize val_main_v46 (F := Ideal) x0 x1 x2 x3 = agg
  rfl

/-! ## The dense stages of the second layer -/

/-- The second layer's `h = x · W`, over the first layer's result. -/
theorem v51_eq (x0 : (⟨S2x2000000, .i32⟩ : BufTy).Contents (Elt Ideal)) (x1 : (⟨S100000x64, .f32⟩ : BufTy).Contents (Elt Ideal)) (x2 : (⟨S50000x64, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) :
    val_main_v51 (F := Ideal) x0 x1 x2 x3 x4 x5 = Cert.Spec.matProd (val_main_v50 (F := Ideal) x0 x1 x2 x3 x4) x5 := by
  funext i
  rw [val_main_v51_apply]
  generalize val_main_v50 (F := Ideal) x0 x1 x2 x3 x4 = y
  simp only [Cert.Spec.matProd]
  refine Finset.sum_congr rfl fun k _ => ?_
  have el : lidx_main_v51 i k = ix2 (i 0) k :=
    funext fun a => Fin.ext (by match a with | ⟨0, _⟩ => rfl | ⟨1, _⟩ => rfl)
  have er : ridx_main_v51 i k = ix2 k (i 1) :=
    funext fun a => Fin.ext (by match a with | ⟨0, _⟩ => rfl | ⟨1, _⟩ => rfl)
  rw [el, er]
  rfl

/-- The second layer's `msg[e, j] = g[e, j] · norm[e]`, with the same per-edge weights. -/
theorem v61_eq (x0 : (⟨S2x2000000, .i32⟩ : BufTy).Contents (Elt Ideal)) (x1 : (⟨S100000x64, .f32⟩ : BufTy).Contents (Elt Ideal)) (x2 : (⟨S50000x64, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) :
    val_main_v61 (F := Ideal) x0 x1 x2 x3 x4 x5
      = Cert.Spec.scaleRows (val_main_v58 (F := Ideal) x0 x1 x2 x3 x4 x5) (val_main_v31 (F := Ideal) x0) := by
  funext i
  rw [val_main_v61_apply, val_main_v60_apply, val_main_v59_apply]
  have e : idx_main_v59 (idx_main_v60 i) = ix1 (i 0) :=
    funext fun a => Fin.ext (by match a with | ⟨0, _⟩ => rfl)
  rw [e]
  generalize val_main_v58 (F := Ideal) x0 x1 x2 x3 x4 x5 = g
  generalize val_main_v31 (F := Ideal) x0 = n
  rfl

/-- The second layer's `max (agg + b) 0`. -/
theorem v68_eq (x0 : (⟨S2x2000000, .i32⟩ : BufTy).Contents (Elt Ideal)) (x1 : (⟨S100000x64, .f32⟩ : BufTy).Contents (Elt Ideal)) (x2 : (⟨S50000x64, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) :
    val_main_v68 (F := Ideal) x0 x1 x2 x3 x4 x5 x6
      = Cert.Spec.biasRelu (val_main_v64 (F := Ideal) x0 x1 x2 x3 x4 x5) x6 := by
  funext i
  rw [val_main_v68_apply, val_main_v67_apply, val_main_v66_apply, val_main_v65_apply, val_main_call2_v0_apply,
    val_main_call2_cst_apply]
  have e : idx_main_v65 (idx_main_v66 i) = ix1 (i 1) :=
    funext fun a => Fin.ext (by match a with | ⟨0, _⟩ => rfl)
  rw [e]
  generalize val_main_v64 (F := Ideal) x0 x1 x2 x3 x4 x5 = agg
  rfl

/-! ## One layer as one function -/

/-- One graph-convolution layer over given gather and scatter dimension records: `max (Σ_{dst e = n} (x · W)[src e] · norm[e] + b) 0`,
    the gather of rows and the sum into nodes being the host's own operations over those records. -/
def layerOf (gd : GatherDims S150000x64 S4150000x1 S4150000x64) (sd : ScatterDims S150000x64 S4150000x1 S4150000x64)
    (idxGather idxScatter : (⟨S4150000x1, .i32⟩ : BufTy).Contents (Elt Ideal)) (nrm : (⟨S4150000, .f32⟩ : BufTy).Contents (Elt Ideal))
    (zeros x : (⟨S150000x64, .f32⟩ : BufTy).Contents (Elt Ideal)) (w : (⟨S64x64, .f32⟩ : BufTy).Contents (Elt Ideal)) (b : (⟨S64, .f32⟩ : BufTy).Contents (Elt Ideal)) :
    (⟨S150000x64, .f32⟩ : BufTy).Contents (Elt Ideal) :=
  Cert.Spec.biasRelu
    (Host.scatterAdd (F := Ideal) sd zeros idxScatter
      (Cert.Spec.scaleRows (Host.gather gd (Cert.Spec.matProd x w) idxGather) nrm)) b

/-- The layer over the reference program's own gather and scatter records. -/
abbrev layer := layerOf gather_S150000x64_S4150000x1_S4150000x64_1_0_n_n_0_1_164 scatter_S150000x64_S4150000x1_S4150000x64_1_0_0_1

/-- The first layer's result is `layer` of the joined feature rows, the first weight matrix and the first bias. -/
theorem v50_layer (x0 : (⟨S2x2000000, .i32⟩ : BufTy).Contents (Elt Ideal)) (x1 : (⟨S100000x64, .f32⟩ : BufTy).Contents (Elt Ideal)) (x2 : (⟨S50000x64, .f32⟩ : BufTy).Contents (Elt Ideal)) (x3 : (⟨S64x64, .f32⟩ : BufTy).Contents (Elt Ideal)) (x4 : (⟨S64, .f32⟩ : BufTy).Contents (Elt Ideal)) :
    val_main_v50 (F := Ideal) x0 x1 x2 x3 x4
      = layer (val_main_v39 (F := Ideal) x0) (val_main_v45 (F := Ideal) x0) (val_main_v31 (F := Ideal) x0)
          (val_main_v44 (F := Ideal)) (val_main_v32 (F := Ideal) x1 x2) x3 x4 := by
  rw [v50_eq]
  unfold val_main_v46
  rw [v43_eq]
  unfold val_main_v40
  rw [v33_eq]
  rfl

/-- The second layer's result is `layer` of the first layer's result, the second weight matrix and the second bias, over the
    same edge list and the same per-edge weights. -/
theorem v68_layer (x0 : (⟨S2x2000000, .i32⟩ : BufTy).Contents (Elt Ideal)) (x1 : (⟨S100000x64, .f32⟩ : BufTy).Contents (Elt Ideal)) (x2 : (⟨S50000x64, .f32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) :
    val_main_v68 (F := Ideal) x0 x1 x2 x3 x4 x5 x6
      = layer (val_main_v57 (F := Ideal) x0) (val_main_v63 (F := Ideal) x0) (val_main_v31 (F := Ideal) x0)
          (val_main_v62 (F := Ideal)) (val_main_v50 (F := Ideal) x0 x1 x2 x3 x4) x5 x6 := by
  rw [v68_eq]
  unfold val_main_v64
  rw [v61_eq]
  unfold val_main_v58
  rw [v51_eq]
  rfl

end Cert.ReferenceIdeal.RefValue

end
-- ==== Proof.RefResults.lean ====
/-
  The reference program's run, with its two results in the layers' normal form.

  Both layers read the same edge list: the gather indices (the source column, wrapped into range), the scatter indices (the
  destination column) and the zero array they sum into are computed twice by the program, by the same operations of the same
  argument, so the second layer's are the first's. The program's result array is therefore

      out = layer G S norm 0 (layer G S norm 0 [x_a ; x_b] W₁ b₁) W₂ b₂

  and its two results are the row ranges [0, 100000) and [100000, 150000) of `out`. The frame claim of the reference is its
  run with the results dropped.
-/
import proofs.«102996_j6725918785568_1_alg».proof.Defs
import proofs.«102996_j6725918785568_1_alg».proof.Proof.Gen.Pre_finite_inputs
import proofs.«102996_j6725918785568_1_alg».proof.Proof.RefRun
import proofs.«102996_j6725918785568_1_alg».proof.Proof.RefLayers

noncomputable section

namespace Cert.ReferenceIdeal.RefValue

open Cert.ReferenceIdeal Cert.ReferenceIdeal.Gen Cert.ReferenceIdeal.ReadP Idealize.ShloMosaic Idealize.ShloMosaic.TcCoe
  Idealize.SL.Sem Idealize.ShloMosaic.ValueIdx

/-! ## The second layer reads the first layer's edge list -/

/-- The second layer's gather indices are the first layer's: the same wrap of the same source column. -/
theorem v57_eq_v39 (x0 : (⟨S2x2000000, .i32⟩ : BufTy).Contents (Elt Ideal)) : val_main_v57 (F := Ideal) x0 = val_main_v39 (F := Ideal) x0 := by
  unfold val_main_v57 val_main_v56 val_main_v55 val_main_v54 val_main_v53 val_main_v52 val_main_c_11 val_main_c_10
    val_main_v39 val_main_v38 val_main_v37 val_main_v36 val_main_v35 val_main_v34 val_main_c_8 val_main_c_7
  rfl

/-- The second layer's scatter indices are the first layer's: the same broadcast of the same destination column. -/
theorem v63_eq_v45 (x0 : (⟨S2x2000000, .i32⟩ : BufTy).Contents (Elt Ideal)) : val_main_v63 (F := Ideal) x0 = val_main_v45 (F := Ideal) x0 := by
  unfold val_main_v63 val_main_v45
  rfl

/-- Both layers sum into the same array of zeros. -/
theorem v62_eq_v44 : val_main_v62 (F := Ideal) = val_main_v44 (F := Ideal) := by
  unfold val_main_v62 val_main_v44 val_main_cst_12 val_main_cst_9
  rfl

/-! ## The result array, and its two row ranges -/

/-- The two layers composed: the second over the first's result, both over one edge list `(G, S, norm)` and one zero array. -/
def twoLayers (G S : (⟨S4150000x1, .i32⟩ : BufTy).Contents (Elt Ideal)) (nrm : (⟨S4150000, .f32⟩ : BufTy).Contents (Elt Ideal))
    (zeros x : (⟨S150000x64, .f32⟩ : BufTy).Contents (Elt Ideal)) (w1 : (⟨S64x64, .f32⟩ : BufTy).Contents (Elt Ideal)) (b1 : (⟨S64, .f32⟩ : BufTy).Contents (Elt Ideal))
    (w2 : (⟨S64x64, .f32⟩ : BufTy).Contents (Elt Ideal)) (b2 : (⟨S64, .f32⟩ : BufTy).Contents (Elt Ideal)) : (⟨S150000x64, .f32⟩ : BufTy).Contents (Elt Ideal) :=
  layer G S nrm zeros (layer G S nrm zeros x w1 b1) w2 b2

/-- The reference's result array, as a function of the seven argument arrays. -/
def refOut (x0 : (⟨S2x2000000, .i32⟩ : BufTy).Contents (Elt Ideal)) (x1 : (⟨S100000x64, .f32⟩ : BufTy).Contents (Elt Ideal)) (x2 : (⟨S50000x64, .f32⟩ : BufTy).Contents (Elt Ideal)) (x3 : (⟨S64x64, .f32⟩ : BufTy).Contents (Elt Ideal))
    (x4 : (⟨S64, .f32⟩ : BufTy).Contents (Elt Ideal)) (x5 : (⟨S64x64, .f32⟩ : BufTy).Contents (Elt Ideal)) (x6 : (⟨S64, .f32⟩ : BufTy).Contents (Elt Ideal)) : (⟨S150000x64, .f32⟩ : BufTy).Contents (Elt Ideal) :=
  twoLayers (val_main_v39 (F := Ideal) x0) (val_main_v45 (F := Ideal) x0) (val_main_v31 (F := Ideal) x0)
    (val_main_v44 (F := Ideal)) (val_main_v32 (F := Ideal) x1 x2) x3 x4 x5 x6

/-- The last stage before the two slices is `refOut`. -/
theorem v68_refOut (x0 : (⟨S2x2000000, .i32⟩ : BufTy).Contents (Elt Ideal)) (x1 : (⟨S100000x64, .f32⟩ : BufTy).Contents (Elt Ideal)) (x2 : (⟨S50000x64, .f32⟩ : BufTy).Contents (Elt Ideal)) (x3 : (⟨S64x64, .f32⟩ : BufTy).Contents (Elt Ideal))
    (x4 : (⟨S64, .f32⟩ : BufTy).Contents (Elt Ideal)) (x5 : (⟨S64x64, .f32⟩ : BufTy).Contents (Elt Ideal)) (x6 : (⟨S64, .f32⟩ : BufTy).Contents (Elt Ideal)) :
    val_main_v68 (F := Ideal) x0 x1 x2 x3 x4 x5 x6 = refOut x0 x1 x2 x3 x4 x5 x6 := by
  rw [v68_layer, v50_layer, v57_eq_v39, v63_eq_v45, v62_eq_v44]
  rfl

/-- The first result: rows [0, 100000) of `refOut`. -/
theorem v69_refOut (x0 : (⟨S2x2000000, .i32⟩ : BufTy).Contents (Elt Ideal)) (x1 : (⟨S100000x64, .f32⟩ : BufTy).Contents (Elt Ideal)) (x2 : (⟨S50000x64, .f32⟩ : BufTy).Contents (Elt Ideal)) (x3 : (⟨S64x64, .f32⟩ : BufTy).Contents (Elt Ideal))
    (x4 : (⟨S64, .f32⟩ : BufTy).Contents (Elt Ideal)) (x5 : (⟨S64x64, .f32⟩ : BufTy).Contents (Elt Ideal)) (x6 : (⟨S64, .f32⟩ : BufTy).Contents (Elt Ideal)) :
    val_main_v69 (F := Ideal) x0 x1 x2 x3 x4 x5 x6
      = extractStridedSlice S100000x64 ![0, 0] (refOut x0 x1 x2 x3 x4 x5 x6) slices_S150000x64_S100000x64_0_0 := by
  unfold val_main_v69
  rw [v68_refOut]

/-- The second result: rows [100000, 150000) of `refOut`. -/
theorem v70_refOut (x0 : (⟨S2x2000000, .i32⟩ : BufTy).Contents (Elt Ideal)) (x1 : (⟨S100000x64, .f32⟩ : BufTy).Contents (Elt Ideal)) (x2 : (⟨S50000x64, .f32⟩ : BufTy).Contents (Elt Ideal)) (x3 : (⟨S64x64, .f32⟩ : BufTy).Contents (Elt Ideal))
    (x4 : (⟨S64, .f32⟩ : BufTy).Contents (Elt Ideal)) (x5 : (⟨S64x64, .f32⟩ : BufTy).Contents (Elt Ideal)) (x6 : (⟨S64, .f32⟩ : BufTy).Contents (Elt Ideal)) :
    val_main_v70 (F := Ideal) x0 x1 x2 x3 x4 x5 x6
      = extractStridedSlice S50000x64 ![100000, 0] (refOut x0 x1 x2 x3 x4 x5 x6) slices_S150000x64_S50000x64_100000_0 := by
  unfold val_main_v70
  rw [v68_refOut]

/-! ## The run and the frame -/

/-- The reference's run: every weakly fair execution terminates with the two results at the two row ranges of `refOut` of the
    argument arrays, the two passed-through arguments and all seven arguments unchanged. -/
theorem ref_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v69)
        = extractStridedSlice S100000x64 ![0, 0]
            (refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
            slices_S150000x64_S100000x64_0_0
      ∧ r.2.mem ((c.tc : Thread nD τ).loc main_arg1) = m ((c.tc : Thread nD τ).loc main_arg1)
      ∧ r.2.mem ((c.tc : Thread nD τ).loc main_v70)
        = extractStridedSlice S50000x64 ![100000, 0]
            (refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
            slices_S150000x64_S50000x64_100000_0
      ∧ r.2.mem ((c.tc : Thread nD τ).loc main_arg2) = m ((c.tc : Thread nD τ).loc main_arg2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono
    (fun _ h c => ⟨(h c).1.trans (v69_refOut _ _ _ _ _ _ _), (h c).2.1, (h c).2.2.1.trans (v70_refOut _ _ _ _ _ _ _), (h c).2.2.2⟩)
    (Cert.ReferenceIdeal.ValueP.run (F := Ideal) m ρ)

/-- The reference runs, and its seven argument arrays end unchanged: its run with the four results dropped. -/
theorem frame_ri : Cert.frame_ReferenceIdeal := fun m ρ _ =>
  (θ_run Cert.ReferenceIdeal.defs _ _).mono (fun _ h c => (h c).2.2.2.2) (Cert.ReferenceIdeal.ValueP.run (F := Ideal) m ρ)

end Cert.ReferenceIdeal.RefValue

end
-- ==== Proof.LibNaryKeep.lean ====
/-
  A host operation over a literal family of two or of three operand references, read at a buffer OTHER than its result:
  what was there. The statement of the library's `nary_result_ne` with the family spelt out, beside the result forms of
  LibNaryResult: together they let a line of host operations be read by rewriting one operation at a time THROUGH a
  concatenation of two or three arrays, each operand at its own literal reference.
-/
import Idealize.ShloMosaic.Lib.StableHlo.Run

noncomputable section

namespace Idealize.ShloMosaic.StableHlo

variable {τ : Topo} {sig : RefSig} {Val : EltTy → Type}
variable {x a b y : Ref sig .tc}

theorem nary3_result_ne
    (f : ((k : Fin 3) → ((![x, a, b] : Fin 3 → Ref sig .tc) k).ty.Contents Val) → y.ty.Contents Val) (hxs hy)
    (F : Valuation τ sig Val) {r : Ref sig .tc} (h : r ≠ y) :
    (nary (τ := τ) ![x, a, b] y f hxs hy).result F (Proc.devRef .tc r) = F (Proc.devRef .tc r) :=
  nary_result_ne (xs := ![x, a, b]) (f := f) (hxs := hxs) (hy := hy) (F := F) (h := h)

theorem nary3_result_ne'
    (f : ((k : Fin 3) → ((![x, a, b] : Fin 3 → Ref sig .tc) k).ty.Contents Val) → y.ty.Contents Val) (hxs hy)
    (F : Valuation τ sig Val) {r : Ref sig .tc} (h : r ≠ y) :
    (nary (τ := τ) ![x, a, b] y f hxs hy).result F (no_index (Proc.devRef .tc r)) = F (Proc.devRef .tc r) :=
  nary3_result_ne f hxs hy F h

theorem nary2_result_ne
    (f : ((k : Fin 2) → ((![x, a] : Fin 2 → Ref sig .tc) k).ty.Contents Val) → y.ty.Contents Val) (hxs hy)
    (F : Valuation τ sig Val) {r : Ref sig .tc} (h : r ≠ y) :
    (nary (τ := τ) ![x, a] y f hxs hy).result F (Proc.devRef .tc r) = F (Proc.devRef .tc r) :=
  nary_result_ne (xs := ![x, a]) (f := f) (hxs := hxs) (hy := hy) (F := F) (h := h)

theorem nary2_result_ne'
    (f : ((k : Fin 2) → ((![x, a] : Fin 2 → Ref sig .tc) k).ty.Contents Val) → y.ty.Contents Val) (hxs hy)
    (F : Valuation τ sig Val) {r : Ref sig .tc} (h : r ≠ y) :
    (nary (τ := τ) ![x, a] y f hxs hy).result F (no_index (Proc.devRef .tc r)) = F (Proc.devRef .tc r) :=
  nary2_result_ne f hxs hy F h

end Idealize.ShloMosaic.StableHlo

end
-- ==== Proof.IdealChainA.lean ====
/-
  The idealized kernel program's host stages before its first region, read off the fold at the launch memory and
  identified with the reference's stages of the same argument arrays: the two edge-index lists (sources then targets
  then self loops, and targets then sources then self loops) and the node features `users ++ items`. Both programs apply the same host operations to the same arrays here, so each equation is
  the operations' composed term on both sides.
-/
import proofs.«102996_j6725918785568_1_alg».proof.Proof.IdealFold
import proofs.«102996_j6725918785568_1_alg».proof.Proof.IdealKept
import proofs.«102996_j6725918785568_1_alg».proof.Proof.LibNaryResult
import proofs.«102996_j6725918785568_1_alg».proof.Proof.LibNaryKeep
import proofs.«102996_j6725918785568_1_alg».proof.Proof.RefRead

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.StableHlo
open Idealize.SL Idealize.SL.Sem

/-- One pass over a line of host operations: each operation's result at its own buffer is its function of its
    operands' contents, and at any other buffer what was there. -/
macro "host_results" : tactic =>
  `(tactic| simp (disch := decide) only [after_cons, after_nil,
      nullary_result', unary_result', binary_result', ternary_result', quaternary_result', reshape_result', nary3_result', nary2_result',
      unaryIndexed_result', binaryIndexed_result',
      nullary_result_ne', unary_result_ne', binary_result_ne', ternary_result_ne', quaternary_result_ne', reshape_result_ne',
      nary3_result_ne', nary2_result_ne', nary_result_ne', unaryIndexed_result_ne', binaryIndexed_result_ne'])

/-! The two programs name their gather and scatter dimension records separately; each pair is one record. -/

theorem rec_scatter1 : scatter_S150000_S4150000x1_S4150000_n_0_0_1 = Cert.ReferenceIdeal.scatter_S150000_S4150000x1_S4150000_n_0_0_1 := rfl
theorem rec_gather1 : gather_S150000_S4150000x1_S4150000_n_0_n_n_0_1_1 = Cert.ReferenceIdeal.gather_S150000_S4150000x1_S4150000_n_0_n_n_0_1_1 := rfl
theorem rec_gather2 : gather_S150000x64_S4150000x1_S4150000x64_1_0_n_n_0_1_164 = Cert.ReferenceIdeal.gather_S150000x64_S4150000x1_S4150000x64_1_0_n_n_0_1_164 := rfl
theorem rec_scatter2 : scatter_S150000x64_S4150000x1_S4150000x64_1_0_0_1 = Cert.ReferenceIdeal.scatter_S150000x64_S4150000x1_S4150000x64_1_0_0_1 := rfl

/-- The same pass by rewriting one operation at a time: it also goes under a three-array concatenation, whose
    operand slots are typed through the operand family's own entries and are closed to the one-pass form. -/
macro "host_results_rw" : tactic =>
  `(tactic| (simp only [after_cons, after_nil]
             repeat (first
               | rw [nullary_result] | rw [unary_result] | rw [binary_result] | rw [ternary_result] | rw [quaternary_result]
               | rw [reshape_result] | rw [binaryIndexed_result] | rw [nary3_result] | rw [nary2_result] | rw [unaryIndexed_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)
               | (rw [binaryIndexed_result_ne]; rotate_left; decide)
               | (rw [nary3_result_ne]; rotate_left; decide)
               | (rw [nary2_result_ne]; rotate_left; decide)
               | (rw [unaryIndexed_result_ne]; rotate_left; decide))))

variable (m : (ℓ : Loc nD τ sig) → Buf (Elt Ideal) ℓ) (c : Dev nD)

/-- The seven argument arrays on core `c` at launch. -/
abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)

/-- The gather's edge list: sources, then targets shifted past the users, then one self loop per node. -/
theorem stage_v7 : W1 m c (Proc.devRef .tc main_v7) = Cert.ReferenceIdeal.ReadP.val_main_v7 (F := Ideal) (a0 m c) := by
  show StableHlo.after hostOps0 (W0 m c) (Proc.devRef .tc main_v7) = _
  host_results
  rfl

/-- The scatter's edge list: the same with sources and targets exchanged. -/
theorem stage_v8 : W1 m c (Proc.devRef .tc main_v8) = Cert.ReferenceIdeal.ReadP.val_main_v8 (F := Ideal) (a0 m c) := by
  show StableHlo.after hostOps0 (W0 m c) (Proc.devRef .tc main_v8) = _
  host_results
  rfl

/-- The node features: the users' rows, then the items'. -/
theorem stage_v34 : W5 m c (Proc.devRef .tc main_v34) = Cert.ReferenceIdeal.ReadP.val_main_v32 (F := Ideal) (a1 m c) (a2 m c) := by
  show StableHlo.after hostOps0_4 (W4 m c) (Proc.devRef .tc main_v34) = _
  host_results
  rfl

end Cert.KernelIdeal.HandValue

end
-- ==== Proof.IdealChainDefs.lean ====
/-
  The two facts the layers of the idealized kernel program are stated under, as propositions over the launch memory and a
  core: that the first layer's result is the reference's first-layer stage of the argument arrays, and that the padded
  column of per-edge weights — computed once, before the first region, and read by both layers' row scalings — is the
  reference's per-edge weights `norm[e]` as a column [4150000, 1], padded to 4153344 rows with some scalar.
-/
import proofs.«102996_j6725918785568_1_alg».proof.Proof.IdealChainA

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.StableHlo
open Idealize.SL Idealize.SL.Sem

variable (m : (ℓ : Loc nD τ sig) → Buf (Elt Ideal) ℓ) (c : Dev nD)

/-- The first layer's result, where the second layer's matrix product reads it, is the reference's stage. -/
abbrev FirstLayer : Prop :=
  Wout2 m c (Proc.devRef .tc main_v50)
    = Cert.ReferenceIdeal.ReadP.val_main_v50 (F := Ideal) (a0 m c) (a1 m c) (a2 m c) (a3 m c) (a4 m c)

/-- The padded column of per-edge weights is the reference's weights as a column, padded with some scalar. -/
abbrev WeightColumn : Prop :=
  ∃ v, W4 m c (Proc.devRef .tc main_v33)
    = pad S4153344x1 ![0, 0] ![3344, 0] ![0, 0]
        (shapeCast S4150000x1 (Cert.ReferenceIdeal.ReadP.val_main_v31 (F := Ideal) (a0 m c)) shapeCasts_S4150000_S4150000x1) v
        pads_S4150000x1_S4153344x1_033440_000 h_S_

end Cert.KernelIdeal.HandValue

end
-- ==== Proof.IdealPersist.lean ====
/-
  Reading a buffer back to an earlier boundary, through the items that do not write it: a host stretch leaves every buffer
  it does not write, a region every buffer but its result's array. Used for the two edge-index lists and the padded
  column of per-edge weights, which are computed once before the first region and read again in both layers, and for
  the argument arrays a later item reads.
-/
import proofs.«102996_j6725918785568_1_alg».proof.Proof.IdealKept

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (c : Dev nD) (r : Ref sig .tc)

/-! ## One stretch of boundaries at a time -/

theorem W5_eq_W1 (h1 : r ∉ hostOps0_1_W) (h2 : r ∉ hostOps0_2_W) (h3 : r ∉ hostOps0_3_W) (h4 : r ∉ hostOps0_4_W) :
    W5 m c (Proc.devRef .tc r) = W1 m c (Proc.devRef .tc r) :=
  (StableHlo.after_of_writes_sub hostOps0_4 _ hostOps0_4_writes h4).trans <|
  (StableHlo.after_of_writes_sub hostOps0_3 _ hostOps0_3_writes h3).trans <|
  (StableHlo.after_of_writes_sub hostOps0_2 _ hostOps0_2_writes h2).trans <|
  StableHlo.after_of_writes_sub hostOps0_1 _ hostOps0_1_writes h1

theorem W5_eq_launch (h0 : r ∉ hostOps0_W) (h1 : r ∉ hostOps0_1_W) (h2 : r ∉ hostOps0_2_W) (h3 : r ∉ hostOps0_3_W) (h4 : r ∉ hostOps0_4_W) :
    W5 m c (Proc.devRef .tc r) = m ((c : Thread nD τ).loc r) :=
  (W5_eq_W1 m c r h1 h2 h3 h4).trans (StableHlo.after_of_writes_sub hostOps0 _ hostOps0_writes h0)

theorem W8_eq_Wout0 (h1 : r ∉ hostOps1_W) (h1_1 : r ∉ hostOps1_1_W) : W8 m c (Proc.devRef .tc r) = Wout0 m c (Proc.devRef .tc r) :=
  (StableHlo.after_of_writes_sub hostOps1_1 _ hostOps1_1_writes h1_1).trans (StableHlo.after_of_writes_sub hostOps1 _ hostOps1_writes h1)

theorem W10_eq_Wout1 (h2 : r ∉ hostOps2_W) : W10 m c (Proc.devRef .tc r) = Wout1 m c (Proc.devRef .tc r) :=
  StableHlo.after_of_writes_sub hostOps2 _ hostOps2_writes h2

theorem W14_eq_Wout3 (h4 : r ∉ hostOps4_W) (h4_1 : r ∉ hostOps4_1_W) : W14 m c (Proc.devRef .tc r) = Wout3 m c (Proc.devRef .tc r) :=
  (StableHlo.after_of_writes_sub hostOps4_1 _ hostOps4_1_writes h4_1).trans (StableHlo.after_of_writes_sub hostOps4 _ hostOps4_writes h4)

theorem W16_eq_Wout4 (h5 : r ∉ hostOps5_W) : W16 m c (Proc.devRef .tc r) = Wout4 m c (Proc.devRef .tc r) :=
  StableHlo.after_of_writes_sub hostOps5 _ hostOps5_writes h5

/-- From the first layer's row scaling back to the first region's entry. -/
theorem Wout1_eq_W5 (n0 : r ≠ main_v35) (h1 : r ∉ hostOps1_W) (h1_1 : r ∉ hostOps1_1_W) (n1 : r ≠ main_v44) :
    Wout1 m c (Proc.devRef .tc r) = W5 m c (Proc.devRef .tc r) :=
  (Wout1_kept m c r n1).trans <| (W8_eq_Wout0 m c r h1 h1_1).trans (Wout0_kept m c r n0)

/-- From the second layer's matrix product back to the first layer's row scaling. -/
theorem Wout3_eq_Wout1 (h2 : r ∉ hostOps2_W) (n2 : r ≠ main_v50) (n3 : r ≠ main_v51) :
    Wout3 m c (Proc.devRef .tc r) = Wout1 m c (Proc.devRef .tc r) :=
  (Wout3_kept m c r n3).trans <| (Wout2_kept m c r n2).trans (W10_eq_Wout1 m c r h2)

/-- From the second layer's row scaling back to its matrix product. -/
theorem Wout4_eq_Wout3 (h4 : r ∉ hostOps4_W) (h4_1 : r ∉ hostOps4_1_W) (n4 : r ≠ main_v60) :
    Wout4 m c (Proc.devRef .tc r) = Wout3 m c (Proc.devRef .tc r) :=
  (Wout4_kept m c r n4).trans (W14_eq_Wout3 m c r h4 h4_1)

/-! ## The buffers both layers read again -/

omit r in
/-- The gather's edge list, where the first layer's gather reads it. -/
theorem v7_at_Wout0 : Wout0 m c (Proc.devRef .tc main_v7) = W1 m c (Proc.devRef .tc main_v7) :=
  (Wout0_kept m c main_v7 (by decide)).trans (W5_eq_W1 m c main_v7 (by decide) (by decide) (by decide) (by decide))

omit r in
/-- The gather's edge list, where the second layer's gather reads it. -/
theorem v7_at_Wout3 : Wout3 m c (Proc.devRef .tc main_v7) = W1 m c (Proc.devRef .tc main_v7) :=
  (Wout3_eq_Wout1 m c main_v7 (by decide) (by decide) (by decide)).trans <| (Wout1_eq_W5 m c main_v7 (by decide) (by decide) (by decide) (by decide)).trans (W5_eq_W1 m c main_v7 (by decide) (by decide) (by decide) (by decide))

omit r in
/-- The scatter's edge list, where the first layer's sum into nodes reads it. -/
theorem v8_at_Wout1 : Wout1 m c (Proc.devRef .tc main_v8) = W1 m c (Proc.devRef .tc main_v8) :=
  (Wout1_eq_W5 m c main_v8 (by decide) (by decide) (by decide) (by decide)).trans (W5_eq_W1 m c main_v8 (by decide) (by decide) (by decide) (by decide))

omit r in
/-- The scatter's edge list, where the second layer's sum into nodes reads it. -/
theorem v8_at_Wout4 : Wout4 m c (Proc.devRef .tc main_v8) = W1 m c (Proc.devRef .tc main_v8) :=
  (Wout4_eq_Wout3 m c main_v8 (by decide) (by decide) (by decide)).trans <| (Wout3_eq_Wout1 m c main_v8 (by decide) (by decide) (by decide)).trans (v8_at_Wout1 m c)

omit r in
/-- The padded column of per-edge weights, where the first layer's row scaling reads it. -/
theorem v33_at_W8 : W8 m c (Proc.devRef .tc main_v33) = W4 m c (Proc.devRef .tc main_v33) :=
  (W8_eq_Wout0 m c main_v33 (by decide) (by decide)).trans <| (Wout0_kept m c main_v33 (by decide)).trans
    (StableHlo.after_of_writes_sub hostOps0_4 _ hostOps0_4_writes (by decide))

omit r in
/-- The padded column of per-edge weights, where the second layer's row scaling reads it. -/
theorem v33_at_W14 : W14 m c (Proc.devRef .tc main_v33) = W4 m c (Proc.devRef .tc main_v33) :=
  (W14_eq_Wout3 m c main_v33 (by decide) (by decide)).trans <| (Wout3_eq_Wout1 m c main_v33 (by decide) (by decide) (by decide)).trans <|
    (Wout1_kept m c main_v33 (by decide)).trans (v33_at_W8 m c)

/-! ## The argument arrays later items read -/

omit r in
theorem arg3_at_W5 : W5 m c (Proc.devRef .tc main_arg3) = m ((c : Thread nD τ).loc main_arg3) :=
  W5_eq_launch m c main_arg3 (by decide) (by decide) (by decide) (by decide) (by decide)

omit r in
theorem arg4_at_Wout1 : Wout1 m c (Proc.devRef .tc main_arg4) = m ((c : Thread nD τ).loc main_arg4) :=
  (Wout1_eq_W5 m c main_arg4 (by decide) (by decide) (by decide) (by decide)).trans (W5_eq_launch m c main_arg4 (by decide) (by decide) (by decide) (by decide) (by decide))

omit r in
theorem arg5_at_Wout2 : Wout2 m c (Proc.devRef .tc main_arg5) = m ((c : Thread nD τ).loc main_arg5) :=
  (Wout2_kept m c main_arg5 (by decide)).trans <| (W10_eq_Wout1 m c main_arg5 (by decide)).trans <|
    (Wout1_eq_W5 m c main_arg5 (by decide) (by decide) (by decide) (by decide)).trans (W5_eq_launch m c main_arg5 (by decide) (by decide) (by decide) (by decide) (by decide))

omit r in
theorem arg6_at_Wout4 : Wout4 m c (Proc.devRef .tc main_arg6) = m ((c : Thread nD τ).loc main_arg6) :=
  (Wout4_eq_Wout3 m c main_arg6 (by decide) (by decide) (by decide)).trans <| (Wout3_eq_Wout1 m c main_arg6 (by decide) (by decide) (by decide)).trans <|
    (Wout1_eq_W5 m c main_arg6 (by decide) (by decide) (by decide) (by decide)).trans (W5_eq_launch m c main_arg6 (by decide) (by decide) (by decide) (by decide) (by decide))

end Cert.KernelIdeal.Hand

end
-- ==== Proof.SpecBlocks.lean ====
/-
  The same two pieces as the kernels meet them: the row scaling with the per-edge weights as a COLUMN [4153344, 1] beside
  rows padded to 4153344 = 338 · 12288 (the edge list padded with zero rows and zero weights up to a whole number of
  blocks), and the bias-and-clamp with the bias as a ROW [1, 64].
-/
import proofs.«102996_j6725918785568_1_alg».proof.Proof.Spec

noncomputable section

namespace Cert.Spec

open Idealize.ShloMosaic Idealize.ShloMosaic.ValueIdx

abbrev SEdgesPad : Shape := ⟨2, ![4153344, 64]⟩
abbrev SEdgeColPad : Shape := ⟨2, ![4153344, 1]⟩
abbrev SBiasRow : Shape := ⟨2, ![1, 64]⟩

/-- `msg[e, j] = g[e, j] · col[e, 0]` over the padded edge axis. -/
def scaleByCol (g : SEdgesPad.Idx → Ideal .f32) (col : SEdgeColPad.Idx → Ideal .f32) : SEdgesPad.Idx → Ideal .f32 :=
  fun i => g i * col (ix2 (i 0) (0 : Fin 1))

/-- `max (agg[n, j] + row[0, j]) 0`. -/
def biasReluRow (agg : SNodes.Idx → Ideal .f32) (row : SBiasRow.Idx → Ideal .f32) : SNodes.Idx → Ideal .f32 :=
  fun i => max (agg i + row (ix2 (0 : Fin 1) (i 1))) (Ideal.ofBits .f32 0x00000000#32)

end Cert.Spec

end
-- ==== Proof.IdealValue0.lean ====
/-
  Region 0 of @main, read as a value: after the region the [150000, 64] result array is the matrix product
  `(x · W)[n, j] = Σ_k x[n, k] · W[k, j]` of the [150000, 64] operand `x` and the [64, 64] operand `W` as the region found
  them. Each of the 15 grid points writes back the block of 10000 rows whose number it is, the product of the same 10000
  rows of `x` with the whole of `W` (on the extended reals the change of float format before the product is the identity
  and the product is accumulated into zeros); the 15 blocks tile the 150000 rows, so the array ends as that product everywhere.
-/
import proofs.«102996_j6725918785568_1_alg».proof.Proof.IdealRegion0
import proofs.«102996_j6725918785568_1_alg».proof.Proof.SpecBlocks
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-block rectangle. -/
theorem zeroOff0 : (![0, 0] : Fin 2 → Nat) = fun _ => 0 := funext fun a => by fin_cases a <;> rfl

/-- The product's left factor sits in the result's row, -/
theorem lhsRow0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl

/-- and its right factor in the result's column. -/
theorem rhsCol0 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The body's arithmetic at row `p`, column `q` of a block: the sum over `k` of the block's row `p` times the weight
    matrix's column `q`. -/
theorem matProd0_entry (x0 : Vec Ideal S10000x64 .f32) (x1 : Vec Ideal S64x64 .f32) (p : Fin 10000) (q : Fin 64) :
    k0_pay1 (F := Ideal) x0 x1 (ix2 p q) = ∑ k : Fin 64, x0 (ix2 p k) * x1 (ix2 k q) := by
  unfold k0_pay1
  rw [shapeCast_self]
  refine (Ideal.matmul_constant_zero_apply dot_S10000x64_S64x64_S10000x64_1_0_0_1_n_n none _ _ (ix2 p q)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhsRow0 _ _
    | ⟨1, _⟩ => exact (dot_S10000x64_S64x64_S10000x64_1_0_0_1_n_n.lhsIdx_val_of_single rfl _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (dot_S10000x64_S64x64_S10000x64_1_0_0_1_n_n.rhsIdx_val_of_single rfl _ _).trans hk
    | ⟨1, _⟩ => exact rhsCol0 _ _)
  rw [el, er]
  rfl

/-- The same at an index `j` of the block whose row and column are `p` and `q`. -/
theorem matProd0_at (x0 : Vec Ideal S10000x64 .f32) (x1 : Vec Ideal S64x64 .f32) (j : S10000x64.Idx) (p : Fin 10000) (q : Fin 64)
    (hp : p.val = (j 0).val) (hq : q.val = (j 1).val) :
    k0_pay1 (F := Ideal) x0 x1 j = ∑ k : Fin 64, x0 (ix2 p k) * x1 (ix2 k q) := by
  obtain ⟨p', q', rfl⟩ : ∃ (p' : Fin 10000) (q' : Fin 64), j = ix2 p' q' := ⟨j 0, j 1, eq_ix2 j⟩
  obtain rfl : p = p' := Fin.ext hp
  obtain rfl : q = q' := Fin.ext hq
  exact matProd0_entry x0 x1 p q

/-- Where the blocks sit: at grid point `t` the left operand's block and the result's block are both block number `t`
    of their arrays' rows (and the only block of columns), and the weight matrix's block is always its only block. -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the matrix product of the two operand arrays as the region finds them. -/
theorem written0_eq (c : Dev nD) (t : Fin cfg0.N) :
    (dat0 (F := Ideal) V c).flushed 2 t
      = ((cfg0.win 2).blk t).view.read (Elt Ideal) (Cert.Spec.matProd (V c main_v34) (V c main_arg3)) := by
  show (cfg0.win 2).cut (grid0.coords t) ((dat0 V c).after 2 t) = _
  rw [after0_2]
  unfold out0_2
  rw [View.canon_unit_zero zeroOff0]
  simp only [View.ld_unit_zero (S := S10000x64) zeroOff0, View.ld_unit_zero (S := S64x64) zeroOff0]
  obtain ⟨e0, e1, e2, e3, e4, e5⟩ := blockIdx0 t
  funext j
  have hj0 : (j 0).val < 10000 := (j 0).isLt
  have hj1 : (j 1).val < 64 := (j 1).isLt
  refine (matProd0_at (iblk0 V c 0 t) (iblk0 V c 1 t) ((cfg0.win 2).xinj (grid0.coords t) j) ⟨(j 0).val, hj0⟩ ⟨(j 1).val, hj1⟩ rfl rfl).trans ?_
  have h0 : ∀ k : Fin 64, ((cfg0.win 0).blk t).view.emb (ix2 (⟨(j 0).val, hj0⟩ : Fin 10000) k)
      = ix2 ((((cfg0.win 2).blk t).view.emb j) 0) k := by
    intro k; funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 64 + 1 * k.val = k.val; omega
  have h1 : ∀ k : Fin 64, ((cfg0.win 1).blk t).view.emb (ix2 k (⟨(j 1).val, hj1⟩ : Fin 64))
      = ix2 k ((((cfg0.win 2).blk t).view.emb j) 1) := by
    intro k; funext a; apply Fin.ext
    match a with
    | ⟨0, _⟩ => show win0_1.index t (0 : Fin 2) * 64 + 1 * k.val = k.val; omega
    | ⟨1, _⟩ => show win0_1.index t (1 : Fin 2) * 64 + 1 * (j 1).val = win0_2.index t (1 : Fin 2) * 64 + 1 * (j 1).val; omega
  have key : ∀ (A : S150000x64.Idx → Ideal .f32) (B : S64x64.Idx → Ideal .f32),
      (∑ k : Fin 64, A (((cfg0.win 0).blk t).view.emb (ix2 (⟨(j 0).val, hj0⟩ : Fin 10000) k))
          * B (((cfg0.win 1).blk t).view.emb (ix2 k (⟨(j 1).val, hj1⟩ : Fin 64))))
        = ∑ k : Fin 64, A (ix2 ((((cfg0.win 2).blk t).view.emb j) 0) k) * B (ix2 k ((((cfg0.win 2).blk t).view.emb j) 1)) := by
    intro A B; exact Finset.sum_congr rfl fun k _ => by rw [h0 k, h1 k]; rfl
  exact key (V c main_v34) (V c main_arg3)

/-- An index of the result array is in point `t`'s block iff each coordinate is in the block's range on its axis. -/
theorem mem_block0 (t : Fin cfg0.N) (i : S150000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v35).slice (win0_2.rect t)).set ↔ _
  rw [View.set_slice_whole, Rect.mem_set_unit]
  exact Iff.rfl

/-- The 15 blocks of 10000 rows tile the 150000 rows: row `r` is in block `r / 10000`. -/
theorem tiled0 (i : S150000x64.Idx) :
    ∃ t : Fin cfg0.N, (cfg0.win 2).flush t = true ∧ i ∈ ((cfg0.win 2).blk t).view.set := by
  have hi0 : (i 0).val < 150000 := (i 0).isLt
  have hi1 : (i 1).val < 64 := (i 1).isLt
  obtain ⟨t, ht⟩ : ∃ t : Fin cfg0.N, t.val = (i 0).val / 10000 :=
    ⟨⟨(i 0).val / 10000, by show _ < grid0.N; rw [N_0]; omega⟩, rfl⟩
  obtain ⟨e0, e1, e2, e3, e4, e5⟩ := blockIdx0 t
  refine ⟨t, flush0_2 t, ?_⟩
  rw [mem_block0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- THE RESULT ARRAY after the region: the matrix product of the two operand arrays, everywhere. -/
theorem final0 (c : Dev nD) :
    (dat0 (F := Ideal) V c).arrAt 2 cfg0.N = Cert.Spec.matProd (V c main_v34) (V c main_arg3) :=
  (dat0 V c).arrAt_eq_of_cover 2 _ (fun t _ => written0_eq V c t) (tiled0)

end Cert.KernelIdeal.HandValue

end
-- ==== Proof.ColumnBroadcast.lean ====
/-
  A column broadcast across the columns, read at an entry: a [a, 1] array broadcast to [a, b] has, at (p, c), the
  column's entry in row p.
-/
import Idealize.ShloMosaic.Lib.ValueLayout

namespace Cert.Spec

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Spec
-- ==== Proof.IdealValue1.lean ====
/-
  Region 1 of @main, read as a value: after the region the [4153344, 64] result array is, entry by entry,
  `g[e, j] · col[e, 0]` of the [4153344, 64] operand `g` and the one-column operand `col` as the region found them.
  Each of the 338 grid points writes back the block of 12288 rows whose number it is, computed from the same 12288 rows
  of `g` and of `col`; the 338 blocks tile the 4153344 rows, so the array ends as that one function everywhere.
-/
import proofs.«102996_j6725918785568_1_alg».proof.Proof.IdealRegion1
import proofs.«102996_j6725918785568_1_alg».proof.Proof.SpecBlocks
import Idealize.ShloMosaic.Lib.Pipeline.Value
import Idealize.ShloMosaic.Lib.ValueLayout
import Idealize.ShloMosaic.Lib.ValueIdx
import proofs.«102996_j6725918785568_1_alg».proof.Proof.ColumnBroadcast

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-block rectangle. -/
theorem zeroOff1 : (![0, 0] : Fin 2 → Nat) = fun _ => 0 := funext fun a => by fin_cases a <;> rfl

/-- The body's arithmetic at row `p`, column `q` of a block: the block's entry times the column's entry in that row.
    The column is broadcast across the block's 64 columns, so every column of the block sees it. -/
theorem scale1_entry (x0 : Vec Ideal S12288x64 .f32) (x1 : Vec Ideal S12288x1 .f32) (p : Fin 12288) (q : Fin 64) :
    k1_pay1 (F := Ideal) x0 x1 (ix2 p q) = x0 (ix2 p q) * x1 (ix2 p (0 : Fin 1)) := by
  unfold k1_pay1
  rw [mulf_apply, shapeCast_self, shapeCast_self, Cert.Spec.broadcastTo_a1_ab_apply]

/-- The same at an index `j` of the block whose row is `p`. -/
theorem scale1_at (x0 : Vec Ideal S12288x64 .f32) (x1 : Vec Ideal S12288x1 .f32) (j : S12288x64.Idx) (p : Fin 12288)
    (hp : p.val = (j 0).val) :
    k1_pay1 (F := Ideal) x0 x1 j = x0 j * x1 (ix2 p (0 : Fin 1)) := by
  obtain ⟨p', q, rfl⟩ : ∃ (p' : Fin 12288) (q : Fin 64), j = ix2 p' q := ⟨j 0, j 1, eq_ix2 j⟩
  obtain rfl : p = p' := Fin.ext hp
  exact scale1_entry x0 x1 p q

/-- Where the blocks sit: at grid point `t` every window's block is block number `t` of its array's rows, and the only
    block of columns. -/
theorem blockIdx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- WHAT POINT `t` WRITES BACK is block `t` of the row scaling of the two operand arrays as the region finds them. -/
theorem written1_eq (c : Dev nD) (t : Fin cfg1.N) :
    (dat1 (F := Ideal) V c).flushed 2 t
      = ((cfg1.win 2).blk t).view.read (Elt Ideal) (Cert.Spec.scaleByCol (V c main_v43) (V c main_v33)) := by
  show (cfg1.win 2).cut (grid1.coords t) ((dat1 V c).after 2 t) = _
  rw [after1_2]
  unfold out1_2
  rw [View.canon_unit_zero zeroOff1]
  simp only [View.ld_unit_zero (S := S12288x64) zeroOff1, View.ld_unit_zero (S := S12288x1) zeroOff1]
  obtain ⟨e0, e1, e2, e3, e4, e5⟩ := blockIdx1 t
  funext j
  have hj0 : (j 0).val < 12288 := (j 0).isLt
  have hj1 : (j 1).val < 64 := (j 1).isLt
  refine (scale1_at (iblk1 V c 0 t) (iblk1 V c 1 t) ((cfg1.win 2).xinj (grid1.coords t) j) ⟨(j 0).val, hj0⟩ rfl).trans ?_
  have h0 : ((cfg1.win 0).blk t).view.emb j = ((cfg1.win 2).blk t).view.emb j := by
    funext a; apply Fin.ext
    match a with
    | ⟨0, _⟩ => show win1_0.index t (0 : Fin 2) * 12288 + 1 * (j 0).val = win1_2.index t (0 : Fin 2) * 12288 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb (ix2 (⟨(j 0).val, hj0⟩ : Fin 12288) (0 : Fin 1))
      = ix2 ((((cfg1.win 2).blk t).view.emb j) 0) (0 : Fin 1) := by
    funext a; apply Fin.ext
    match a with
    | ⟨0, _⟩ => show win1_1.index t (0 : Fin 2) * 12288 + 1 * (j 0).val = win1_2.index t (0 : Fin 2) * 12288 + 1 * (j 0).val; omega
    | ⟨1, _⟩ => show win1_1.index t (1 : Fin 2) * 1 + 1 * 0 = 0; omega
  have key : ∀ (A : S4153344x64.Idx → Ideal .f32) (B : S4153344x1.Idx → Ideal .f32),
      A (((cfg1.win 0).blk t).view.emb j) * B (((cfg1.win 1).blk t).view.emb (ix2 (⟨(j 0).val, hj0⟩ : Fin 12288) (0 : Fin 1)))
        = A (((cfg1.win 2).blk t).view.emb j) * B (ix2 ((((cfg1.win 2).blk t).view.emb j) 0) (0 : Fin 1)) := by
    intro A B; rw [h0, h1]; rfl
  exact key (V c main_v43) (V c main_v33)

/-- An index of the result array is in point `t`'s block iff each coordinate is in the block's range on its axis. -/
theorem mem_block1 (t : Fin cfg1.N) (i : S4153344x64.Idx) :
    i ∈ ((cfg1.win 2).blk t).view.set ↔ ∀ a : Fin 2, win1_2.index t a * S12288x64.size a ≤ (i a).val ∧ (i a).val < win1_2.index t a * S12288x64.size a + S12288x64.size a := by
  show i ∈ ((View.whole main_v44).slice (win1_2.rect t)).set ↔ _
  rw [View.set_slice_whole, Rect.mem_set_unit]
  exact Iff.rfl

/-- The 338 blocks of 12288 rows tile the 4153344 rows: row `r` is in block `r / 12288`. -/
theorem tiled1 (i : S4153344x64.Idx) :
    ∃ t : Fin cfg1.N, (cfg1.win 2).flush t = true ∧ i ∈ ((cfg1.win 2).blk t).view.set := by
  have hi0 : (i 0).val < 4153344 := (i 0).isLt
  have hi1 : (i 1).val < 64 := (i 1).isLt
  obtain ⟨t, ht⟩ : ∃ t : Fin cfg1.N, t.val = (i 0).val / 12288 :=
    ⟨⟨(i 0).val / 12288, by show _ < grid1.N; rw [N_1]; omega⟩, rfl⟩
  obtain ⟨e0, e1, e2, e3, e4, e5⟩ := blockIdx1 t
  refine ⟨t, flush1_2 t, ?_⟩
  rw [mem_block1]
  intro a
  match a with
  | ⟨0, _⟩ => show win1_2.index t (0 : Fin 2) * 12288 ≤ (i 0).val ∧ (i 0).val < win1_2.index t (0 : Fin 2) * 12288 + 12288; omega
  | ⟨1, _⟩ => show win1_2.index t (1 : Fin 2) * 64 ≤ (i 1).val ∧ (i 1).val < win1_2.index t (1 : Fin 2) * 64 + 64; omega

/-- THE RESULT ARRAY after the region: the row scaling of the two operand arrays, everywhere. -/
theorem final1 (c : Dev nD) :
    (dat1 (F := Ideal) V c).arrAt 2 cfg1.N = Cert.Spec.scaleByCol (V c main_v43) (V c main_v33) :=
  (dat1 V c).arrAt_eq_of_cover 2 _ (fun t _ => written1_eq V c t) (tiled1)

end Cert.KernelIdeal.HandValue

end
-- ==== Proof.IdealValue2.lean ====
/-
  Region 2 of @main, read as a value: after the region the [150000, 64] result array is, entry by entry,
  `max (agg[n, j] + row[0, j]) 0` of the [150000, 64] operand `agg` and the one-row operand `row` as the region found them.
  Each of the 15 grid points writes back the block of 10000 rows whose number it is, computed from the same 10000 rows of
  `agg` and from the whole row; the 15 blocks tile the 150000 rows, so the array ends as that one function everywhere.
-/
import proofs.«102996_j6725918785568_1_alg».proof.Proof.IdealRegion2
import proofs.«102996_j6725918785568_1_alg».proof.Proof.SpecBlocks
import Idealize.ShloMosaic.Lib.Pipeline.Value
import Idealize.ShloMosaic.Lib.ValueLayout
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-block rectangle. -/
theorem zeroOff2 : (![0, 0] : Fin 2 → Nat) = fun _ => 0 := funext fun a => by fin_cases a <;> rfl

/-- The body's arithmetic at row `p`, column `q` of a block: the block's entry plus the row's entry in that column,
    clamped below at zero. The row is broadcast down the block's 10000 rows, so every row of the block sees it. -/
theorem biasRelu2_entry (x0 : Vec Ideal S10000x64 .f32) (x1 : Vec Ideal S1x64 .f32) (p : Fin 10000) (q : Fin 64) :
    k2_pay1 (F := Ideal) x0 x1 (ix2 p q)
      = max (x0 (ix2 p q) + x1 (ix2 (0 : Fin 1) q)) (Ideal.ofBits .f32 0x00000000#32) := by
  unfold k2_pay1
  rw [maximumf_apply, addf_apply, broadcast_apply, shapeCast_self, shapeCast_self, broadcastTo_1b_ab_apply]
  rfl

/-- The same at an index `j` of the block whose column is `q`. -/
theorem biasRelu2_at (x0 : Vec Ideal S10000x64 .f32) (x1 : Vec Ideal S1x64 .f32) (j : S10000x64.Idx) (q : Fin 64)
    (hq : q.val = (j 1).val) :
    k2_pay1 (F := Ideal) x0 x1 j = max (x0 j + x1 (ix2 (0 : Fin 1) q)) (Ideal.ofBits .f32 0x00000000#32) := by
  obtain ⟨p, q', rfl⟩ : ∃ (p : Fin 10000) (q' : Fin 64), j = ix2 p q' := ⟨j 0, j 1, eq_ix2 j⟩
  obtain rfl : q = q' := Fin.ext hq
  exact biasRelu2_entry x0 x1 p q

/-- Where the blocks sit: at grid point `t` the left operand's block and the result's block are both block number `t`
    of their arrays' rows (and the only block of columns), and the row operand's block is always its only block. -/
theorem blockIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- WHAT POINT `t` WRITES BACK is block `t` of the bias-and-clamp of the two operand arrays as the region finds them. -/
theorem written2_eq (c : Dev nD) (t : Fin cfg2.N) :
    (dat2 (F := Ideal) V c).flushed 2 t
      = ((cfg2.win 2).blk t).view.read (Elt Ideal) (Cert.Spec.biasReluRow (V c main_v48) (V c main_v49)) := by
  show (cfg2.win 2).cut (grid2.coords t) ((dat2 V c).after 2 t) = _
  rw [after2_2]
  unfold out2_2
  rw [View.canon_unit_zero zeroOff2]
  simp only [View.ld_unit_zero (S := S10000x64) zeroOff2, View.ld_unit_zero (S := S1x64) zeroOff2]
  obtain ⟨e0, e1, e2, e3, e4, e5⟩ := blockIdx2 t
  funext j
  have hj0 : (j 0).val < 10000 := (j 0).isLt
  have hj1 : (j 1).val < 64 := (j 1).isLt
  refine (biasRelu2_at (iblk2 V c 0 t) (iblk2 V c 1 t) ((cfg2.win 2).xinj (grid2.coords t) j) ⟨(j 1).val, hj1⟩ rfl).trans ?_
  have h0 : ((cfg2.win 0).blk t).view.emb j = ((cfg2.win 2).blk t).view.emb j := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 64 + 1 * (j 1).val = win2_2.index t (1 : Fin 2) * 64 + 1 * (j 1).val; omega
  have h1 : ((cfg2.win 1).blk t).view.emb (ix2 (0 : Fin 1) (⟨(j 1).val, hj1⟩ : Fin 64))
      = ix2 (0 : Fin 1) ((((cfg2.win 2).blk t).view.emb j) 1) := by
    funext a; apply Fin.ext
    match a with
    | ⟨0, _⟩ => show win2_1.index t (0 : Fin 2) * 1 + 1 * 0 = 0; omega
    | ⟨1, _⟩ => show win2_1.index t (1 : Fin 2) * 64 + 1 * (j 1).val = win2_2.index t (1 : Fin 2) * 64 + 1 * (j 1).val; omega
  have key : ∀ (A : S150000x64.Idx → Ideal .f32) (B : S1x64.Idx → Ideal .f32),
      max (A (((cfg2.win 0).blk t).view.emb j) + B (((cfg2.win 1).blk t).view.emb (ix2 (0 : Fin 1) (⟨(j 1).val, hj1⟩ : Fin 64)))) (Ideal.ofBits .f32 0x00000000#32)
        = max (A (((cfg2.win 2).blk t).view.emb j) + B (ix2 (0 : Fin 1) ((((cfg2.win 2).blk t).view.emb j) 1))) (Ideal.ofBits .f32 0x00000000#32) := by
    intro A B; rw [h0, h1]; rfl
  exact key (V c main_v48) (V c main_v49)

/-- An index of the result array is in point `t`'s block iff each coordinate is in the block's range on its axis. -/
theorem mem_block2 (t : Fin cfg2.N) (i : S150000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v50).slice (win2_2.rect t)).set ↔ _
  rw [View.set_slice_whole, Rect.mem_set_unit]
  exact Iff.rfl

/-- The 15 blocks of 10000 rows tile the 150000 rows: row `r` is in block `r / 10000`. -/
theorem tiled2 (i : S150000x64.Idx) :
    ∃ t : Fin cfg2.N, (cfg2.win 2).flush t = true ∧ i ∈ ((cfg2.win 2).blk t).view.set := by
  have hi0 : (i 0).val < 150000 := (i 0).isLt
  have hi1 : (i 1).val < 64 := (i 1).isLt
  obtain ⟨t, ht⟩ : ∃ t : Fin cfg2.N, t.val = (i 0).val / 10000 :=
    ⟨⟨(i 0).val / 10000, by show _ < grid2.N; rw [N_2]; omega⟩, rfl⟩
  obtain ⟨e0, e1, e2, e3, e4, e5⟩ := blockIdx2 t
  refine ⟨t, flush2_2 t, ?_⟩
  rw [mem_block2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- THE RESULT ARRAY after the region: the bias-and-clamp of the two operand arrays, everywhere. -/
theorem final2 (c : Dev nD) :
    (dat2 (F := Ideal) V c).arrAt 2 cfg2.N = Cert.Spec.biasReluRow (V c main_v48) (V c main_v49) :=
  (dat2 V c).arrAt_eq_of_cover 2 _ (fun t _ => written2_eq V c t) (tiled2)

end Cert.KernelIdeal.HandValue

end
-- ==== Proof.EdgeLayout.lean ====
/-
  Two facts about the layout in which the kernels meet a layer's dense pieces.

  The edge axis is padded from 4150000 to 4153344 = 338 · 12288 rows, so that the per-edge kernel runs over a whole number of
  blocks: the gathered rows [4150000, 64] are padded below with 3344 rows of a scalar, the per-edge weights are turned into a
  column [4150000, 1] and padded the same way, the padded rows are scaled by the padded column, and the first 4150000 rows
  are cut back out. A row `e < 4150000` of the padded product only reads row `e` of the two padded arrays, which is row `e`
  of the unpadded ones: the padding values never reach the result, and what is cut out is `g[e, j] · n[e]`.

  The bias enters the other dense piece as a row [1, 64], the reshape of the vector [64]: entry `(0, j)` of the row is entry
  `j` of the vector.
-/
import proofs.«102996_j6725918785568_1_alg».proof.KernelIdeal
import proofs.«102996_j6725918785568_1_alg».proof.Proof.SpecBlocks
import Idealize.ShloMosaic.Lib.KernelVsHost
import Idealize.ShloMosaic.Lib.Pipeline.Value
import Idealize.ShloMosaic.Lib.ValueIdx

noncomputable section

namespace Cert.KernelIdeal.HandValue

open Cert.KernelIdeal Idealize.ShloMosaic Idealize.ShloMosaic.ValueIdx

/-- Scaling the padded rows by the padded column of weights and cutting the first 4150000 rows back out is scaling row `e` by
    weight `e`: whatever the two padding scalars are. (The shape relations are hypotheses: any proofs of them do.) -/
theorem scale_padded (g : S4150000x64.Idx → Ideal .f32) (n : S4150000.Idx → Ideal .f32) (v v' : S_.Idx → Ideal .f32)
    (hp : S4150000x64.Pads (![0, 0] : Fin 2 → Nat) ![3344, 0] ![0, 0] S4153344x64)
    (hp' : S4150000x1.Pads (![0, 0] : Fin 2 → Nat) ![3344, 0] ![0, 0] S4153344x1)
    (hu : 0 < S_.numel) (hc : S4150000.ShapeCasts S4150000x1) (hs : S4153344x64.Slices ![0, 0] S4150000x64) :
    extractStridedSlice S4150000x64 ![0, 0]
        (Cert.Spec.scaleByCol (pad S4153344x64 ![0, 0] ![3344, 0] ![0, 0] g v hp hu)
          (pad S4153344x1 ![0, 0] ![3344, 0] ![0, 0] (shapeCast S4150000x1 n hc) v' hp' hu)) hs
      = Cert.Spec.scaleRows g n := by
  funext j
  obtain ⟨e, c, rfl⟩ : ∃ (e : Fin 4150000) (c : Fin 64), j = ix2 e c := ⟨j 0, j 1, eq_ix2 j⟩
  have he : e.val < 4153344 := by have := e.isLt; omega
  rw [extractStridedSlice_apply ![0, 0] _ hs (ix2 e c) (ix2 (⟨e.val, he⟩ : Fin 4153344) c) (fun a => match a with
    | ⟨0, _⟩ => by show e.val = 0 + e.val; omega
    | ⟨1, _⟩ => by show c.val = 0 + c.val; omega)]
  show pad S4153344x64 ![0, 0] ![3344, 0] ![0, 0] g v hp hu (ix2 (⟨e.val, he⟩ : Fin 4153344) c)
      * pad S4153344x1 ![0, 0] ![3344, 0] ![0, 0] (shapeCast S4150000x1 n hc) v' hp' hu (ix2 (⟨e.val, he⟩ : Fin 4153344) (0 : Fin 1))
    = g (ix2 e c) * n (ix1 e)
  rw [pad_apply_of_inside ![0, 0] ![3344, 0] ![0, 0] g v hp hu (ix2 (⟨e.val, he⟩ : Fin 4153344) c) (ix2 e c) (fun a => match a with
      | ⟨0, _⟩ => by show e.val = 0 + e.val * (0 + 1); omega
      | ⟨1, _⟩ => by show c.val = 0 + c.val * (0 + 1); omega),
    pad_apply_of_inside ![0, 0] ![3344, 0] ![0, 0] (shapeCast S4150000x1 n hc) v' hp' hu
      (ix2 (⟨e.val, he⟩ : Fin 4153344) (0 : Fin 1)) (ix2 e (0 : Fin 1)) (fun a => match a with
      | ⟨0, _⟩ => by show e.val = 0 + e.val * (0 + 1); omega
      | ⟨1, _⟩ => by show (0 : Nat) = 0 + 0 * (0 + 1); omega),
    shapeCast_apply n hc (ix2 e (0 : Fin 1)) (ix1 e) (by
      rw [Shape.rowMajor_val_one, Shape.rowMajor_val_two]; show e.val = e.val * 1 + 0; omega)]

/-- The bias as a row [1, 64] (the reshape of the vector) gives the same `max (agg + b) 0` as the bias as a vector. -/
theorem biasRow (a : S150000x64.Idx → Ideal .f32) (b : S64.Idx → Ideal .f32) (hc : S64.ShapeCasts S1x64) :
    Cert.Spec.biasReluRow a (shapeCast S1x64 b hc) = Cert.Spec.biasRelu a b := by
  funext i
  obtain ⟨r, c, rfl⟩ : ∃ (r : Fin 150000) (c : Fin 64), i = ix2 r c := ⟨i 0, i 1, eq_ix2 i⟩
  show max (a (ix2 r c) + shapeCast S1x64 b hc (ix2 (0 : Fin 1) c)) (Ideal.ofBits .f32 0x00000000#32)
    = max (a (ix2 r c) + b (ix1 c)) (Ideal.ofBits .f32 0x00000000#32)
  rw [shapeCast_apply b hc (ix2 (0 : Fin 1) c) (ix1 c) (by
    rw [Shape.rowMajor_val_one, Shape.rowMajor_val_two]; show c.val = 0 * 64 + c.val; omega)]

end Cert.KernelIdeal.HandValue

end
-- ==== Proof.IdealChainB.lean ====
/-
  The first layer of the idealized kernel program, boundary by boundary, each stage identified with the reference's stage of
  the same argument arrays.

  The first region leaves the matrix product `x · W₁` of the joined feature rows, which is the reference's contraction. The
  gather of its rows along the edge list is the same host operation of equal operands. The gathered rows and the column of
  per-edge weights are padded with a scalar from 4150000 to 4153344 rows, the second region scales row by row, and the
  padding is cut off again: a kept row never reads the padding, so what is kept is the reference's `g[e, j] · norm[e]`. The
  sum into the destination nodes is the same host scatter-add into zeros of equal operands. The third region adds the bias
  as a row [1, 64] and clamps at zero, which is the reference's broadcast add followed by its maximum with zero.
-/
import proofs.«102996_j6725918785568_1_alg».proof.Proof.IdealChainDefs
import proofs.«102996_j6725918785568_1_alg».proof.Proof.IdealPersist
import proofs.«102996_j6725918785568_1_alg».proof.Proof.IdealValue0
import proofs.«102996_j6725918785568_1_alg».proof.Proof.IdealValue1
import proofs.«102996_j6725918785568_1_alg».proof.Proof.IdealValue2
import proofs.«102996_j6725918785568_1_alg».proof.Proof.RefLayers
import proofs.«102996_j6725918785568_1_alg».proof.Proof.EdgeLayout

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.StableHlo
open Idealize.SL Idealize.SL.Sem
open Cert.ReferenceIdeal.ReadP (val_main_v7 val_main_v8 val_main_v31 val_main_v32 val_main_v33 val_main_v40 val_main_v43 val_main_v46
  val_main_v50 val_main_v51 val_main_v58 val_main_v61 val_main_v64 val_main_v68 val_main_v69 val_main_v70)

variable (m : (ℓ : Loc nD τ sig) → Buf (Elt Ideal) ℓ) (c : Dev nD)

/-- `h₁ = x · W₁`: the first region's result array is the reference's contraction of the feature rows with `W₁`. -/
theorem stage_v35 :
    Wout0 m c (Proc.devRef .tc main_v35) = val_main_v33 (F := Ideal) (a1 m c) (a2 m c) (a3 m c) := by
  refine ((Wout0_arr m c 2).trans (final0 (atRefs (Win0 m)) c)).trans ?_
  show Cert.Spec.matProd (W5 m c (Proc.devRef .tc main_v34)) (W5 m c (Proc.devRef .tc main_arg3)) = _
  rw [stage_v34, arg3_at_W5, Cert.ReferenceIdeal.RefValue.v33_eq]

set_option maxRecDepth 65536 in
/-- The rows of `h₁` gathered along the edge list. -/
theorem stage_v42 :
    W7 m c (Proc.devRef .tc main_v42) = val_main_v40 (F := Ideal) (a0 m c) (a1 m c) (a2 m c) (a3 m c) := by
  show StableHlo.after hostOps1 (Wout0 m c) (Proc.devRef .tc main_v42) = _
  host_results
  rw [rec_gather2, stage_v35, v7_at_Wout0, stage_v7]
  rfl

/-- Padding the gathered rows: whatever the stretch before it left, the padded array is the pad of the gathered rows with some
    scalar (the stretch's own constant, converted). -/
theorem pad_rows1 (W : Valuation τ sig (Elt Ideal)) (g : (⟨S4150000x64, .f32⟩ : BufTy).Contents (Elt Ideal))
    (hg : W (Proc.devRef .tc main_v42) = g) :
    ∃ v, StableHlo.after hostOps1_1 W (Proc.devRef .tc main_v43)
      = pad S4153344x64 ![0, 0] ![3344, 0] ![0, 0] g v pads_S4150000x64_S4153344x64_033440_000 h_S_ := by
  apply Exists.intro
  host_results
  rw [hg]
  rfl

/-- The gathered rows padded to a whole number of blocks, with some scalar. -/
theorem stage_v43 :
    ∃ v, W8 m c (Proc.devRef .tc main_v43)
      = pad S4153344x64 ![0, 0] ![3344, 0] ![0, 0]
          (val_main_v40 (F := Ideal) (a0 m c) (a1 m c) (a2 m c) (a3 m c)) v
          pads_S4150000x64_S4153344x64_033440_000 h_S_ :=
  pad_rows1 (W7 m c) _ (stage_v42 m c)

/-- The row scaling's result array: the padded rows times the padded column. -/
theorem stage_v44 :
    Wout1 m c (Proc.devRef .tc main_v44)
      = Cert.Spec.scaleByCol (W8 m c (Proc.devRef .tc main_v43)) (W8 m c (Proc.devRef .tc main_v33)) :=
  (Wout1_arr m c 2).trans (final1 (atRefs (Win1 m)) c)

/-- The first 4150000 rows of the scaled padded rows are the reference's scaled rows. -/
theorem slice_v44 (h33 : WeightColumn m c) :
    extractStridedSlice S4150000x64 ![0, 0] (Wout1 m c (Proc.devRef .tc main_v44)) slices_S4153344x64_S4150000x64_0_0
      = val_main_v43 (F := Ideal) (a0 m c) (a1 m c) (a2 m c) (a3 m c) := by
  obtain ⟨v, hv⟩ := stage_v43 m c
  obtain ⟨v', hv'⟩ := h33
  rw [stage_v44, v33_at_W8, hv, hv', scale_padded, Cert.ReferenceIdeal.RefValue.v43_eq]

set_option maxRecDepth 65536 in
/-- The scaled rows summed into their destination nodes. -/
theorem stage_v48 (h33 : WeightColumn m c) :
    W10 m c (Proc.devRef .tc main_v48) = val_main_v46 (F := Ideal) (a0 m c) (a1 m c) (a2 m c) (a3 m c) := by
  show StableHlo.after hostOps2 (Wout1 m c) (Proc.devRef .tc main_v48) = _
  host_results
  rw [rec_scatter2, slice_v44 m c h33, v8_at_Wout1, stage_v8]
  rfl

/-- The first bias as a row. -/
theorem stage_v49 : W10 m c (Proc.devRef .tc main_v49) = shapeCast S1x64 (a4 m c) shapeCasts_S64_S1x64 := by
  show StableHlo.after hostOps2 (Wout1 m c) (Proc.devRef .tc main_v49) = _
  host_results
  rw [arg4_at_Wout1]
  rfl

/-- The first layer's result: the third region's result array is the reference's clamped sum. -/
theorem stage_v50 (h33 : WeightColumn m c) : FirstLayer m c := by
  refine ((Wout2_arr m c 2).trans (final2 (atRefs (Win2 m)) c)).trans ?_
  show Cert.Spec.biasReluRow (W10 m c (Proc.devRef .tc main_v48)) (W10 m c (Proc.devRef .tc main_v49)) = _
  rw [stage_v48 m c h33, stage_v49, biasRow, Cert.ReferenceIdeal.RefValue.v50_eq]

end Cert.KernelIdeal.HandValue

end
-- ==== Proof.IdealValue3.lean ====
/-
  Region 3 of @main, read as a value: after the region the [150000, 64] result array is the matrix product
  `(x · W)[n, j] = Σ_k x[n, k] · W[k, j]` of the [150000, 64] operand `x` and the [64, 64] operand `W` as the region found
  them. Each of the 15 grid points writes back the block of 10000 rows whose number it is, the product of the same 10000
  rows of `x` with the whole of `W` (on the extended reals the change of float format before the product is the identity
  and the product is accumulated into zeros); the 15 blocks tile the 150000 rows, so the array ends as that product everywhere.
-/
import proofs.«102996_j6725918785568_1_alg».proof.Proof.IdealRegion3
import proofs.«102996_j6725918785568_1_alg».proof.Proof.SpecBlocks
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-block rectangle. -/
theorem zeroOff3 : (![0, 0] : Fin 2 → Nat) = fun _ => 0 := funext fun a => by fin_cases a <;> rfl

/-- The product's left factor sits in the result's row, -/
theorem lhsRow3 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl

/-- and its right factor in the result's column. -/
theorem rhsCol3 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The body's arithmetic at row `p`, column `q` of a block: the sum over `k` of the block's row `p` times the weight
    matrix's column `q`. -/
theorem matProd3_entry (x0 : Vec Ideal S10000x64 .f32) (x1 : Vec Ideal S64x64 .f32) (p : Fin 10000) (q : Fin 64) :
    k3_pay1 (F := Ideal) x0 x1 (ix2 p q) = ∑ k : Fin 64, x0 (ix2 p k) * x1 (ix2 k q) := by
  unfold k3_pay1
  rw [shapeCast_self]
  refine (Ideal.matmul_constant_zero_apply dot_S10000x64_S64x64_S10000x64_1_0_0_1_n_n none _ _ (ix2 p q)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhsRow3 _ _
    | ⟨1, _⟩ => exact (dot_S10000x64_S64x64_S10000x64_1_0_0_1_n_n.lhsIdx_val_of_single rfl _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (dot_S10000x64_S64x64_S10000x64_1_0_0_1_n_n.rhsIdx_val_of_single rfl _ _).trans hk
    | ⟨1, _⟩ => exact rhsCol3 _ _)
  rw [el, er]
  rfl

/-- The same at an index `j` of the block whose row and column are `p` and `q`. -/
theorem matProd3_at (x0 : Vec Ideal S10000x64 .f32) (x1 : Vec Ideal S64x64 .f32) (j : S10000x64.Idx) (p : Fin 10000) (q : Fin 64)
    (hp : p.val = (j 0).val) (hq : q.val = (j 1).val) :
    k3_pay1 (F := Ideal) x0 x1 j = ∑ k : Fin 64, x0 (ix2 p k) * x1 (ix2 k q) := by
  obtain ⟨p', q', rfl⟩ : ∃ (p' : Fin 10000) (q' : Fin 64), j = ix2 p' q' := ⟨j 0, j 1, eq_ix2 j⟩
  obtain rfl : p = p' := Fin.ext hp
  obtain rfl : q = q' := Fin.ext hq
  exact matProd3_entry x0 x1 p q

/-- Where the blocks sit: at grid point `t` the left operand's block and the result's block are both block number `t`
    of their arrays' rows (and the only block of columns), and the weight matrix's block is always its only block. -/
theorem blockIdx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- WHAT POINT `t` WRITES BACK is block `t` of the matrix product of the two operand arrays as the region finds them. -/
theorem written3_eq (c : Dev nD) (t : Fin cfg3.N) :
    (dat3 (F := Ideal) V c).flushed 2 t
      = ((cfg3.win 2).blk t).view.read (Elt Ideal) (Cert.Spec.matProd (V c main_v50) (V c main_arg5)) := by
  show (cfg3.win 2).cut (grid3.coords t) ((dat3 V c).after 2 t) = _
  rw [after3_2]
  unfold out3_2
  rw [View.canon_unit_zero zeroOff3]
  simp only [View.ld_unit_zero (S := S10000x64) zeroOff3, View.ld_unit_zero (S := S64x64) zeroOff3]
  obtain ⟨e0, e1, e2, e3, e4, e5⟩ := blockIdx3 t
  funext j
  have hj0 : (j 0).val < 10000 := (j 0).isLt
  have hj1 : (j 1).val < 64 := (j 1).isLt
  refine (matProd3_at (iblk3 V c 0 t) (iblk3 V c 1 t) ((cfg3.win 2).xinj (grid3.coords t) j) ⟨(j 0).val, hj0⟩ ⟨(j 1).val, hj1⟩ rfl rfl).trans ?_
  have h0 : ∀ k : Fin 64, ((cfg3.win 0).blk t).view.emb (ix2 (⟨(j 0).val, hj0⟩ : Fin 10000) k)
      = ix2 ((((cfg3.win 2).blk t).view.emb j) 0) k := by
    intro k; funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 64 + 1 * k.val = k.val; omega
  have h1 : ∀ k : Fin 64, ((cfg3.win 1).blk t).view.emb (ix2 k (⟨(j 1).val, hj1⟩ : Fin 64))
      = ix2 k ((((cfg3.win 2).blk t).view.emb j) 1) := by
    intro k; funext a; apply Fin.ext
    match a with
    | ⟨0, _⟩ => show win3_1.index t (0 : Fin 2) * 64 + 1 * k.val = k.val; omega
    | ⟨1, _⟩ => show win3_1.index t (1 : Fin 2) * 64 + 1 * (j 1).val = win3_2.index t (1 : Fin 2) * 64 + 1 * (j 1).val; omega
  have key : ∀ (A : S150000x64.Idx → Ideal .f32) (B : S64x64.Idx → Ideal .f32),
      (∑ k : Fin 64, A (((cfg3.win 0).blk t).view.emb (ix2 (⟨(j 0).val, hj0⟩ : Fin 10000) k))
          * B (((cfg3.win 1).blk t).view.emb (ix2 k (⟨(j 1).val, hj1⟩ : Fin 64))))
        = ∑ k : Fin 64, A (ix2 ((((cfg3.win 2).blk t).view.emb j) 0) k) * B (ix2 k ((((cfg3.win 2).blk t).view.emb j) 1)) := by
    intro A B; exact Finset.sum_congr rfl fun k _ => by rw [h0 k, h1 k]; rfl
  exact key (V c main_v50) (V c main_arg5)

/-- An index of the result array is in point `t`'s block iff each coordinate is in the block's range on its axis. -/
theorem mem_block3 (t : Fin cfg3.N) (i : S150000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v51).slice (win3_2.rect t)).set ↔ _
  rw [View.set_slice_whole, Rect.mem_set_unit]
  exact Iff.rfl

/-- The 15 blocks of 10000 rows tile the 150000 rows: row `r` is in block `r / 10000`. -/
theorem tiled3 (i : S150000x64.Idx) :
    ∃ t : Fin cfg3.N, (cfg3.win 2).flush t = true ∧ i ∈ ((cfg3.win 2).blk t).view.set := by
  have hi0 : (i 0).val < 150000 := (i 0).isLt
  have hi1 : (i 1).val < 64 := (i 1).isLt
  obtain ⟨t, ht⟩ : ∃ t : Fin cfg3.N, t.val = (i 0).val / 10000 :=
    ⟨⟨(i 0).val / 10000, by show _ < grid3.N; rw [N_3]; omega⟩, rfl⟩
  obtain ⟨e0, e1, e2, e3, e4, e5⟩ := blockIdx3 t
  refine ⟨t, flush3_2 t, ?_⟩
  rw [mem_block3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- THE RESULT ARRAY after the region: the matrix product of the two operand arrays, everywhere. -/
theorem final3 (c : Dev nD) :
    (dat3 (F := Ideal) V c).arrAt 2 cfg3.N = Cert.Spec.matProd (V c main_v50) (V c main_arg5) :=
  (dat3 V c).arrAt_eq_of_cover 2 _ (fun t _ => written3_eq V c t) (tiled3)

end Cert.KernelIdeal.HandValue

end
-- ==== Proof.IdealValue4.lean ====
/-
  Region 4 of @main, read as a value: after the region the [4153344, 64] result array is, entry by entry,
  `g[e, j] · col[e, 0]` of the [4153344, 64] operand `g` and the one-column operand `col` as the region found them.
  Each of the 338 grid points writes back the block of 12288 rows whose number it is, computed from the same 12288 rows
  of `g` and of `col`; the 338 blocks tile the 4153344 rows, so the array ends as that one function everywhere.
-/
import proofs.«102996_j6725918785568_1_alg».proof.Proof.IdealRegion4
import proofs.«102996_j6725918785568_1_alg».proof.Proof.SpecBlocks
import Idealize.ShloMosaic.Lib.Pipeline.Value
import Idealize.ShloMosaic.Lib.ValueLayout
import Idealize.ShloMosaic.Lib.ValueIdx
import proofs.«102996_j6725918785568_1_alg».proof.Proof.ColumnBroadcast

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-block rectangle. -/
theorem zeroOff4 : (![0, 0] : Fin 2 → Nat) = fun _ => 0 := funext fun a => by fin_cases a <;> rfl

/-- The body's arithmetic at row `p`, column `q` of a block: the block's entry times the column's entry in that row.
    The column is broadcast across the block's 64 columns, so every column of the block sees it. -/
theorem scale4_entry (x0 : Vec Ideal S12288x64 .f32) (x1 : Vec Ideal S12288x1 .f32) (p : Fin 12288) (q : Fin 64) :
    k4_pay1 (F := Ideal) x0 x1 (ix2 p q) = x0 (ix2 p q) * x1 (ix2 p (0 : Fin 1)) := by
  unfold k4_pay1
  rw [mulf_apply, shapeCast_self, shapeCast_self, Cert.Spec.broadcastTo_a1_ab_apply]

/-- The same at an index `j` of the block whose row is `p`. -/
theorem scale4_at (x0 : Vec Ideal S12288x64 .f32) (x1 : Vec Ideal S12288x1 .f32) (j : S12288x64.Idx) (p : Fin 12288)
    (hp : p.val = (j 0).val) :
    k4_pay1 (F := Ideal) x0 x1 j = x0 j * x1 (ix2 p (0 : Fin 1)) := by
  obtain ⟨p', q, rfl⟩ : ∃ (p' : Fin 12288) (q : Fin 64), j = ix2 p' q := ⟨j 0, j 1, eq_ix2 j⟩
  obtain rfl : p = p' := Fin.ext hp
  exact scale4_entry x0 x1 p q

/-- Where the blocks sit: at grid point `t` every window's block is block number `t` of its array's rows, and the only
    block of columns. -/
theorem blockIdx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- WHAT POINT `t` WRITES BACK is block `t` of the row scaling of the two operand arrays as the region finds them. -/
theorem written4_eq (c : Dev nD) (t : Fin cfg4.N) :
    (dat4 (F := Ideal) V c).flushed 2 t
      = ((cfg4.win 2).blk t).view.read (Elt Ideal) (Cert.Spec.scaleByCol (V c main_v59) (V c main_v33)) := by
  show (cfg4.win 2).cut (grid4.coords t) ((dat4 V c).after 2 t) = _
  rw [after4_2]
  unfold out4_2
  rw [View.canon_unit_zero zeroOff4]
  simp only [View.ld_unit_zero (S := S12288x64) zeroOff4, View.ld_unit_zero (S := S12288x1) zeroOff4]
  obtain ⟨e0, e1, e2, e3, e4, e5⟩ := blockIdx4 t
  funext j
  have hj0 : (j 0).val < 12288 := (j 0).isLt
  have hj1 : (j 1).val < 64 := (j 1).isLt
  refine (scale4_at (iblk4 V c 0 t) (iblk4 V c 1 t) ((cfg4.win 2).xinj (grid4.coords t) j) ⟨(j 0).val, hj0⟩ rfl).trans ?_
  have h0 : ((cfg4.win 0).blk t).view.emb j = ((cfg4.win 2).blk t).view.emb j := by
    funext a; apply Fin.ext
    match a with
    | ⟨0, _⟩ => show win4_0.index t (0 : Fin 2) * 12288 + 1 * (j 0).val = win4_2.index t (0 : Fin 2) * 12288 + 1 * (j 0).val; omega
    | ⟨1, _⟩ => show win4_0.index t (1 : Fin 2) * 64 + 1 * (j 1).val = win4_2.index t (1 : Fin 2) * 64 + 1 * (j 1).val; omega
  have h1 : ((cfg4.win 1).blk t).view.emb (ix2 (⟨(j 0).val, hj0⟩ : Fin 12288) (0 : Fin 1))
      = ix2 ((((cfg4.win 2).blk t).view.emb j) 0) (0 : Fin 1) := by
    funext a; apply Fin.ext
    match a with
    | ⟨0, _⟩ => show win4_1.index t (0 : Fin 2) * 12288 + 1 * (j 0).val = win4_2.index t (0 : Fin 2) * 12288 + 1 * (j 0).val; omega
    | ⟨1, _⟩ => show win4_1.index t (1 : Fin 2) * 1 + 1 * 0 = 0; omega
  have key : ∀ (A : S4153344x64.Idx → Ideal .f32) (B : S4153344x1.Idx → Ideal .f32),
      A (((cfg4.win 0).blk t).view.emb j) * B (((cfg4.win 1).blk t).view.emb (ix2 (⟨(j 0).val, hj0⟩ : Fin 12288) (0 : Fin 1)))
        = A (((cfg4.win 2).blk t).view.emb j) * B (ix2 ((((cfg4.win 2).blk t).view.emb j) 0) (0 : Fin 1)) := by
    intro A B; rw [h0, h1]; rfl
  exact key (V c main_v59) (V c main_v33)

/-- An index of the result array is in point `t`'s block iff each coordinate is in the block's range on its axis. -/
theorem mem_block4 (t : Fin cfg4.N) (i : S4153344x64.Idx) :
    i ∈ ((cfg4.win 2).blk t).view.set ↔ ∀ a : Fin 2, win4_2.index t a * S12288x64.size a ≤ (i a).val ∧ (i a).val < win4_2.index t a * S12288x64.size a + S12288x64.size a := by
  show i ∈ ((View.whole main_v60).slice (win4_2.rect t)).set ↔ _
  rw [View.set_slice_whole, Rect.mem_set_unit]
  exact Iff.rfl

/-- The 338 blocks of 12288 rows tile the 4153344 rows: row `r` is in block `r / 12288`. -/
theorem tiled4 (i : S4153344x64.Idx) :
    ∃ t : Fin cfg4.N, (cfg4.win 2).flush t = true ∧ i ∈ ((cfg4.win 2).blk t).view.set := by
  have hi0 : (i 0).val < 4153344 := (i 0).isLt
  have hi1 : (i 1).val < 64 := (i 1).isLt
  obtain ⟨t, ht⟩ : ∃ t : Fin cfg4.N, t.val = (i 0).val / 12288 :=
    ⟨⟨(i 0).val / 12288, by show _ < grid4.N; rw [N_4]; omega⟩, rfl⟩
  obtain ⟨e0, e1, e2, e3, e4, e5⟩ := blockIdx4 t
  refine ⟨t, flush4_2 t, ?_⟩
  rw [mem_block4]
  intro a
  match a with
  | ⟨0, _⟩ => show win4_2.index t (0 : Fin 2) * 12288 ≤ (i 0).val ∧ (i 0).val < win4_2.index t (0 : Fin 2) * 12288 + 12288; omega
  | ⟨1, _⟩ => show win4_2.index t (1 : Fin 2) * 64 ≤ (i 1).val ∧ (i 1).val < win4_2.index t (1 : Fin 2) * 64 + 64; omega

/-- THE RESULT ARRAY after the region: the row scaling of the two operand arrays, everywhere. -/
theorem final4 (c : Dev nD) :
    (dat4 (F := Ideal) V c).arrAt 2 cfg4.N = Cert.Spec.scaleByCol (V c main_v59) (V c main_v33) :=
  (dat4 V c).arrAt_eq_of_cover 2 _ (fun t _ => written4_eq V c t) (tiled4)

end Cert.KernelIdeal.HandValue

end
-- ==== Proof.IdealValue5.lean ====
/-
  Region 5 of @main, read as a value: after the region the [150000, 64] result array is, entry by entry,
  `max (agg[n, j] + row[0, j]) 0` of the [150000, 64] operand `agg` and the one-row operand `row` as the region found them.
  Each of the 15 grid points writes back the block of 10000 rows whose number it is, computed from the same 10000 rows of
  `agg` and from the whole row; the 15 blocks tile the 150000 rows, so the array ends as that one function everywhere.
-/
import proofs.«102996_j6725918785568_1_alg».proof.Proof.IdealRegion5
import proofs.«102996_j6725918785568_1_alg».proof.Proof.SpecBlocks
import Idealize.ShloMosaic.Lib.Pipeline.Value
import Idealize.ShloMosaic.Lib.ValueLayout
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-block rectangle. -/
theorem zeroOff5 : (![0, 0] : Fin 2 → Nat) = fun _ => 0 := funext fun a => by fin_cases a <;> rfl

/-- The body's arithmetic at row `p`, column `q` of a block: the block's entry plus the row's entry in that column,
    clamped below at zero. The row is broadcast down the block's 10000 rows, so every row of the block sees it. -/
theorem biasRelu5_entry (x0 : Vec Ideal S10000x64 .f32) (x1 : Vec Ideal S1x64 .f32) (p : Fin 10000) (q : Fin 64) :
    k5_pay1 (F := Ideal) x0 x1 (ix2 p q)
      = max (x0 (ix2 p q) + x1 (ix2 (0 : Fin 1) q)) (Ideal.ofBits .f32 0x00000000#32) := by
  unfold k5_pay1
  rw [maximumf_apply, addf_apply, broadcast_apply, shapeCast_self, shapeCast_self, broadcastTo_1b_ab_apply]
  rfl

/-- The same at an index `j` of the block whose column is `q`. -/
theorem biasRelu5_at (x0 : Vec Ideal S10000x64 .f32) (x1 : Vec Ideal S1x64 .f32) (j : S10000x64.Idx) (q : Fin 64)
    (hq : q.val = (j 1).val) :
    k5_pay1 (F := Ideal) x0 x1 j = max (x0 j + x1 (ix2 (0 : Fin 1) q)) (Ideal.ofBits .f32 0x00000000#32) := by
  obtain ⟨p, q', rfl⟩ : ∃ (p : Fin 10000) (q' : Fin 64), j = ix2 p q' := ⟨j 0, j 1, eq_ix2 j⟩
  obtain rfl : q = q' := Fin.ext hq
  exact biasRelu5_entry x0 x1 p q

/-- Where the blocks sit: at grid point `t` the left operand's block and the result's block are both block number `t`
    of their arrays' rows (and the only block of columns), and the row operand's block is always its only block. -/
theorem blockIdx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- WHAT POINT `t` WRITES BACK is block `t` of the bias-and-clamp of the two operand arrays as the region finds them. -/
theorem written5_eq (c : Dev nD) (t : Fin cfg5.N) :
    (dat5 (F := Ideal) V c).flushed 2 t
      = ((cfg5.win 2).blk t).view.read (Elt Ideal) (Cert.Spec.biasReluRow (V c main_v64) (V c main_v65)) := by
  show (cfg5.win 2).cut (grid5.coords t) ((dat5 V c).after 2 t) = _
  rw [after5_2]
  unfold out5_2
  rw [View.canon_unit_zero zeroOff5]
  simp only [View.ld_unit_zero (S := S10000x64) zeroOff5, View.ld_unit_zero (S := S1x64) zeroOff5]
  obtain ⟨e0, e1, e2, e3, e4, e5⟩ := blockIdx5 t
  funext j
  have hj0 : (j 0).val < 10000 := (j 0).isLt
  have hj1 : (j 1).val < 64 := (j 1).isLt
  refine (biasRelu5_at (iblk5 V c 0 t) (iblk5 V c 1 t) ((cfg5.win 2).xinj (grid5.coords t) j) ⟨(j 1).val, hj1⟩ rfl).trans ?_
  have h0 : ((cfg5.win 0).blk t).view.emb j = ((cfg5.win 2).blk t).view.emb j := by
    funext a; apply Fin.ext
    match a with
    | ⟨0, _⟩ => show win5_0.index t (0 : Fin 2) * 10000 + 1 * (j 0).val = win5_2.index t (0 : Fin 2) * 10000 + 1 * (j 0).val; omega
    | ⟨1, _⟩ => show win5_0.index t (1 : Fin 2) * 64 + 1 * (j 1).val = win5_2.index t (1 : Fin 2) * 64 + 1 * (j 1).val; omega
  have h1 : ((cfg5.win 1).blk t).view.emb (ix2 (0 : Fin 1) (⟨(j 1).val, hj1⟩ : Fin 64))
      = ix2 (0 : Fin 1) ((((cfg5.win 2).blk t).view.emb j) 1) := by
    funext a; apply Fin.ext
    match a with
    | ⟨0, _⟩ => show win5_1.index t (0 : Fin 2) * 1 + 1 * 0 = 0; omega
    | ⟨1, _⟩ => show win5_1.index t (1 : Fin 2) * 64 + 1 * (j 1).val = win5_2.index t (1 : Fin 2) * 64 + 1 * (j 1).val; omega
  have key : ∀ (A : S150000x64.Idx → Ideal .f32) (B : S1x64.Idx → Ideal .f32),
      max (A (((cfg5.win 0).blk t).view.emb j) + B (((cfg5.win 1).blk t).view.emb (ix2 (0 : Fin 1) (⟨(j 1).val, hj1⟩ : Fin 64)))) (Ideal.ofBits .f32 0x00000000#32)
        = max (A (((cfg5.win 2).blk t).view.emb j) + B (ix2 (0 : Fin 1) ((((cfg5.win 2).blk t).view.emb j) 1))) (Ideal.ofBits .f32 0x00000000#32) := by
    intro A B; rw [h0, h1]; rfl
  exact key (V c main_v64) (V c main_v65)

/-- An index of the result array is in point `t`'s block iff each coordinate is in the block's range on its axis. -/
theorem mem_block5 (t : Fin cfg5.N) (i : S150000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole main_v66).slice (win5_2.rect t)).set ↔ _
  rw [View.set_slice_whole, Rect.mem_set_unit]
  exact Iff.rfl

/-- The 15 blocks of 10000 rows tile the 150000 rows: row `r` is in block `r / 10000`. -/
theorem tiled5 (i : S150000x64.Idx) :
    ∃ t : Fin cfg5.N, (cfg5.win 2).flush t = true ∧ i ∈ ((cfg5.win 2).blk t).view.set := by
  have hi0 : (i 0).val < 150000 := (i 0).isLt
  have hi1 : (i 1).val < 64 := (i 1).isLt
  obtain ⟨t, ht⟩ : ∃ t : Fin cfg5.N, t.val = (i 0).val / 10000 :=
    ⟨⟨(i 0).val / 10000, by show _ < grid5.N; rw [N_5]; omega⟩, rfl⟩
  obtain ⟨e0, e1, e2, e3, e4, e5⟩ := blockIdx5 t
  refine ⟨t, flush5_2 t, ?_⟩
  rw [mem_block5]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 64 ≤ (i 1).val ∧ (i 1).val < win5_2.index t (1 : Fin 2) * 64 + 64; omega

/-- THE RESULT ARRAY after the region: the bias-and-clamp of the two operand arrays, everywhere. -/
theorem final5 (c : Dev nD) :
    (dat5 (F := Ideal) V c).arrAt 2 cfg5.N = Cert.Spec.biasReluRow (V c main_v64) (V c main_v65) :=
  (dat5 V c).arrAt_eq_of_cover 2 _ (fun t _ => written5_eq V c t) (tiled5)

end Cert.KernelIdeal.HandValue

end
-- ==== Proof.IdealChainC.lean ====
/-
  The second layer of the idealized kernel program, boundary by boundary, identified with the reference's stages of the
  same seven argument arrays.

  The second layer reads the first layer's result `out₁` (assumed here at the reference's stage of the arguments) and
  computes, in this order: the matrix product `out₁ · W₂` (a kernel region whose result array is the product index by index);
  the gather of its rows along the edge list (the same host operations of the same edge list as the reference's); the
  padding of the gathered rows from 4150000 to 4153344 rows; the row scaling by the padded column of per-edge weights (a
  region); the cut back to 4150000 rows — together the reference's `g[e, j] · norm[e]`, since a kept row never reads the
  padding —; the sum of the edge rows into their destination nodes (the same host scatter-add into zeros); the bias as a
  row [1, 64]; `max (agg + b) 0` (a region); and the two row ranges [0, 100000) and [100000, 150000) of the result.
  Every equation is either an operation read off the fold of host operations, a region's result array, a buffer read
  back through the items that do not write it, or one of the index-by-index identities of the dense pieces.
-/
import proofs.«102996_j6725918785568_1_alg».proof.Proof.IdealChainDefs
import proofs.«102996_j6725918785568_1_alg».proof.Proof.IdealPersist
import proofs.«102996_j6725918785568_1_alg».proof.Proof.IdealValue3
import proofs.«102996_j6725918785568_1_alg».proof.Proof.IdealValue4
import proofs.«102996_j6725918785568_1_alg».proof.Proof.IdealValue5
import proofs.«102996_j6725918785568_1_alg».proof.Proof.RefLayers
import proofs.«102996_j6725918785568_1_alg».proof.Proof.EdgeLayout

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.StableHlo
open Idealize.SL Idealize.SL.Sem
open Cert.ReferenceIdeal.ReadP (val_main_v7 val_main_v8 val_main_v31 val_main_v32 val_main_v33 val_main_v40 val_main_v43 val_main_v46
  val_main_v50 val_main_v51 val_main_v58 val_main_v61 val_main_v64 val_main_v68 val_main_v69 val_main_v70)

variable (m : (ℓ : Loc nD τ sig) → Buf (Elt Ideal) ℓ) (c : Dev nD)

/-- `h₂ = out₁ · W₂`: the region's result array is the matrix product of what it read. -/
theorem stage_v51 (h50 : FirstLayer m c) :
    Wout3 m c (Proc.devRef .tc main_v51)
      = val_main_v51 (F := Ideal) (a0 m c) (a1 m c) (a2 m c) (a3 m c) (a4 m c) (a5 m c) := by
  refine ((Wout3_arr m c 2).trans (final3 (atRefs (Win3 m)) c)).trans ?_
  show Cert.Spec.matProd (Wout2 m c (Proc.devRef .tc main_v50)) (Wout2 m c (Proc.devRef .tc main_arg5)) = _
  rw [h50, arg5_at_Wout2, Cert.ReferenceIdeal.RefValue.v51_eq]

set_option maxRecDepth 65536 in
/-- The rows of `h₂` gathered along the edge list. -/
theorem stage_v58 (h50 : FirstLayer m c) :
    W13 m c (Proc.devRef .tc main_v58)
      = val_main_v58 (F := Ideal) (a0 m c) (a1 m c) (a2 m c) (a3 m c) (a4 m c) (a5 m c) := by
  show StableHlo.after hostOps4 (Wout3 m c) (Proc.devRef .tc main_v58) = _
  host_results
  rw [rec_gather2, stage_v51 m c h50, v7_at_Wout3, stage_v7]
  rfl

/-- Padding the gathered rows: whatever the stretch before it left, the padded array is the pad of the gathered rows with some
    scalar (the stretch's own constant, converted). -/
theorem pad_rows (W : Valuation τ sig (Elt Ideal)) (g : (⟨S4150000x64, .f32⟩ : BufTy).Contents (Elt Ideal))
    (hg : W (Proc.devRef .tc main_v58) = g) :
    ∃ v, StableHlo.after hostOps4_1 W (Proc.devRef .tc main_v59)
      = pad S4153344x64 ![0, 0] ![3344, 0] ![0, 0] g v pads_S4150000x64_S4153344x64_033440_000 h_S_ := by
  apply Exists.intro
  host_results
  rw [hg]
  rfl

/-- The gathered rows padded to a whole number of blocks, with some scalar. -/
theorem stage_v59 (h50 : FirstLayer m c) :
    ∃ v, W14 m c (Proc.devRef .tc main_v59)
      = pad S4153344x64 ![0, 0] ![3344, 0] ![0, 0]
          (val_main_v58 (F := Ideal) (a0 m c) (a1 m c) (a2 m c) (a3 m c) (a4 m c) (a5 m c)) v
          pads_S4150000x64_S4153344x64_033440_000 h_S_ :=
  pad_rows (W13 m c) _ (stage_v58 m c h50)

/-- The row scaling's result array: the padded rows times the padded column. -/
theorem stage_v60 :
    Wout4 m c (Proc.devRef .tc main_v60)
      = Cert.Spec.scaleByCol (W14 m c (Proc.devRef .tc main_v59)) (W14 m c (Proc.devRef .tc main_v33)) :=
  (Wout4_arr m c 2).trans (final4 (atRefs (Win4 m)) c)

/-- The first 4150000 rows of the scaled padded rows are the reference's scaled rows. -/
theorem slice_v60 (h50 : FirstLayer m c) (h33 : WeightColumn m c) :
    extractStridedSlice S4150000x64 ![0, 0] (Wout4 m c (Proc.devRef .tc main_v60)) slices_S4153344x64_S4150000x64_0_0
      = val_main_v61 (F := Ideal) (a0 m c) (a1 m c) (a2 m c) (a3 m c) (a4 m c) (a5 m c) := by
  obtain ⟨v, hv⟩ := stage_v59 m c h50
  obtain ⟨v', hv'⟩ := h33
  rw [stage_v60, v33_at_W14, hv, hv', scale_padded, Cert.ReferenceIdeal.RefValue.v61_eq]

set_option maxRecDepth 65536 in
/-- The scaled rows summed into their destination nodes. -/
theorem stage_v64 (h50 : FirstLayer m c) (h33 : WeightColumn m c) :
    W16 m c (Proc.devRef .tc main_v64)
      = val_main_v64 (F := Ideal) (a0 m c) (a1 m c) (a2 m c) (a3 m c) (a4 m c) (a5 m c) := by
  show StableHlo.after hostOps5 (Wout4 m c) (Proc.devRef .tc main_v64) = _
  host_results
  rw [rec_scatter2, slice_v60 m c h50 h33, v8_at_Wout4, stage_v8]
  rfl

/-- The second bias as a row. -/
theorem stage_v65 : W16 m c (Proc.devRef .tc main_v65) = shapeCast S1x64 (a6 m c) shapeCasts_S64_S1x64 := by
  show StableHlo.after hostOps5 (Wout4 m c) (Proc.devRef .tc main_v65) = _
  host_results
  rw [arg6_at_Wout4]
  rfl

/-- `max (agg + b₂) 0`: the last region's result array is the reference's last stage before its two cuts. -/
theorem stage_v66 (h50 : FirstLayer m c) (h33 : WeightColumn m c) :
    Wout5 m c (Proc.devRef .tc main_v66)
      = val_main_v68 (F := Ideal) (a0 m c) (a1 m c) (a2 m c) (a3 m c) (a4 m c) (a5 m c) (a6 m c) := by
  refine ((Wout5_arr m c 2).trans (final5 (atRefs (Win5 m)) c)).trans ?_
  show Cert.Spec.biasReluRow (W16 m c (Proc.devRef .tc main_v64)) (W16 m c (Proc.devRef .tc main_v65)) = _
  rw [stage_v64 m c h50 h33, stage_v65, biasRow, Cert.ReferenceIdeal.RefValue.v68_eq]

/-- The first result: rows [0, 100000). -/
theorem stage_v67 (h50 : FirstLayer m c) (h33 : WeightColumn m c) :
    W18 m c (Proc.devRef .tc main_v67)
      = val_main_v69 (F := Ideal) (a0 m c) (a1 m c) (a2 m c) (a3 m c) (a4 m c) (a5 m c) (a6 m c) := by
  show StableHlo.after hostOps6 (Wout5 m c) (Proc.devRef .tc main_v67) = _
  host_results
  rw [stage_v66 m c h50 h33]
  rfl

/-- The second result: rows [100000, 150000). -/
theorem stage_v68 (h50 : FirstLayer m c) (h33 : WeightColumn m c) :
    W18 m c (Proc.devRef .tc main_v68)
      = val_main_v70 (F := Ideal) (a0 m c) (a1 m c) (a2 m c) (a3 m c) (a4 m c) (a5 m c) (a6 m c) := by
  show StableHlo.after hostOps6 (Wout5 m c) (Proc.devRef .tc main_v68) = _
  host_results
  rw [stage_v66 m c h50 h33]
  rfl

end Cert.KernelIdeal.HandValue

end
-- ==== Proof.IdealChainW.lean ====
/-
  The column of per-edge weights as the first layer's row scaling meets it. Both programs compute the weights alike from
  the edge list: the degree of every node (a sum of ones into the scatter's targets), its reciprocal square root where
  the degree is positive and zero elsewhere, and for each edge the product of the two end nodes' values. The kernel
  program then reshapes the weights [L] into a column [L, 1] and pads the column with a scalar up to a whole number of
  blocks. Each host stretch is read over ANY contents `V` it may find, from the stages before it as hypotheses.
-/
import proofs.«102996_j6725918785568_1_alg».proof.Proof.IdealChainDefs
import proofs.«102996_j6725918785568_1_alg».proof.Proof.IdealPersist

set_option maxRecDepth 65536

noncomputable section

namespace Cert.KernelIdeal.HandValue

open Cert.KernelIdeal Cert.KernelIdeal.Gen Cert.KernelIdeal.Hand
open Idealize.ShloMosaic Idealize.ShloMosaic.TcCoe Idealize.ShloMosaic.StableHlo
open Idealize.SL Idealize.SL.Sem

variable (V : Valuation τ sig (Elt Ideal))

/-! ## The first stretch: the edge lists, the degrees, their comparison with zero and their reciprocal square roots -/

set_option maxHeartbeats 8000000 in
/-- Which nodes have a positive degree. -/
theorem ops0_v14 : StableHlo.after hostOps0 V (Proc.devRef .tc main_v14) = Cert.ReferenceIdeal.ReadP.val_main_v14 (F := Ideal) (V (Proc.devRef .tc main_arg0)) := by
  host_results_rw
  rw [rec_scatter1]
  rfl

set_option maxHeartbeats 8000000 in
/-- The degrees' reciprocal square roots. -/
theorem ops0_v15 : StableHlo.after hostOps0 V (Proc.devRef .tc main_v15) = Cert.ReferenceIdeal.ReadP.val_main_v15 (F := Ideal) (V (Proc.devRef .tc main_arg0)) := by
  host_results_rw
  rw [rec_scatter1]
  rfl

/-- The zero the selection falls back to. -/
theorem ops0_cst2 : StableHlo.after hostOps0 V (Proc.devRef .tc main_cst_2) = Cert.ReferenceIdeal.ReadP.val_main_cst_2 (F := Ideal) := by
  host_results_rw
  rfl

/-! ## The second stretch: the selection -/

/-- `dinv`: the reciprocal square root where the degree is positive, zero elsewhere. -/
theorem ops01_v16 (x0) (h14 : V (Proc.devRef .tc main_v14) = Cert.ReferenceIdeal.ReadP.val_main_v14 (F := Ideal) x0)
    (h15 : V (Proc.devRef .tc main_v15) = Cert.ReferenceIdeal.ReadP.val_main_v15 (F := Ideal) x0)
    (hc : V (Proc.devRef .tc main_cst_2) = Cert.ReferenceIdeal.ReadP.val_main_cst_2 (F := Ideal)) :
    StableHlo.after hostOps0_1 V (Proc.devRef .tc main_v16) = Cert.ReferenceIdeal.ReadP.val_main_v16 (F := Ideal) x0 := by
  host_results
  show select (V (Proc.devRef .tc main_v14)) (V (Proc.devRef .tc main_v15)) (broadcastInDim S150000 ![] bcast_S_S150000 (id (V (Proc.devRef .tc main_cst_2)))) = _
  rw [h14, h15, hc]
  rfl

/-! ## The third stretch: the weights, and the weights as a column -/

/-- `norm[e] = dinv[row[e]] · dinv[col[e]]`. -/
theorem ops02_v31 (x0) (h16 : V (Proc.devRef .tc main_v16) = Cert.ReferenceIdeal.ReadP.val_main_v16 (F := Ideal) x0)
    (h7 : V (Proc.devRef .tc main_v7) = Cert.ReferenceIdeal.ReadP.val_main_v7 (F := Ideal) x0)
    (h8 : V (Proc.devRef .tc main_v8) = Cert.ReferenceIdeal.ReadP.val_main_v8 (F := Ideal) x0) :
    StableHlo.after hostOps0_2 V (Proc.devRef .tc main_v31) = Cert.ReferenceIdeal.ReadP.val_main_v31 (F := Ideal) x0 := by
  host_results
  rw [h16, h7, h8, rec_gather1]
  rfl

/-- The weights reshaped to a column [L, 1]. -/
theorem ops02_v32 (x0) (h16 : V (Proc.devRef .tc main_v16) = Cert.ReferenceIdeal.ReadP.val_main_v16 (F := Ideal) x0)
    (h7 : V (Proc.devRef .tc main_v7) = Cert.ReferenceIdeal.ReadP.val_main_v7 (F := Ideal) x0)
    (h8 : V (Proc.devRef .tc main_v8) = Cert.ReferenceIdeal.ReadP.val_main_v8 (F := Ideal) x0) :
    StableHlo.after hostOps0_2 V (Proc.devRef .tc main_v32)
      = shapeCast S4150000x1 (Cert.ReferenceIdeal.ReadP.val_main_v31 (F := Ideal) x0) shapeCasts_S4150000_S4150000x1 := by
  host_results
  rw [h16, h7, h8, rec_gather1]
  refine congrArg (fun g : (⟨S4150000, .f32⟩ : BufTy).Contents (Elt Ideal) => shapeCast S4150000x1 g shapeCasts_S4150000_S4150000x1) (?_ : _ = Cert.ReferenceIdeal.ReadP.val_main_v31 (F := Ideal) x0)
  rfl

/-! ## The fourth stretch: the padding -/

/-- Whatever the stretch before it left, the padded column is the pad of the column with some scalar. -/
theorem pad_col (W : Valuation τ sig (Elt Ideal)) (g : (⟨S4150000x1, .f32⟩ : BufTy).Contents (Elt Ideal))
    (hg : W (Proc.devRef .tc main_v32) = g) :
    ∃ v, StableHlo.after hostOps0_3 W (Proc.devRef .tc main_v33)
      = pad S4153344x1 ![0, 0] ![3344, 0] ![0, 0] g v pads_S4150000x1_S4153344x1_033440_000 h_S_ := by
  apply Exists.intro
  host_results
  rw [hg]
  rfl

/-! ## Together, from the launch memory -/

variable (m : (ℓ : Loc nD τ sig) → Buf (Elt Ideal) ℓ) (c : Dev nD)

theorem weightColumn : WeightColumn m c := by
  have h14 : W1 m c (Proc.devRef .tc main_v14) = Cert.ReferenceIdeal.ReadP.val_main_v14 (F := Ideal) (a0 m c) := ops0_v14 (W0 m c)
  have h15 : W1 m c (Proc.devRef .tc main_v15) = Cert.ReferenceIdeal.ReadP.val_main_v15 (F := Ideal) (a0 m c) := ops0_v15 (W0 m c)
  have hc : W1 m c (Proc.devRef .tc main_cst_2) = Cert.ReferenceIdeal.ReadP.val_main_cst_2 (F := Ideal) := ops0_cst2 (W0 m c)
  have h16 : W2 m c (Proc.devRef .tc main_v16) = Cert.ReferenceIdeal.ReadP.val_main_v16 (F := Ideal) (a0 m c) := ops01_v16 (W1 m c) (a0 m c) h14 h15 hc
  have h7 : W2 m c (Proc.devRef .tc main_v7) = Cert.ReferenceIdeal.ReadP.val_main_v7 (F := Ideal) (a0 m c) :=
    (StableHlo.after_of_writes_sub hostOps0_1 _ hostOps0_1_writes (by decide)).trans (stage_v7 m c)
  have h8 : W2 m c (Proc.devRef .tc main_v8) = Cert.ReferenceIdeal.ReadP.val_main_v8 (F := Ideal) (a0 m c) :=
    (StableHlo.after_of_writes_sub hostOps0_1 _ hostOps0_1_writes (by decide)).trans (stage_v8 m c)
  exact pad_col (W3 m c) _ (ops02_v32 (W2 m c) (a0 m c) h16 h7 h8)

end Cert.KernelIdeal.HandValue

end
-- ==== Proof.Algebraic.lean ====
/-
  The two idealized programs end with equal results. From memories that agree on the seven argument arrays: the kernel
  program's run ends with every unscoped buffer at the last boundary's contents, whose two result buffers are, stage by
  stage, the reference's last two stages of the argument arrays (the second layer's output cut into the users' rows and
  the items' rows); the reference's run ends with its two results at those same stages of ITS argument arrays, which
  are the kernel's. Both leave the arguments unchanged.
-/
import proofs.«102996_j6725918785568_1_alg».proof.Defs
import proofs.«102996_j6725918785568_1_alg».proof.Proof.Gen.Pre_finite_inputs
import proofs.«102996_j6725918785568_1_alg».proof.Proof.IdealRun
import proofs.«102996_j6725918785568_1_alg».proof.Proof.IdealKept
import proofs.«102996_j6725918785568_1_alg».proof.Proof.IdealChainB
import proofs.«102996_j6725918785568_1_alg».proof.Proof.IdealChainC
import proofs.«102996_j6725918785568_1_alg».proof.Proof.IdealChainW
import proofs.«102996_j6725918785568_1_alg».proof.Proof.RefRun

noncomputable section

namespace Cert.Proof.Values

open Idealize.ShloMosaic Idealize.ShloMosaic.TcCoe Idealize.SL.Sem

theorem algebraic : Cert.algebraic_KernelIdeal_ReferenceIdeal := by
  intro m ρ m' ρ' _ hagree
  refine ⟨fun c => Cert.ReferenceIdeal.ReadP.val_main_v69 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => (m ((c.tc : Thread Cert.KernelIdeal.nD Cert.KernelIdeal.τ).loc Cert.KernelIdeal.main_arg1)),
    fun c => Cert.ReferenceIdeal.ReadP.val_main_v70 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => (m ((c.tc : Thread Cert.KernelIdeal.nD Cert.KernelIdeal.τ).loc Cert.KernelIdeal.main_arg2)), ?_, ?_⟩
  · -- the kernel program: every result and argument buffer read off the last boundary's contents
    exact (θ_run (Cert.KernelIdeal.defs (F := Ideal)) _ _).mono (fun r h c =>
      ⟨(h c _ (Cert.KernelIdeal.Hand.mem_uc Cert.KernelIdeal.main_v67 (by decide))).trans (Cert.KernelIdeal.HandValue.stage_v67 m c (Cert.KernelIdeal.HandValue.stage_v50 m c (Cert.KernelIdeal.HandValue.weightColumn m c)) (Cert.KernelIdeal.HandValue.weightColumn m c)),
        (h c _ (Cert.KernelIdeal.Hand.mem_uc Cert.KernelIdeal.main_arg1 (by decide))).trans (Cert.KernelIdeal.Hand.W18_main_arg1 m c),
        (h c _ (Cert.KernelIdeal.Hand.mem_uc Cert.KernelIdeal.main_v68 (by decide))).trans (Cert.KernelIdeal.HandValue.stage_v68 m c (Cert.KernelIdeal.HandValue.stage_v50 m c (Cert.KernelIdeal.HandValue.weightColumn m c)) (Cert.KernelIdeal.HandValue.weightColumn m c)),
        (h c _ (Cert.KernelIdeal.Hand.mem_uc Cert.KernelIdeal.main_arg2 (by decide))).trans (Cert.KernelIdeal.Hand.W18_main_arg2 m c),
        (h c _ (Cert.KernelIdeal.Hand.mem_uc Cert.KernelIdeal.main_arg0 (by decide))).trans (Cert.KernelIdeal.Hand.W18_main_arg0 m c),
        (h c _ (Cert.KernelIdeal.Hand.mem_uc Cert.KernelIdeal.main_arg1 (by decide))).trans (Cert.KernelIdeal.Hand.W18_main_arg1 m c),
        (h c _ (Cert.KernelIdeal.Hand.mem_uc Cert.KernelIdeal.main_arg2 (by decide))).trans (Cert.KernelIdeal.Hand.W18_main_arg2 m c),
        (h c _ (Cert.KernelIdeal.Hand.mem_uc Cert.KernelIdeal.main_arg3 (by decide))).trans (Cert.KernelIdeal.Hand.W18_main_arg3 m c),
        (h c _ (Cert.KernelIdeal.Hand.mem_uc Cert.KernelIdeal.main_arg4 (by decide))).trans (Cert.KernelIdeal.Hand.W18_main_arg4 m c),
        (h c _ (Cert.KernelIdeal.Hand.mem_uc Cert.KernelIdeal.main_arg5 (by decide))).trans (Cert.KernelIdeal.Hand.W18_main_arg5 m c),
        (h c _ (Cert.KernelIdeal.Hand.mem_uc Cert.KernelIdeal.main_arg6 (by decide))).trans (Cert.KernelIdeal.Hand.W18_main_arg6 m c)⟩)
      (Cert.KernelIdeal.Hand.run_all (F := Ideal) m ρ)
  · -- the reference: its two results are those stages of its own argument arrays, which agree with the kernel's
    refine (θ_run (Cert.ReferenceIdeal.defs (F := Ideal)) _ _).mono (fun r h c => ?_) (Cert.ReferenceIdeal.ValueP.run (F := Ideal) m' ρ')
    obtain ⟨g0, g1, g2, g3, g4, g5, g6⟩ := hagree c
    obtain ⟨h69, h1, h70, h2, k0, k1, k2, k3, k4, k5, k6⟩ := h c
    refine ⟨?_, h1.trans g1, ?_, h2.trans g2, k0, k1, k2, k3, k4, k5, k6⟩
    · rw [h69, g0, g1, g2, g3, g4, g5, g6]
    · rw [h70, g0, g1, g2, g3, g4, g5, g6]

end Cert.Proof.Values

end
-- ==== Proof.lean ====
/- The proof of `Cert.Claim`: a two-layer graph convolution on a bipartite user–item graph, as three Pallas kernels per
   layer around host gathers and sums, against its plain formulation.

   One layer maps node features `x` [150000, 64] to `max (A (x · W) + b) 0`, where `A` gathers the rows of `x · W` along
   the edge list (every edge in both directions, one self loop per node), scales each gathered row by
   `1 / sqrt (deg row · deg col)` and sums the scaled rows into their target nodes. The kernel program computes `x · W` block
   of rows by block of rows on the matrix unit (after rounding both operands to bf16, which at the extended reals is the
   identity), scales the gathered rows block by block against the weights laid out as a padded column, and adds the
   bias and clamps block by block; gather, sum into nodes, padding and slicing are host operations. The reference does
   the same with one dot product, one broadcast multiply, one broadcast add and a maximum.

   FRAMES. @main of either kernel program is eighteen items: twelve stretches of host operations and six kernel regions.
   The contents of the unscoped buffers at every boundary are a fold from the launch memory (Proof/IdealFold, KernelFold);
   each region is run from the contents it is entered from, its body at every grid point by the symbolic executor
   (Proof/IdealRegion0–5, KernelRegion0–5), and put in the chain of items (Proof/IdealSeg0–5, KernelSeg0–5); the whole run
   ends with every unscoped buffer at the last boundary's contents (Proof/IdealRun, KernelRun). No item writes an argument
   (Proof/IdealKept, KernelKept), which is the frame claim of both programs (Proof/Frames). The reference's frame is its
   run with the results dropped (Proof/RefRun, RefResults).

   PRESERVES. The idealization rewrote no operation: nothing to prove.

   ALGEBRAIC. Each region's result array is one function of its two operand arrays, index by index: the blocks written
   back at the grid points tile the array (Proof/IdealValue0–5, over Proof/Spec, SpecBlocks). Read stage by stage off the
   fold, every buffer of the kernel program is the reference's stage of the same argument arrays (Proof/IdealChainA, W, B,
   C, over the reference's stages Proof/RefRead and their three differing pieces Proof/RefLayers, and the two layout facts
   of Proof/EdgeLayout: padding then scaling by a padded column then slicing is scaling by the weights, and a bias
   reshaped to a row is the bias); so the two results are the reference's last two stages, which the reference's run
   ends at (Proof/Algebraic). No law beyond commutativity of the operations' own arguments is used, and the
   precondition is never opened. -/
import proofs.«102996_j6725918785568_1_alg».proof.Defs
import proofs.«102996_j6725918785568_1_alg».proof.Proof.Gen.Kernel
import proofs.«102996_j6725918785568_1_alg».proof.Proof.Gen.KernelIdeal
import proofs.«102996_j6725918785568_1_alg».proof.Proof.Gen.ReferenceIdeal
import proofs.«102996_j6725918785568_1_alg».proof.Proof.Gen.Pre_finite_inputs
import proofs.«102996_j6725918785568_1_alg».proof.Proof.Frames
import proofs.«102996_j6725918785568_1_alg».proof.Proof.RefResults
import proofs.«102996_j6725918785568_1_alg».proof.Proof.Algebraic
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.Frames.frame_kernel, Cert.Proof.Frames.frame_kernelIdeal, Cert.ReferenceIdeal.RefValue.frame_ri, trivial,
    Cert.Proof.Values.algebraic⟩

end Cert.Proof

end
